-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1x1000 : Shape := ⟨3, ![2048, 1, 1000]⟩
abbrev S4x4000x1000 : Shape := ⟨3, ![4, 4000, 1000]⟩
abbrev S4x4000 : Shape := ⟨2, ![4, 4000]⟩
abbrev S_ : Shape := ⟨0, ![]⟩

class Facts : Prop where
  bcast_S_S2048x1x1000 : S_.BroadcastsInDim S2048x1x1000 (![] : Fin 0 → Fin S2048x1x1000.rank)
  reducesTo_S2048x1x1000_S_d0_1_2 : S2048x1x1000.ReducesTo [0, 1, 2] S_
  h_S_ : 0 < S_.numel
  bcast_S_S4x4000x1000 : S_.BroadcastsInDim S4x4000x1000 (![] : Fin 0 → Fin S4x4000x1000.rank)
  reducesTo_S4x4000x1000_S_d0_1_2 : S4x4000x1000.ReducesTo [0, 1, 2] S_
  bcast_S_S4x4000 : S_.BroadcastsInDim S4x4000 (![] : Fin 0 → Fin S4x4000.rank)
  reducesTo_S4x4000_S_d0_1 : S4x4000.ReducesTo [0, 1] S_

variable [Facts]

def fn_part1 {F : FTy → Type} [FloatOps F] (main_arg4 : FVec F S4x4000 .f32) (main_v13 : IVec S_ 1) (main_v16 : IVec S4x4000 1) : IVec S_ 1 :=
  let main_c_5 : IVec S_ 1 := constantI S_ 1 1#1
  let main_v17 : IVec S_ 1 := (fun x v => Host.reduce IntOp.andi x v reducesTo_S4x4000_S_d0_1 h_S_) main_v16 main_c_5
  let main_v18 : IVec S_ 1 := andi main_v13 main_v17
  let main_v19 : FVec F S4x4000 .f32 := Host.absf main_arg4
  let main_cst_6 : FVec F S_ .f32 := constant S_ .f32 0x7F800000#32
  let main_v20 : FVec F S4x4000 .f32 := broadcastInDim S4x4000 ![] bcast_S_S4x4000 main_cst_6
  let main_v21 : IVec S4x4000 1 := cmpf .olt main_v19 main_v20
  let main_c_7 : IVec S_ 1 := constantI S_ 1 1#1
  let main_v22 : IVec S_ 1 := (fun x v => Host.reduce IntOp.andi x v reducesTo_S4x4000_S_d0_1 h_S_) main_v21 main_c_7
  let main_v23 : IVec S_ 1 := andi main_v18 main_v22
  main_v23

def fn {F : FTy → Type} [FloatOps F] (main_arg0 : FVec F S2048x1x1000 .f32) (main_arg1 : FVec F S4x4000x1000 .f32) (main_arg2 : FVec F S4x4000x1000 .f32) (main_arg3 : FVec F S4x4000 .f32) (main_arg4 : FVec F S4x4000 .f32) : IVec S_ 1 :=
  let main_v0 : FVec F S2048x1x1000 .f32 := Host.absf main_arg0
  let main_cst : FVec F S_ .f32 := constant S_ .f32 0x7F800000#32
  let main_v1 : FVec F S2048x1x1000 .f32 := broadcastInDim S2048x1x1000 ![] bcast_S_S2048x1x1000 main_cst
  let main_v2 : IVec S2048x1x1000 1 := cmpf .olt main_v0 main_v1
  let main_c : IVec S_ 1 := constantI S_ 1 1#1
  let main_v3 : IVec S_ 1 := (fun x v => Host.reduce IntOp.andi x v reducesTo_S2048x1x1000_S_d0_1_2 h_S_) main_v2 main_c
  let main_v4 : FVec F S4x4000x1000 .f32 := Host.absf main_arg1
  let main_cst_0 : FVec F S_ .f32 := constant S_ .f32 0x7F800000#32
  let main_v5 : FVec F S4x4000x1000 .f32 := broadcastInDim S4x4000x1000 ![] bcast_S_S4x4000x1000 main_cst_0
  let main_v6 : IVec S4x4000x1000 1 := cmpf .olt main_v4 main_v5
  let main_c_1 : IVec S_ 1 := constantI S_ 1 1#1
  let main_v7 : IVec S_ 1 := (fun x v => Host.reduce IntOp.andi x v reducesTo_S4x4000x1000_S_d0_1_2 h_S_) main_v6 main_c_1
  let main_v8 : IVec S_ 1 := andi main_v3 main_v7
  let main_v9 : FVec F S4x4000x1000 .f32 := Host.absf main_arg2
  let main_cst_2 : FVec F S_ .f32 := constant S_ .f32 0x7F800000#32
  let main_v10 : FVec F S4x4000x1000 .f32 := broadcastInDim S4x4000x1000 ![] bcast_S_S4x4000x1000 main_cst_2
  let main_v11 : IVec S4x4000x1000 1 := cmpf .olt main_v9 main_v10
  let main_c_3 : IVec S_ 1 := constantI S_ 1 1#1
  let main_v12 : IVec S_ 1 := (fun x v => Host.reduce IntOp.andi x v reducesTo_S4x4000x1000_S_d0_1_2 h_S_) main_v11 main_c_3
  let main_v13 : IVec S_ 1 := andi main_v8 main_v12
  let main_v14 : FVec F S4x4000 .f32 := Host.absf main_arg3
  let main_cst_4 : FVec F S_ .f32 := constant S_ .f32 0x7F800000#32
  let main_v15 : FVec F S4x4000 .f32 := broadcastInDim S4x4000 ![] bcast_S_S4x4000 main_cst_4
  let main_v16 : IVec S4x4000 1 := cmpf .olt main_v14 main_v15
  fn_part1 (F := F) main_arg4 main_v13 main_v16
-- ==== Kernel.lean ====
abbrev S2048x1x1000 : Shape := ⟨3, ![2048, 1, 1000]⟩
abbrev S4x4000x1000 : Shape := ⟨3, ![4, 4000, 1000]⟩
abbrev S4x4000 : Shape := ⟨2, ![4, 4000]⟩
abbrev S2048x1000 : Shape := ⟨2, ![2048, 1000]⟩
abbrev S_ : Shape := ⟨0, ![]⟩
abbrev S2048x1024 : Shape := ⟨2, ![2048, 1024]⟩
abbrev S1x4000x1000 : Shape := ⟨3, ![1, 4000, 1000]⟩
abbrev S4000x1000 : Shape := ⟨2, ![4000, 1000]⟩
abbrev S1000x4000 : Shape := ⟨2, ![1000, 4000]⟩
abbrev S1000x4x1000 : Shape := ⟨3, ![1000, 4, 1000]⟩
abbrev S1024x4x1024 : Shape := ⟨3, ![1024, 4, 1024]⟩
abbrev S1024x4096 : Shape := ⟨2, ![1024, 4096]⟩
abbrev S1x4000 : Shape := ⟨2, ![1, 4000]⟩
abbrev S4000 : Shape := ⟨1, ![4000]⟩
abbrev S4x1000 : Shape := ⟨2, ![4, 1000]⟩
abbrev S4x1024 : Shape := ⟨2, ![4, 1024]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 122
  | .vmem => 47
  | .smem => 0
  | _ => 0

abbrev bufTy : (tb : Table) → Fin (tcTables nBuf tb) → BufTy
  | .hbm, ⟨0, _⟩ => ⟨S2048x1x1000, .f32⟩
  | .hbm, ⟨1, _⟩ => ⟨S4x4000x1000, .f32⟩
  | .hbm, ⟨2, _⟩ => ⟨S4x4000x1000, .f32⟩
  | .hbm, ⟨3, _⟩ => ⟨S4x4000, .f32⟩
  | .hbm, ⟨4, _⟩ => ⟨S4x4000, .f32⟩
  | .hbm, ⟨5, _⟩ => ⟨S2048x1000, .f32⟩
  | .hbm, ⟨6, _⟩ => ⟨S_, .i32⟩
  | .hbm, ⟨7, _⟩ => ⟨S_, .f32⟩
  | .hbm, ⟨8, _⟩ => ⟨S2048x1024, .f32⟩
  | .hbm, ⟨9, _⟩ => ⟨S1x4000x1000, .f32⟩
  | .hbm, ⟨10, _⟩ => ⟨S4000x1000, .f32⟩
  | .hbm, ⟨11, _⟩ => ⟨S1000x4000, .f32⟩
  | .hbm, ⟨12, _⟩ => ⟨S1000x4x1000, .f32⟩
  | .hbm, ⟨13, _⟩ => ⟨S_, .i32⟩
  | .hbm, ⟨14, _⟩ => ⟨S_, .f32⟩
  | .hbm, ⟨15, _⟩ => ⟨S1024x4x1024, .f32⟩
  | .hbm, ⟨16, _⟩ => ⟨S1024x4096, .f32⟩
  | .hbm, ⟨17, _⟩ => ⟨S1024x4096, .bf16⟩
  | .hbm, ⟨18, _⟩ => ⟨S1x4000, .f32⟩
  | .hbm, ⟨19, _⟩ => ⟨S4000, .f32⟩
  | .hbm, ⟨20, _⟩ => ⟨S1x4000, .f32⟩
  | .hbm, ⟨21, _⟩ => ⟨S4000, .f32⟩
  | .hbm, ⟨22, _⟩ => ⟨S4000, .f32⟩
  | .hbm, ⟨23, _⟩ => ⟨S4x1000, .f32⟩
  | .hbm, ⟨24, _⟩ => ⟨S_, .i32⟩
  | .hbm, ⟨25, _⟩ => ⟨S_, .f32⟩
  | .hbm, ⟨26, _⟩ => ⟨S4x1024, .f32⟩
  | .hbm, ⟨27, _⟩ => ⟨S1x4096, .f32⟩
  | .hbm, ⟨28, _⟩ => ⟨S2048x1024, .f32⟩
  | .hbm, ⟨29, _⟩ => ⟨S2048x1024, .f32⟩
  | .hbm, ⟨30, _⟩ => ⟨S1x4000x1000, .f32⟩
  | .hbm, ⟨31, _⟩ => ⟨S4000x1000, .f32⟩
  | .hbm, ⟨32, _⟩ => ⟨S1000x4000, .f32⟩
  | .hbm, ⟨33, _⟩ => ⟨S1000x4x1000, .f32⟩
  | .hbm, ⟨34, _⟩ => ⟨S_, .i32⟩
  | .hbm, ⟨35, _⟩ => ⟨S_, .f32⟩
  | .hbm, ⟨36, _⟩ => ⟨S1024x4x1024, .f32⟩
  | .hbm, ⟨37, _⟩ => ⟨S1024x4096, .f32⟩
  | .hbm, ⟨38, _⟩ => ⟨S1024x4096, .bf16⟩
  | .hbm, ⟨39, _⟩ => ⟨S1x4000, .f32⟩
  | .hbm, ⟨40, _⟩ => ⟨S4000, .f32⟩
  | .hbm, ⟨41, _⟩ => ⟨S1x4000, .f32⟩
  | .hbm, ⟨42, _⟩ => ⟨S4000, .f32⟩
  | .hbm, ⟨43, _⟩ => ⟨S4000, .f32⟩
  | .hbm, ⟨44, _⟩ => ⟨S4x1000, .f32⟩
  | .hbm, ⟨45, _⟩ => ⟨S_, .i32⟩
  | .hbm, ⟨46, _⟩ => ⟨S_, .f32⟩
  | .hbm, ⟨47, _⟩ => ⟨S4x1024, .f32⟩
  | .hbm, ⟨48, _⟩ => ⟨S1x4096, .f32⟩
  | .hbm, ⟨49, _⟩ => ⟨S1x4000x1000, .f32⟩
  | .hbm, ⟨50, _⟩ => ⟨S4000x1000, .f32⟩
  | .hbm, ⟨51, _⟩ => ⟨S1000x4000, .f32⟩
  | .hbm, ⟨52, _⟩ => ⟨S1000x4x1000, .f32⟩
  | .hbm, ⟨53, _⟩ => ⟨S_, .i32⟩
  | .hbm, ⟨54, _⟩ => ⟨S_, .f32⟩
  | .hbm, ⟨55, _⟩ => ⟨S1024x4x1024, .f32⟩
  | .hbm, ⟨56, _⟩ => ⟨S1024x4096, .f32⟩
  | .hbm, ⟨57, _⟩ => ⟨S1024x4096, .bf16⟩
  | .hbm, ⟨58, _⟩ => ⟨S2048x1024, .f32⟩
  | .hbm, ⟨59, _⟩ => ⟨S2048x1024, .f32⟩
  | .hbm, ⟨60, _⟩ => ⟨S1x4000x1000, .f32⟩
  | .hbm, ⟨61, _⟩ => ⟨S4000x1000, .f32⟩
  | .hbm, ⟨62, _⟩ => ⟨S1000x4000, .f32⟩
  | .hbm, ⟨63, _⟩ => ⟨S1000x4x1000, .f32⟩
  | .hbm, ⟨64, _⟩ => ⟨S_, .i32⟩
  | .hbm, ⟨65, _⟩ => ⟨S_, .f32⟩
  | .hbm, ⟨66, _⟩ => ⟨S1024x4x1024, .f32⟩
  | .hbm, ⟨67, _⟩ => ⟨S1024x4096, .f32⟩
  | .hbm, ⟨68, _⟩ => ⟨S1024x4096, .bf16⟩
  | .hbm, ⟨69, _⟩ => ⟨S1x4000, .f32⟩
  | .hbm, ⟨70, _⟩ => ⟨S4000, .f32⟩
  | .hbm, ⟨71, _⟩ => ⟨S1x4000, .f32⟩
  | .hbm, ⟨72, _⟩ => ⟨S4000, .f32⟩
  | .hbm, ⟨73, _⟩ => ⟨S4000, .f32⟩
  | .hbm, ⟨74, _⟩ => ⟨S4x1000, .f32⟩
  | .hbm, ⟨75, _⟩ => ⟨S_, .i32⟩
  | .hbm, ⟨76, _⟩ => ⟨S_, .f32⟩
  | .hbm, ⟨77, _⟩ => ⟨S4x1024, .f32⟩
  | .hbm, ⟨78, _⟩ => ⟨S1x4096, .f32⟩
  | .hbm, ⟨79, _⟩ => ⟨S1x4000x1000, .f32⟩
  | .hbm, ⟨80, _⟩ => ⟨S4000x1000, .f32⟩
  | .hbm, ⟨81, _⟩ => ⟨S1000x4000, .f32⟩
  | .hbm, ⟨82, _⟩ => ⟨S1000x4x1000, .f32⟩
  | .hbm, ⟨83, _⟩ => ⟨S_, .i32⟩
  | .hbm, ⟨84, _⟩ => ⟨S_, .f32⟩
  | .hbm, ⟨85, _⟩ => ⟨S1024x4x1024, .f32⟩
  | .hbm, ⟨86, _⟩ => ⟨S1024x4096, .f32⟩
  | .hbm, ⟨87, _⟩ => ⟨S1024x4096, .bf16⟩
  | .hbm, ⟨88, _⟩ => ⟨S2048x1024, .f32⟩
  | .hbm, ⟨89, _⟩ => ⟨S2048x1024, .f32⟩
  | .hbm, ⟨90, _⟩ => ⟨S1x4000x1000, .f32⟩
  | .hbm, ⟨91, _⟩ => ⟨S4000x1000, .f32⟩
  | .hbm, ⟨92, _⟩ => ⟨S1000x4000, .f32⟩
  | .hbm, ⟨93, _⟩ => ⟨S1000x4x1000, .f32⟩
  | .hbm, ⟨94, _⟩ => ⟨S_, .i32⟩
  | .hbm, ⟨95, _⟩ => ⟨S_, .f32⟩
  | .hbm, ⟨96, _⟩ => ⟨S1024x4x1024, .f32⟩
  | .hbm, ⟨97, _⟩ => ⟨S1024x4096, .f32⟩
  | .hbm, ⟨98, _⟩ => ⟨S1024x4096, .bf16⟩
  | .hbm, ⟨99, _⟩ => ⟨S1x4000, .f32⟩
  | .hbm, ⟨100, _⟩ => ⟨S4000, .f32⟩
  | .hbm, ⟨101, _⟩ => ⟨S1x4000, .f32⟩
  | .hbm, ⟨102, _⟩ => ⟨S4000, .f32⟩
  | .hbm, ⟨103, _⟩ => ⟨S4000, .f32⟩
  | .hbm, ⟨104, _⟩ => ⟨S4x1000, .f32⟩
  | .hbm, ⟨105, _⟩ => ⟨S_, .i32⟩
  | .hbm, ⟨106, _⟩ => ⟨S_, .f32⟩
  | .hbm, ⟨107, _⟩ => ⟨S4x1024, .f32⟩
  | .hbm, ⟨108, _⟩ => ⟨S1x4096, .f32⟩
  | .hbm, ⟨109, _⟩ => ⟨S1x4000x1000, .f32⟩
  | .hbm, ⟨110, _⟩ => ⟨S4000x1000, .f32⟩
  | .hbm, ⟨111, _⟩ => ⟨S1000x4000, .f32⟩
  | .hbm, ⟨112, _⟩ => ⟨S1000x4x1000, .f32⟩
  | .hbm, ⟨113, _⟩ => ⟨S_, .i32⟩
  | .hbm, ⟨114, _⟩ => ⟨S_, .f32⟩
  | .hbm, ⟨115, _⟩ => ⟨S1024x4x1024, .f32⟩
  | .hbm, ⟨116, _⟩ => ⟨S1024x4096, .f32⟩
  | .hbm, ⟨117, _⟩ => ⟨S1024x4096, .bf16⟩
  | .hbm, ⟨118, _⟩ => ⟨S2048x1024, .f32⟩
  | .hbm, ⟨119, _⟩ => ⟨S2048x1024, .f32⟩
  | .hbm, ⟨120, _⟩ => ⟨S2048x1000, .f32⟩
  | .hbm, ⟨121, _⟩ => ⟨S2048x1x1000, .f32⟩
  | .local _ .vmem, ⟨0, _⟩ => ⟨S128x1024, .f32⟩
  | .local _ .vmem, ⟨1, _⟩ => ⟨S128x1024, .f32⟩
  | .local _ .vmem, ⟨2, _⟩ => ⟨S1024x4096, .bf16⟩
  | .local _ .vmem, ⟨3, _⟩ => ⟨S1x4096, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S1024x4096, .bf16⟩
  | .local _ .vmem, ⟨15, _⟩ => ⟨S1024x4096, .bf16⟩
  | .local _ .vmem, ⟨16, _⟩ => ⟨S1x4096, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S1024x4096, .bf16⟩
  | .local _ .vmem, ⟨28, _⟩ => ⟨S1024x4096, .bf16⟩
  | .local _ .vmem, ⟨29, _⟩ => ⟨S1x4096, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | .local _ .vmem, ⟨39, _⟩ => ⟨S128x1024, .f32⟩
  | .local _ .vmem, ⟨40, _⟩ => ⟨S1024x4096, .bf16⟩
  | .local _ .vmem, ⟨41, _⟩ => ⟨S1024x4096, .bf16⟩
  | .local _ .vmem, ⟨42, _⟩ => ⟨S1x4096, .f32⟩
  | .local _ .vmem, ⟨43, _⟩ => ⟨S128x1024, .f32⟩
  | .local _ .vmem, ⟨44, _⟩ => ⟨S128x1024, .f32⟩
  | .local _ .vmem, ⟨45, _⟩ => ⟨S128x1024, .f32⟩
  | .local _ .vmem, ⟨46, _⟩ => ⟨S128x1024, .f32⟩
  | _, _ => ⟨S2048x1x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_call2_v0 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_call3_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_call4_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_call5_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40_0 : Ref sig .tc := ⟨.hbm, 58, rfl⟩
abbrev main_v40_1 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_5 : Ref sig .tc := ⟨.hbm, 64, rfl⟩
abbrev main_call6_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_6 : Ref sig .tc := ⟨.hbm, 75, rfl⟩
abbrev main_call7_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_7 : Ref sig .tc := ⟨.hbm, 83, rfl⟩
abbrev main_call8_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63_0 : Ref sig .tc := ⟨.hbm, 88, rfl⟩
abbrev main_v63_1 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_8 : Ref sig .tc := ⟨.hbm, 94, rfl⟩
abbrev main_call9_v0 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_9 : Ref sig .tc := ⟨.hbm, 105, rfl⟩
abbrev main_call10_v0 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_10 : Ref sig .tc := ⟨.hbm, 113, rfl⟩
abbrev main_call11_v0 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86_0 : Ref sig .tc := ⟨.hbm, 118, rfl⟩
abbrev main_v86_1 : Ref sig .tc := ⟨.hbm, 119, rfl⟩
abbrev main_v87 : Ref sig .tc := ⟨.hbm, 120, rfl⟩
abbrev main_v88 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg6_1 : Ref sig .tc := ⟨.vmem, 44, rfl⟩
abbrev cc3_stg7_0 : Ref sig .tc := ⟨.vmem, 45, rfl⟩
abbrev cc3_stg7_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem6_1 : DmaSem sig := 44
abbrev cc3_sem7_0 : DmaSem sig := 45
abbrev cc3_sem7_1 : DmaSem sig := 46

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x4096 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x4096 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S128x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S128x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x4096 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x4096 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x4096 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S128x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S128x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  shapeCasts_S2048x1x1000_S2048x1000 : S2048x1x1000.ShapeCasts S2048x1000
  pads_S2048x1000_S2048x1024_000_0240 : S2048x1000.Pads (![0, 0] : Fin 2 → Nat) ![0, 24] ![0, 0] S2048x1024
  h_S_ : 0 < S_.numel
  slices_S4x4000x1000_S1x4000x1000_0_0_0 : S4x4000x1000.Slices ![0, 0, 0] S1x4000x1000
  shapeCasts_S1x4000x1000_S4000x1000 : S1x4000x1000.ShapeCasts S4000x1000
  transposes_S4000x1000_S1000x4000_1_0 : S4000x1000.Transposes [1, 0] S1000x4000
  shapeCasts_S1000x4000_S1000x4x1000 : S1000x4000.ShapeCasts S1000x4x1000
  pads_S1000x4x1000_S1024x4x1024_0240_000_0240 : S1000x4x1000.Pads (![0, 0, 0] : Fin 3 → Nat) ![24, 0, 24] ![0, 0, 0] S1024x4x1024
  shapeCasts_S1024x4x1024_S1024x4096 : S1024x4x1024.ShapeCasts S1024x4096
  bitsLt_bf16_f32 : FTy.bits .bf16 < FTy.bits .f32
  slices_S4x4000_S1x4000_0_0 : S4x4000.Slices ![0, 0] S1x4000
  shapeCasts_S1x4000_S4000 : S1x4000.ShapeCasts S4000
  shapeCasts_S4000_S4x1000 : S4000.ShapeCasts S4x1000
  pads_S4x1000_S4x1024_000_0240 : S4x1000.Pads (![0, 0] : Fin 2 → Nat) ![0, 24] ![0, 0] S4x1024
  shapeCasts_S4x1024_S1x4096 : S4x1024.ShapeCasts S1x4096
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  slices_S4x4000x1000_S1x4000x1000_1_0_0 : S4x4000x1000.Slices ![1, 0, 0] S1x4000x1000
  slices_S4x4000_S1x4000_1_0 : S4x4000.Slices ![1, 0] S1x4000
  slices_S4x4000x1000_S1x4000x1000_2_0_0 : S4x4000x1000.Slices ![2, 0, 0] S1x4000x1000
  slices_S4x4000_S1x4000_2_0 : S4x4000.Slices ![2, 0] S1x4000
  slices_S4x4000x1000_S1x4000x1000_3_0_0 : S4x4000x1000.Slices ![3, 0, 0] S1x4000x1000
  slices_S4x4000_S1x4000_3_0 : S4x4000.Slices ![3, 0] S1x4000
  slices_S2048x1024_S2048x1000_0_0 : S2048x1024.Slices ![0, 0] S2048x1000
  shapeCasts_S2048x1000_S2048x1x1000 : S2048x1000.ShapeCasts S2048x1x1000
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S2048x1024.size a
  hwx0_0 : ∀ i : grid0.Coords, EltTy.bits .f32 = 32 ∨ (Rect.block (s := S2048x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S2048x1024.size a
  hwx0_3 : ∀ i : grid0.Coords, EltTy.bits .f32 = 32 ∨ (Rect.block (s := S2048x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S2048x1024.size a
  hwx0_4 : ∀ i : grid0.Coords, EltTy.bits .f32 = 32 ∨ (Rect.block (s := S2048x1024) S128x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S2048x1024.size a
  hwx1_0 : ∀ i : grid1.Coords, EltTy.bits .f32 = 32 ∨ (Rect.block (s := S2048x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S2048x1024.size a
  hwx1_1 : ∀ i : grid1.Coords, EltTy.bits .f32 = 32 ∨ (Rect.block (s := S2048x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S2048x1024.size a
  hwx1_2 : ∀ i : grid1.Coords, EltTy.bits .f32 = 32 ∨ (Rect.block (s := S2048x1024) S128x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S1024x4096.size a
  hwx1_3 : ∀ i : grid1.Coords, EltTy.bits .bf16 = 32 ∨ (Rect.block (s := S1024x4096) S1024x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S1024x4096.size a
  hwx1_4 : ∀ i : grid1.Coords, EltTy.bits .bf16 = 32 ∨ (Rect.block (s := S1024x4096) S1024x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x1024.size a ≤ S2048x1024.size a
  hwx1_6 : ∀ i : grid1.Coords, EltTy.bits .f32 = 32 ∨ (Rect.block (s := S2048x1024) S128x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x1024.size a ≤ S2048x1024.size a
  hwx1_7 : ∀ i : grid1.Coords, EltTy.bits .f32 = 32 ∨ (Rect.block (s := S2048x1024) S128x1024.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x1024.size a ≤ S2048x1024.size a
  hwx2_0 : ∀ i : grid2.Coords, EltTy.bits .f32 = 32 ∨ (Rect.block (s := S2048x1024) S128x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x1024.size a ≤ S2048x1024.size a
  hwx2_1 : ∀ i : grid2.Coords, EltTy.bits .f32 = 32 ∨ (Rect.block (s := S2048x1024) S128x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x1024.size a ≤ S2048x1024.size a
  hwx2_2 : ∀ i : grid2.Coords, EltTy.bits .f32 = 32 ∨ (Rect.block (s := S2048x1024) S128x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x4096.size a ≤ S1024x4096.size a
  hwx2_3 : ∀ i : grid2.Coords, EltTy.bits .bf16 = 32 ∨ (Rect.block (s := S1024x4096) S1024x4096.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x4096.size a ≤ S1024x4096.size a
  hwx2_4 : ∀ i : grid2.Coords, EltTy.bits .bf16 = 32 ∨ (Rect.block (s := S1024x4096) S1024x4096.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x4096.size a ≤ S1x4096.size a
  hwx2_5 : ∀ i : grid2.Coords, EltTy.bits .f32 = 32 ∨ (Rect.block (s := S1x4096) S1x4096.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S128x1024.size a ≤ S2048x1024.size a
  hwx2_6 : ∀ i : grid2.Coords, EltTy.bits .f32 = 32 ∨ (Rect.block (s := S2048x1024) S128x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S128x1024.size a ≤ S2048x1024.size a
  hwx2_7 : ∀ i : grid2.Coords, EltTy.bits .f32 = 32 ∨ (Rect.block (s := S2048x1024) S128x1024.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x1024.size a ≤ S2048x1024.size a
  hwx3_0 : ∀ i : grid3.Coords, EltTy.bits .f32 = 32 ∨ (Rect.block (s := S2048x1024) S128x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x1024.size a ≤ S2048x1024.size a
  hwx3_1 : ∀ i : grid3.Coords, EltTy.bits .f32 = 32 ∨ (Rect.block (s := S2048x1024) S128x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x1024.size a ≤ S2048x1024.size a
  hwx3_2 : ∀ i : grid3.Coords, EltTy.bits .f32 = 32 ∨ (Rect.block (s := S2048x1024) S128x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x4096.size a ≤ S1024x4096.size a
  hwx3_3 : ∀ i : grid3.Coords, EltTy.bits .bf16 = 32 ∨ (Rect.block (s := S1024x4096) S1024x4096.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x4096.size a ≤ S1024x4096.size a
  hwx3_4 : ∀ i : grid3.Coords, EltTy.bits .bf16 = 32 ∨ (Rect.block (s := S1024x4096) S1024x4096.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x4096.size a ≤ S1x4096.size a
  hwx3_5 : ∀ i : grid3.Coords, EltTy.bits .f32 = 32 ∨ (Rect.block (s := S1x4096) S1x4096.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S128x1024.size a ≤ S2048x1024.size a
  hwx3_6 : ∀ i : grid3.Coords, EltTy.bits .f32 = 32 ∨ (Rect.block (s := S2048x1024) S128x1024.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S128x1024.size a ≤ S2048x1024.size a
  hwx3_7 : ∀ i : grid3.Coords, EltTy.bits .f32 = 32 ∨ (Rect.block (s := S2048x1024) S128x1024.size (cc3_transform_7 i) (hinb3_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_v1) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S128x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_0) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_1) S128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1024x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1024x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40_0) S128x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v40_1) S128x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v1) S128x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40_0) S128x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40_1) S128x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1024x4096.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1024x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x4096.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63_0) S128x1024.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v63_1) S128x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v1) S128x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63_0) S128x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63_1) S128x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1024x4096.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S1024x4096.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x4096.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v86_0) S128x1024.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v86_1) S128x1024.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where
  halias1_6 : Pipeline.Aliased win1 1 6
  halias1_7 : Pipeline.Aliased win1 2 7
  halias2_6 : Pipeline.Aliased win2 1 6
  halias2_7 : Pipeline.Aliased win2 2 7
  halias3_6 : Pipeline.Aliased win3 1 6
  halias3_7 : Pipeline.Aliased win3 2 7

variable [Facts]
-- ==== ReferenceIdeal.lean ====
abbrev S2048x1x1000 : Shape := ⟨3, ![2048, 1, 1000]⟩
abbrev S4x4000x1000 : Shape := ⟨3, ![4, 4000, 1000]⟩
abbrev S4x4000 : Shape := ⟨2, ![4, 4000]⟩
abbrev S2048x1000 : Shape := ⟨2, ![2048, 1000]⟩
abbrev S_ : Shape := ⟨0, ![]⟩
abbrev S1x4000x1000 : Shape := ⟨3, ![1, 4000, 1000]⟩
abbrev S4000x1000 : Shape := ⟨2, ![4000, 1000]⟩
abbrev S1x4000 : Shape := ⟨2, ![1, 4000]⟩
abbrev S4000 : Shape := ⟨1, ![4000]⟩
abbrev S1000x4000 : Shape := ⟨2, ![1000, 4000]⟩
abbrev S2048x4000 : Shape := ⟨2, ![2048, 4000]⟩

abbrev nBuf : Space → Nat
  | .hbm => 218
  | .vmem => 0
  | .smem => 0
  | _ => 0

abbrev hbmTy0_0 (i : Nat) : BufTy := match i % 128 with
  | 0 => ⟨S2048x1x1000, .f32⟩
  | 1 => ⟨S4x4000x1000, .f32⟩
  | 2 => ⟨S4x4000x1000, .f32⟩
  | 3 => ⟨S4x4000, .f32⟩
  | 4 => ⟨S4x4000, .f32⟩
  | 5 => ⟨S2048x1000, .f32⟩
  | 6 => ⟨S_, .f32⟩
  | 7 => ⟨S2048x1000, .f32⟩
  | 8 => ⟨S_, .f32⟩
  | 9 => ⟨S2048x1000, .f32⟩
  | 10 => ⟨S1x4000x1000, .f32⟩
  | 11 => ⟨S4000x1000, .f32⟩
  | 12 => ⟨S1x4000x1000, .f32⟩
  | 13 => ⟨S4000x1000, .f32⟩
  | 14 => ⟨S1x4000, .f32⟩
  | 15 => ⟨S4000, .f32⟩
  | 16 => ⟨S1x4000, .f32⟩
  | 17 => ⟨S4000, .f32⟩
  | 18 => ⟨S1000x4000, .f32⟩
  | 19 => ⟨S2048x4000, .f32⟩
  | 20 => ⟨S1000x4000, .f32⟩
  | 21 => ⟨S2048x4000, .f32⟩
  | 22 => ⟨S2048x4000, .f32⟩
  | 23 => ⟨S4000, .f32⟩
  | 24 => ⟨S1x4000, .f32⟩
  | 25 => ⟨S2048x4000, .f32⟩
  | 26 => ⟨S2048x4000, .f32⟩
  | 27 => ⟨S2048x1000, .f32⟩
  | 28 => ⟨S2048x1000, .f32⟩
  | 29 => ⟨S2048x1000, .f32⟩
  | 30 => ⟨S2048x1000, .f32⟩
  | 31 => ⟨S2048x1000, .f32⟩
  | 32 => ⟨S2048x1000, .f32⟩
  | 33 => ⟨S_, .f32⟩
  | 34 => ⟨S2048x1000, .f32⟩
  | 35 => ⟨S2048x1000, .f32⟩
  | 36 => ⟨S_, .f32⟩
  | 37 => ⟨S2048x1000, .f32⟩
  | 38 => ⟨S2048x1000, .f32⟩
  | 39 => ⟨S2048x1000, .f32⟩
  | 40 => ⟨S2048x1000, .f32⟩
  | 41 => ⟨S2048x1000, .f32⟩
  | 42 => ⟨S_, .f32⟩
  | 43 => ⟨S2048x1000, .f32⟩
  | 44 => ⟨S2048x1000, .f32⟩
  | 45 => ⟨S_, .f32⟩
  | 46 => ⟨S2048x1000, .f32⟩
  | 47 => ⟨S2048x1000, .f32⟩
  | 48 => ⟨S2048x1000, .f32⟩
  | 49 => ⟨S2048x1000, .f32⟩
  | 50 => ⟨S2048x1000, .f32⟩
  | 51 => ⟨S2048x1000, .f32⟩
  | 52 => ⟨S2048x1000, .f32⟩
  | 53 => ⟨S_, .f32⟩
  | 54 => ⟨S2048x1000, .f32⟩
  | 55 => ⟨S2048x1000, .f32⟩
  | 56 => ⟨S_, .f32⟩
  | 57 => ⟨S2048x1000, .f32⟩
  | 58 => ⟨S2048x1000, .f32⟩
  | 59 => ⟨S2048x1000, .f32⟩
  | 60 => ⟨S2048x1000, .f32⟩
  | 61 => ⟨S1x4000x1000, .f32⟩
  | 62 => ⟨S4000x1000, .f32⟩
  | 63 => ⟨S1x4000x1000, .f32⟩
  | 64 => ⟨S4000x1000, .f32⟩
  | 65 => ⟨S1x4000, .f32⟩
  | 66 => ⟨S4000, .f32⟩
  | 67 => ⟨S1x4000, .f32⟩
  | 68 => ⟨S4000, .f32⟩
  | 69 => ⟨S1000x4000, .f32⟩
  | 70 => ⟨S2048x4000, .f32⟩
  | 71 => ⟨S1000x4000, .f32⟩
  | 72 => ⟨S2048x4000, .f32⟩
  | 73 => ⟨S2048x4000, .f32⟩
  | 74 => ⟨S4000, .f32⟩
  | 75 => ⟨S1x4000, .f32⟩
  | 76 => ⟨S2048x4000, .f32⟩
  | 77 => ⟨S2048x4000, .f32⟩
  | 78 => ⟨S2048x1000, .f32⟩
  | 79 => ⟨S2048x1000, .f32⟩
  | 80 => ⟨S2048x1000, .f32⟩
  | 81 => ⟨S2048x1000, .f32⟩
  | 82 => ⟨S2048x1000, .f32⟩
  | 83 => ⟨S2048x1000, .f32⟩
  | 84 => ⟨S_, .f32⟩
  | 85 => ⟨S2048x1000, .f32⟩
  | 86 => ⟨S2048x1000, .f32⟩
  | 87 => ⟨S_, .f32⟩
  | 88 => ⟨S2048x1000, .f32⟩
  | 89 => ⟨S2048x1000, .f32⟩
  | 90 => ⟨S2048x1000, .f32⟩
  | 91 => ⟨S2048x1000, .f32⟩
  | 92 => ⟨S2048x1000, .f32⟩
  | 93 => ⟨S_, .f32⟩
  | 94 => ⟨S2048x1000, .f32⟩
  | 95 => ⟨S2048x1000, .f32⟩
  | 96 => ⟨S_, .f32⟩
  | 97 => ⟨S2048x1000, .f32⟩
  | 98 => ⟨S2048x1000, .f32⟩
  | 99 => ⟨S2048x1000, .f32⟩
  | 100 => ⟨S2048x1000, .f32⟩
  | 101 => ⟨S2048x1000, .f32⟩
  | 102 => ⟨S2048x1000, .f32⟩
  | 103 => ⟨S2048x1000, .f32⟩
  | 104 => ⟨S_, .f32⟩
  | 105 => ⟨S2048x1000, .f32⟩
  | 106 => ⟨S2048x1000, .f32⟩
  | 107 => ⟨S_, .f32⟩
  | 108 => ⟨S2048x1000, .f32⟩
  | 109 => ⟨S2048x1000, .f32⟩
  | 110 => ⟨S2048x1000, .f32⟩
  | 111 => ⟨S2048x1000, .f32⟩
  | 112 => ⟨S1x4000x1000, .f32⟩
  | 113 => ⟨S4000x1000, .f32⟩
  | 114 => ⟨S1x4000x1000, .f32⟩
  | 115 => ⟨S4000x1000, .f32⟩
  | 116 => ⟨S1x4000, .f32⟩
  | 117 => ⟨S4000, .f32⟩
  | 118 => ⟨S1x4000, .f32⟩
  | 119 => ⟨S4000, .f32⟩
  | 120 => ⟨S1000x4000, .f32⟩
  | 121 => ⟨S2048x4000, .f32⟩
  | 122 => ⟨S1000x4000, .f32⟩
  | 123 => ⟨S2048x4000, .f32⟩
  | 124 => ⟨S2048x4000, .f32⟩
  | 125 => ⟨S4000, .f32⟩
  | 126 => ⟨S1x4000, .f32⟩
  | 127 => ⟨S2048x4000, .f32⟩
  | _ => ⟨S2048x1x1000, .f32⟩

abbrev hbmTy0_1 (i : Nat) : BufTy := match i % 128 with
  | 0 => ⟨S2048x4000, .f32⟩
  | 1 => ⟨S2048x1000, .f32⟩
  | 2 => ⟨S2048x1000, .f32⟩
  | 3 => ⟨S2048x1000, .f32⟩
  | 4 => ⟨S2048x1000, .f32⟩
  | 5 => ⟨S2048x1000, .f32⟩
  | 6 => ⟨S2048x1000, .f32⟩
  | 7 => ⟨S_, .f32⟩
  | 8 => ⟨S2048x1000, .f32⟩
  | 9 => ⟨S2048x1000, .f32⟩
  | 10 => ⟨S_, .f32⟩
  | 11 => ⟨S2048x1000, .f32⟩
  | 12 => ⟨S2048x1000, .f32⟩
  | 13 => ⟨S2048x1000, .f32⟩
  | 14 => ⟨S2048x1000, .f32⟩
  | 15 => ⟨S2048x1000, .f32⟩
  | 16 => ⟨S_, .f32⟩
  | 17 => ⟨S2048x1000, .f32⟩
  | 18 => ⟨S2048x1000, .f32⟩
  | 19 => ⟨S_, .f32⟩
  | 20 => ⟨S2048x1000, .f32⟩
  | 21 => ⟨S2048x1000, .f32⟩
  | 22 => ⟨S2048x1000, .f32⟩
  | 23 => ⟨S2048x1000, .f32⟩
  | 24 => ⟨S2048x1000, .f32⟩
  | 25 => ⟨S2048x1000, .f32⟩
  | 26 => ⟨S2048x1000, .f32⟩
  | 27 => ⟨S_, .f32⟩
  | 28 => ⟨S2048x1000, .f32⟩
  | 29 => ⟨S2048x1000, .f32⟩
  | 30 => ⟨S_, .f32⟩
  | 31 => ⟨S2048x1000, .f32⟩
  | 32 => ⟨S2048x1000, .f32⟩
  | 33 => ⟨S2048x1000, .f32⟩
  | 34 => ⟨S2048x1000, .f32⟩
  | 35 => ⟨S1x4000x1000, .f32⟩
  | 36 => ⟨S4000x1000, .f32⟩
  | 37 => ⟨S1x4000x1000, .f32⟩
  | 38 => ⟨S4000x1000, .f32⟩
  | 39 => ⟨S1x4000, .f32⟩
  | 40 => ⟨S4000, .f32⟩
  | 41 => ⟨S1x4000, .f32⟩
  | 42 => ⟨S4000, .f32⟩
  | 43 => ⟨S1000x4000, .f32⟩
  | 44 => ⟨S2048x4000, .f32⟩
  | 45 => ⟨S1000x4000, .f32⟩
  | 46 => ⟨S2048x4000, .f32⟩
  | 47 => ⟨S2048x4000, .f32⟩
  | 48 => ⟨S4000, .f32⟩
  | 49 => ⟨S1x4000, .f32⟩
  | 50 => ⟨S2048x4000, .f32⟩
  | 51 => ⟨S2048x4000, .f32⟩
  | 52 => ⟨S2048x1000, .f32⟩
  | 53 => ⟨S2048x1000, .f32⟩
  | 54 => ⟨S2048x1000, .f32⟩
  | 55 => ⟨S2048x1000, .f32⟩
  | 56 => ⟨S2048x1000, .f32⟩
  | 57 => ⟨S2048x1000, .f32⟩
  | 58 => ⟨S_, .f32⟩
  | 59 => ⟨S2048x1000, .f32⟩
  | 60 => ⟨S2048x1000, .f32⟩
  | 61 => ⟨S_, .f32⟩
  | 62 => ⟨S2048x1000, .f32⟩
  | 63 => ⟨S2048x1000, .f32⟩
  | 64 => ⟨S2048x1000, .f32⟩
  | 65 => ⟨S2048x1000, .f32⟩
  | 66 => ⟨S2048x1000, .f32⟩
  | 67 => ⟨S_, .f32⟩
  | 68 => ⟨S2048x1000, .f32⟩
  | 69 => ⟨S2048x1000, .f32⟩
  | 70 => ⟨S_, .f32⟩
  | 71 => ⟨S2048x1000, .f32⟩
  | 72 => ⟨S2048x1000, .f32⟩
  | 73 => ⟨S2048x1000, .f32⟩
  | 74 => ⟨S2048x1000, .f32⟩
  | 75 => ⟨S2048x1000, .f32⟩
  | 76 => ⟨S2048x1000, .f32⟩
  | 77 => ⟨S2048x1000, .f32⟩
  | 78 => ⟨S_, .f32⟩
  | 79 => ⟨S2048x1000, .f32⟩
  | 80 => ⟨S2048x1000, .f32⟩
  | 81 => ⟨S_, .f32⟩
  | 82 => ⟨S2048x1000, .f32⟩
  | 83 => ⟨S2048x1000, .f32⟩
  | 84 => ⟨S2048x1000, .f32⟩
  | 85 => ⟨S2048x1000, .f32⟩
  | 86 => ⟨S2048x1x1000, .f32⟩
  | 87 => ⟨S_, .f32⟩
  | 88 => ⟨S2048x1x1000, .f32⟩
  | 89 => ⟨S2048x1x1000, .f32⟩
  | _ => ⟨S2048x1x1000, .f32⟩

abbrev hbmTy (i : Nat) : BufTy := match i / 128 with
  | 0 => hbmTy0_0 i
  | 1 => hbmTy0_1 i
  | _ => ⟨S2048x1x1000, .f32⟩

abbrev bufTy : (tb : Table) → Fin (tcTables nBuf tb) → BufTy
  | .hbm, ⟨i, _⟩ => hbmTy i
  | _, _ => ⟨S2048x1x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_7 : Ref sig .tc := ⟨.hbm, 84, rfl⟩
abbrev main_v71 : Ref sig .tc := ⟨.hbm, 85, rfl⟩
abbrev main_v72 : Ref sig .tc := ⟨.hbm, 86, rfl⟩
abbrev main_cst_8 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_9 : Ref sig .tc := ⟨.hbm, 93, rfl⟩
abbrev main_v78 : Ref sig .tc := ⟨.hbm, 94, rfl⟩
abbrev main_v79 : Ref sig .tc := ⟨.hbm, 95, rfl⟩
abbrev main_cst_10 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_11 : Ref sig .tc := ⟨.hbm, 104, rfl⟩
abbrev main_v87 : Ref sig .tc := ⟨.hbm, 105, rfl⟩
abbrev main_v88 : Ref sig .tc := ⟨.hbm, 106, rfl⟩
abbrev main_cst_12 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_cst_13 : Ref sig .tc := ⟨.hbm, 135, rfl⟩
abbrev main_v116 : Ref sig .tc := ⟨.hbm, 136, rfl⟩
abbrev main_v117 : Ref sig .tc := ⟨.hbm, 137, rfl⟩
abbrev main_cst_14 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_15 : Ref sig .tc := ⟨.hbm, 144, rfl⟩
abbrev main_v123 : Ref sig .tc := ⟨.hbm, 145, rfl⟩
abbrev main_v124 : Ref sig .tc := ⟨.hbm, 146, rfl⟩
abbrev main_cst_16 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_cst_17 : Ref sig .tc := ⟨.hbm, 155, rfl⟩
abbrev main_v132 : Ref sig .tc := ⟨.hbm, 156, rfl⟩
abbrev main_v133 : Ref sig .tc := ⟨.hbm, 157, rfl⟩
abbrev main_cst_18 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_cst_19 : Ref sig .tc := ⟨.hbm, 186, rfl⟩
abbrev main_v161 : Ref sig .tc := ⟨.hbm, 187, rfl⟩
abbrev main_v162 : Ref sig .tc := ⟨.hbm, 188, rfl⟩
abbrev main_cst_20 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_cst_21 : Ref sig .tc := ⟨.hbm, 195, rfl⟩
abbrev main_v168 : Ref sig .tc := ⟨.hbm, 196, rfl⟩
abbrev main_v169 : Ref sig .tc := ⟨.hbm, 197, rfl⟩
abbrev main_cst_22 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_cst_23 : Ref sig .tc := ⟨.hbm, 206, rfl⟩
abbrev main_v177 : Ref sig .tc := ⟨.hbm, 207, rfl⟩
abbrev main_v178 : Ref sig .tc := ⟨.hbm, 208, rfl⟩
abbrev main_cst_24 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_call0_cst : Ref sig .tc := ⟨.hbm, 215, rfl⟩
abbrev main_call0_v0 : Ref sig .tc := ⟨.hbm, 216, rfl⟩
abbrev main_v184 : Ref sig .tc := ⟨.hbm, 217, rfl⟩

abbrev nD : Nat := 1
abbrev τ : Topo := Topo.v7x

variable {F : FTy → Type} [FloatOps F]

class Facts₀ : Prop where
  shapeCasts_S2048x1x1000_S2048x1000 : S2048x1x1000.ShapeCasts S2048x1000
  bcast_S_S2048x1000 : S_.BroadcastsInDim S2048x1000 (![] : Fin 0 → Fin S2048x1000.rank)
  slices_S4x4000x1000_S1x4000x1000_0_0_0 : S4x4000x1000.Slices ![0, 0, 0] S1x4000x1000
  shapeCasts_S1x4000x1000_S4000x1000 : S1x4000x1000.ShapeCasts S4000x1000
  slices_S4x4000_S1x4000_0_0 : S4x4000.Slices ![0, 0] S1x4000
  shapeCasts_S1x4000_S4000 : S1x4000.ShapeCasts S4000
  transposes_S4000x1000_S1000x4000_1_0 : S4000x1000.Transposes [1, 0] S1000x4000
  bcast_S4000_S1x4000_1 : S4000.BroadcastsInDim S1x4000 (![1] : Fin 1 → Fin S1x4000.rank)
  bcast_S1x4000_S2048x4000_0_1 : S1x4000.BroadcastsInDim S2048x4000 (![0, 1] : Fin 2 → Fin S2048x4000.rank)
  slices_S2048x4000_S2048x1000_0_0 : S2048x4000.Slices ![0, 0] S2048x1000
  slices_S2048x4000_S2048x1000_0_1000 : S2048x4000.Slices ![0, 1000] S2048x1000
  slices_S2048x4000_S2048x1000_0_2000 : S2048x4000.Slices ![0, 2000] S2048x1000
  slices_S2048x4000_S2048x1000_0_3000 : S2048x4000.Slices ![0, 3000] S2048x1000
  slices_S4x4000x1000_S1x4000x1000_1_0_0 : S4x4000x1000.Slices ![1, 0, 0] S1x4000x1000
  slices_S4x4000_S1x4000_1_0 : S4x4000.Slices ![1, 0] S1x4000
  slices_S4x4000x1000_S1x4000x1000_2_0_0 : S4x4000x1000.Slices ![2, 0, 0] S1x4000x1000
  slices_S4x4000_S1x4000_2_0 : S4x4000.Slices ![2, 0] S1x4000
  slices_S4x4000x1000_S1x4000x1000_3_0_0 : S4x4000x1000.Slices ![3, 0, 0] S1x4000x1000
  slices_S4x4000_S1x4000_3_0 : S4x4000.Slices ![3, 0] S1x4000
  shapeCasts_S2048x1000_S2048x1x1000 : S2048x1000.ShapeCasts S2048x1x1000
  bcast_S_S2048x1x1000 : S_.BroadcastsInDim S2048x1x1000 (![] : Fin 0 → Fin S2048x1x1000.rank)
  dot_S2048x1000_S1000x4000_S2048x4000_1_0_0_1_n_n_wf : DotDims.WF S2048x1000 S1000x4000 S2048x4000 [1] [0] [0] [1] [] []

variable [Facts₀]

def dot_S2048x1000_S1000x4000_S2048x4000_1_0_0_1_n_n : DotDims S2048x1000 S1000x4000 S2048x4000 where
  lhsContracting := [1]
  rhsContracting := [0]
  lhsNonContracting := [0]
  rhsNonContracting := [1]
  lhsBatch := []
  rhsBatch := []
  wf := dot_S2048x1000_S1000x4000_S2048x4000_1_0_0_1_n_n_wf

class Facts : Prop extends Facts₀ where

variable [Facts]
-- ==== Proof.NamedRun.lean ====
/-
  The kernel program's run with its result named.

  The program is a line of host operations cut by four kernel launches. Its buffers at each cut are a fold from the
  launch memory: a stretch of host operations writes its results, a launch leaves in each of its arrays what its
  write-backs leave and every other buffer as it was. Every weakly fair execution ends, without a fault, in a state
  whose unscoped buffers hold that fold's last stage; read at the result buffer this names the result, and read at the
  five arguments it gives them back unchanged.
-/
import proofs.«123216_j20375324852351_2_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    stage of the fold and the argument arrays as launched. -/
theorem run_named : θ_run defs (onTc (τ := τ) (main (F := F))) ⟨m, fun _ => 0, ρ⟩ (fun r => ∀ c : Dev nD,
      r.2.mem ((c.tc : Thread nD τ).loc main_v88) = W33 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h c =>
      ⟨h c _ (mem_uc main_v88 (by decide)),
       (h c _ (mem_uc main_arg0 (by decide))).trans (W33_main_arg0 m ρ c),
       (h c _ (mem_uc main_arg1 (by decide))).trans (W33_main_arg1 m ρ c),
       (h c _ (mem_uc main_arg2 (by decide))).trans (W33_main_arg2 m ρ c),
       (h c _ (mem_uc main_arg3 (by decide))).trans (W33_main_arg3 m ρ c),
       (h c _ (mem_uc main_arg4 (by decide))).trans (W33_main_arg4 m ρ c)⟩)

end Cert.KernelRun

end
-- ==== Proof.LstmCell.lean ====
/-
  The mathematics of a stack of LSTM cells whose state is reset at every row, on the extended reals.

  A cell takes a row `x n` of 1000 inputs, the previous hidden row `h n` and cell row `c n`, two weight matrices
  `wih`, `whh` in the layout [4000, 1000] (four gates of 1000 units each: input 0, forget 1, candidate 2, output 3, so
  unit `j` of gate `q` is row `q * 1000 + j`) and two bias vectors, and computes
      gate r   = (sum_k x k * wih r k  +  sum_k h k * whh r k) + (bih r + bhh r)
      c' j     = sigmoid (gate (1, j)) * c j + sigmoid (gate (0, j)) * tanh (gate (2, j))
      h' j     = sigmoid (gate (3, j)) * tanh (c' j).
  Four cells are chained from the zero state, every one reading the same `x`; the result is `max (h4) 0`.

  The same cell over PADDED data: 1024 units per gate (gate `q`'s unit `j` at column `q * 1024 + j` of 4096), weights
  transposed to [1024, 4096], one bias row. When the padded inputs are the real ones followed by zeros, the padded weight
  rows past 1000 are zero, and the padded weights and bias agree with the real ones at the real units, the padded cell
  agrees with the real cell at every real unit: a product with a zero factor is zero on the extended reals whatever the
  other factor, so the 24 extra terms of each sum vanish without any finiteness.
-/
import Idealize.ShloMosaic.PureOps.Ideal
import Idealize.ShloMosaic.Lib.ValueIdx
import Mathlib.Algebra.BigOperators.Fin

noncomputable section

open scoped BigOperators

namespace Cert.Lstm

open Idealize.ShloMosaic

/-- A matrix of extended reals by row and column. -/
abbrev Mat (a b : ℕ) := Fin a → Fin b → EReal

/-- Row of unit `j` of gate `q` on the 4000-long gate axis. -/
def gpos (q : Fin 4) (j : Fin 1000) : Fin 4000 := ⟨q.val * 1000 + j.val, by have := q.isLt; have := j.isLt; omega⟩
/-- Column of unit `j` of gate `q` on the padded, 4096-long gate axis. -/
def gposP (q : Fin 4) (j : Fin 1024) : Fin 4096 := ⟨q.val * 1024 + j.val, by have := q.isLt; have := j.isLt; omega⟩
/-- A real unit (or input coordinate) among the 1024 padded ones. -/
def up (j : Fin 1000) : Fin 1024 := ⟨j.val, by have := j.isLt; omega⟩

variable {N : ℕ}

/-! ## The cell -/

/-- One gate pre-activation of row `n`. -/
def gate (x h : Mat N 1000) (wih whh : Mat 4000 1000) (bih bhh : Fin 4000 → EReal) (n : Fin N) (r : Fin 4000) : EReal :=
  ((∑ k : Fin 1000, x n k * wih r k) + (∑ k : Fin 1000, h n k * whh r k)) + (bih r + bhh r)

/-- The new cell state. -/
def cellC (x h c : Mat N 1000) (wih whh : Mat 4000 1000) (bih bhh : Fin 4000 → EReal) : Mat N 1000 := fun n j =>
  Ideal.logistic (gate x h wih whh bih bhh n (gpos 1 j)) * c n j
    + Ideal.logistic (gate x h wih whh bih bhh n (gpos 0 j)) * Ideal.tanh (gate x h wih whh bih bhh n (gpos 2 j))

/-- The new hidden state. -/
def cellH (x h c : Mat N 1000) (wih whh : Mat 4000 1000) (bih bhh : Fin 4000 → EReal) : Mat N 1000 := fun n j =>
  Ideal.logistic (gate x h wih whh bih bhh n (gpos 3 j)) * Ideal.tanh (cellC x h c wih whh bih bhh n j)

/-- The zero state. -/
def zeroM : Mat N 1000 := fun _ _ => 0

/-- One cell applied to a pair (hidden state, cell state). -/
def step (x : Mat N 1000) (wih whh : Mat 4000 1000) (bih bhh : Fin 4000 → EReal) (s : Mat N 1000 × Mat N 1000) :
    Mat N 1000 × Mat N 1000 :=
  (cellH x s.1 s.2 wih whh bih bhh, cellC x s.1 s.2 wih whh bih bhh)

/-- The stack's result: four cells from the zero state, cell `l` with the `l`-th weights and biases, every cell reading
    the same `x`; then the hidden state clamped below at zero. -/
def net (x : Mat N 1000) (wih whh : Fin 4 → Mat 4000 1000) (bih bhh : Fin 4 → Fin 4000 → EReal) : Mat N 1000 := fun n j =>
  max ((step x (wih 3) (whh 3) (bih 3) (bhh 3)
        (step x (wih 2) (whh 2) (bih 2) (bhh 2)
          (step x (wih 1) (whh 1) (bih 1) (bhh 1)
            (step x (wih 0) (whh 0) (bih 0) (bhh 0) (zeroM, zeroM))))).1 n j) 0

/-! ## The cell over padded data -/

/-- One padded gate pre-activation of row `n`. -/
def gateP (xp hp : Mat N 1024) (wih whh : Mat 1024 4096) (b : Fin 4096 → EReal) (n : Fin N) (r : Fin 4096) : EReal :=
  ((∑ k : Fin 1024, xp n k * wih k r) + (∑ k : Fin 1024, hp n k * whh k r)) + b r

/-- The padded new cell state. -/
def cellCP (xp hp cp : Mat N 1024) (wih whh : Mat 1024 4096) (b : Fin 4096 → EReal) : Mat N 1024 := fun n j =>
  Ideal.logistic (gateP xp hp wih whh b n (gposP 1 j)) * cp n j
    + Ideal.logistic (gateP xp hp wih whh b n (gposP 0 j)) * Ideal.tanh (gateP xp hp wih whh b n (gposP 2 j))

/-- The padded new hidden state. -/
def cellHP (xp hp cp : Mat N 1024) (wih whh : Mat 1024 4096) (b : Fin 4096 → EReal) : Mat N 1024 := fun n j =>
  Ideal.logistic (gateP xp hp wih whh b n (gposP 3 j)) * Ideal.tanh (cellCP xp hp cp wih whh b n j)

/-- The first cell's padded gate: the state is zero, so only the input product and the bias are computed. -/
def gateP0 (xp : Mat N 1024) (wih : Mat 1024 4096) (b : Fin 4096 → EReal) (n : Fin N) (r : Fin 4096) : EReal :=
  (∑ k : Fin 1024, xp n k * wih k r) + b r

/-- The first cell's padded new cell state (no forget term). -/
def cellCP0 (xp : Mat N 1024) (wih : Mat 1024 4096) (b : Fin 4096 → EReal) : Mat N 1024 := fun n j =>
  Ideal.logistic (gateP0 xp wih b n (gposP 0 j)) * Ideal.tanh (gateP0 xp wih b n (gposP 2 j))

/-- The first cell's padded new hidden state. -/
def cellHP0 (xp : Mat N 1024) (wih : Mat 1024 4096) (b : Fin 4096 → EReal) : Mat N 1024 := fun n j =>
  Ideal.logistic (gateP0 xp wih b n (gposP 3 j)) * Ideal.tanh (cellCP0 xp wih b n j)

/-! ## Arrays seen as matrices -/

open Idealize.ShloMosaic.ValueIdx

/-- A rank-2 array by row and column. -/
def mat2 {a b : ℕ} (A : (⟨2, ![a, b]⟩ : Shape).Idx → EReal) : Mat a b := fun n k => A (ix2 n k)
/-- The one row of a [1, b] array. -/
def row2 {b : ℕ} (A : (⟨2, ![1, b]⟩ : Shape).Idx → EReal) : Fin b → EReal := fun r => A (ix2 0 r)
/-- An [a, 1, b] array by its first and last coordinate. -/
def rows3 {a b : ℕ} (A : (⟨3, ![a, 1, b]⟩ : Shape).Idx → EReal) : Mat a b := fun n k => A (ix3 n 0 k)
/-- Layer `l` of a [4, a, b] stack of matrices. -/
def layer3 {a b : ℕ} (A : (⟨3, ![4, a, b]⟩ : Shape).Idx → EReal) (l : Fin 4) : Mat a b := fun r k => A (ix3 l r k)
/-- Layer `l` of a [4, a] stack of vectors. -/
def layer2 {a : ℕ} (A : (⟨2, ![4, a]⟩ : Shape).Idx → EReal) (l : Fin 4) : Fin a → EReal := fun r => A (ix2 l r)

end Cert.Lstm

end
-- ==== Proof.PaddedCell.lean ====
/-
  The padded cell agrees with the real cell at the real units.

  Padding adds 24 zero coordinates to each input row, 24 zero rows to each transposed weight matrix, and 24 units to
  each gate. At a real unit of a gate, the padded pre-activation is a sum of 1024 products whose last 24 have a zero
  weight factor, and a product with a zero factor is zero on the extended reals whatever the other factor is; so the
  padded sum is the real sum of 1000 products, with no assumption that anything is finite. The padded hidden and cell
  rows need only agree with the real ones at the real units: what they hold at the 24 extra units is multiplied by zero
  weights in the next cell. The first cell starts from the zero state: its hidden-state product is a sum of zeros, and
  the forget term is a product with zero.
-/
import proofs.«123216_j20375324852351_2_alg».proof.Proof.LstmCell

noncomputable section

open scoped BigOperators

namespace Cert.Lstm

variable {N : ℕ}

/-- A sum of 1024 terms whose terms from position 1000 on vanish is the sum of the first 1000. -/
theorem sum_pad (f : Fin 1024 → EReal) (h0 : ∀ k : Fin 1024, 1000 ≤ k.val → f k = 0) :
    ∑ k : Fin 1024, f k = ∑ k : Fin 1000, f (up k) := by
  have h := Fin.sum_univ_add (M := EReal) (a := 1000) (b := 24) f
  have h2 : ∑ i : Fin 24, f (Fin.natAdd 1000 i) = 0 :=
    Finset.sum_eq_zero (fun i _ => h0 _ (by show 1000 ≤ 1000 + i.val; omega))
  have h1 : ∑ i : Fin 1000, f (Fin.castAdd 24 i) = ∑ k : Fin 1000, f (up k) :=
    Finset.sum_congr rfl fun k _ => congrArg f (Fin.ext rfl)
  calc ∑ k : Fin 1024, f k
      = ∑ i : Fin 1000, f (Fin.castAdd 24 i) + ∑ i : Fin 24, f (Fin.natAdd 1000 i) := h
    _ = ∑ k : Fin 1000, f (up k) := by rw [h2, add_zero, h1]

/-- The padded rows are the real rows followed by zeros. -/
def PadX (xp : Mat N 1024) (x : Mat N 1000) : Prop :=
  ∀ n (k : Fin 1024), xp n k = if hk : k.val < 1000 then x n ⟨k.val, hk⟩ else 0
/-- The padded rows agree with the real rows at the real units (anything may stand at the other 24). -/
def Agree (hp : Mat N 1024) (h : Mat N 1000) : Prop := ∀ n (k : Fin 1000), hp n (up k) = h n k
/-- The padded, transposed weights at the real units' columns: the real weights on the first 1000 rows, zero below. -/
def PadW (wP : Mat 1024 4096) (w : Mat 4000 1000) : Prop :=
  ∀ (k : Fin 1024) (q : Fin 4) (j : Fin 1000),
    wP k (gposP q (up j)) = if hk : k.val < 1000 then w (gpos q j) ⟨k.val, hk⟩ else 0
/-- The padded bias row at the real units' columns is the sum of the two real biases. -/
def PadB (bP : Fin 4096 → EReal) (bih bhh : Fin 4000 → EReal) : Prop :=
  ∀ (q : Fin 4) (j : Fin 1000), bP (gposP q (up j)) = bih (gpos q j) + bhh (gpos q j)

/-- The input product at a real unit: 1024 products, the last 24 zero times zero. -/
theorem dot_padX {xp : Mat N 1024} {x : Mat N 1000} {wP : Mat 1024 4096} {w : Mat 4000 1000}
    (hx : PadX xp x) (hw : PadW wP w) (n : Fin N) (q : Fin 4) (j : Fin 1000) :
    ∑ k : Fin 1024, xp n k * wP k (gposP q (up j)) = ∑ k : Fin 1000, x n k * w (gpos q j) k := by
  rw [sum_pad _ (fun k hk => by rw [hw, dif_neg (by omega), mul_zero])]
  refine Finset.sum_congr rfl fun k _ => ?_
  have hk : (up k).val < 1000 := k.isLt
  rw [hx, hw, dif_pos hk, dif_pos hk]
  rfl

/-- The hidden-state product at a real unit: the last 24 products have a zero weight. -/
theorem dot_agree {hp : Mat N 1024} {h : Mat N 1000} {wP : Mat 1024 4096} {w : Mat 4000 1000}
    (hh : Agree hp h) (hw : PadW wP w) (n : Fin N) (q : Fin 4) (j : Fin 1000) :
    ∑ k : Fin 1024, hp n k * wP k (gposP q (up j)) = ∑ k : Fin 1000, h n k * w (gpos q j) k := by
  rw [sum_pad _ (fun k hk => by rw [hw, dif_neg (by omega), mul_zero])]
  refine Finset.sum_congr rfl fun k _ => ?_
  have hk : (up k).val < 1000 := k.isLt
  rw [hh, hw, dif_pos hk]
  rfl

section Cell
variable {xp hp cp : Mat N 1024} {x h c : Mat N 1000} {wihP whhP : Mat 1024 4096} {wih whh : Mat 4000 1000}
  {bP : Fin 4096 → EReal} {bih bhh : Fin 4000 → EReal}

/-- A padded gate at a real unit is the real gate. -/
theorem gateP_eq (hx : PadX xp x) (hh : Agree hp h) (hwi : PadW wihP wih) (hwh : PadW whhP whh) (hb : PadB bP bih bhh)
    (n : Fin N) (q : Fin 4) (j : Fin 1000) :
    gateP xp hp wihP whhP bP n (gposP q (up j)) = gate x h wih whh bih bhh n (gpos q j) := by
  unfold gateP gate
  rw [dot_padX hx hwi, dot_agree hh hwh, hb]

/-- The padded new cell state agrees with the real one. -/
theorem agree_cellCP (hx : PadX xp x) (hh : Agree hp h) (hc : Agree cp c) (hwi : PadW wihP wih) (hwh : PadW whhP whh)
    (hb : PadB bP bih bhh) : Agree (cellCP xp hp cp wihP whhP bP) (cellC x h c wih whh bih bhh) := by
  intro n j
  unfold cellCP cellC
  rw [gateP_eq hx hh hwi hwh hb, gateP_eq hx hh hwi hwh hb, gateP_eq hx hh hwi hwh hb, hc]

/-- The padded new hidden state agrees with the real one. -/
theorem agree_cellHP (hx : PadX xp x) (hh : Agree hp h) (hc : Agree cp c) (hwi : PadW wihP wih) (hwh : PadW whhP whh)
    (hb : PadB bP bih bhh) : Agree (cellHP xp hp cp wihP whhP bP) (cellH x h c wih whh bih bhh) := by
  intro n j
  unfold cellHP cellH
  rw [gateP_eq hx hh hwi hwh hb, agree_cellCP hx hh hc hwi hwh hb]

/-- The first cell's padded gate at a real unit is the real gate from the zero hidden state: the hidden-state product
    is a sum of products with zero. -/
theorem gateP0_eq (hx : PadX xp x) (hwi : PadW wihP wih) (hb : PadB bP bih bhh) (n : Fin N) (q : Fin 4) (j : Fin 1000) :
    gateP0 xp wihP bP n (gposP q (up j)) = gate x zeroM wih whh bih bhh n (gpos q j) := by
  unfold gateP0 gate
  have hz : ∑ k : Fin 1000, (zeroM : Mat N 1000) n k * whh (gpos q j) k = 0 :=
    Finset.sum_eq_zero (fun k _ => zero_mul _)
  rw [dot_padX hx hwi, hb, hz, add_zero]

/-- The first cell's padded new cell state agrees with the real one from the zero state: the forget term is a product
    with zero. -/
theorem agree_cellCP0 (hx : PadX xp x) (hwi : PadW wihP wih) (hb : PadB bP bih bhh) :
    Agree (cellCP0 xp wihP bP) (cellC x zeroM zeroM wih whh bih bhh) := by
  intro n j
  unfold cellCP0 cellC
  rw [gateP0_eq (whh := whh) hx hwi hb, gateP0_eq (whh := whh) hx hwi hb]
  unfold zeroM
  rw [mul_zero, zero_add]

/-- The first cell's padded new hidden state agrees with the real one from the zero state. -/
theorem agree_cellHP0 (hx : PadX xp x) (hwi : PadW wihP wih) (hb : PadB bP bih bhh) :
    Agree (cellHP0 xp wihP bP) (cellH x zeroM zeroM wih whh bih bhh) := by
  intro n j
  unfold cellHP0 cellH
  rw [gateP0_eq (whh := whh) hx hwi hb, agree_cellCP0 (whh := whh) hx hwi hb]

end Cell

/-- Clamping below at zero keeps the agreement. -/
theorem agree_max {hp : Mat N 1024} {h : Mat N 1000} (hh : Agree hp h) :
    Agree (fun n j => max (hp n j) 0) (fun n j => max (h n j) 0) := by
  intro n j
  show max (hp n (up j)) 0 = max (h n j) 0
  rw [hh]

end Cert.Lstm

end
-- ==== Proof.LibHostReads.lean ====
/-
  General facts for reading, at one index, the arrays that a program's host-side preparation builds:

  * a padded array at an index inside the operand is the operand there, and at an index past the operand's extent on
    some axis is the padding value (`pad_apply_in`, `pad_apply_out`);
  * two matrices of R rows each, joined along axis 0, read at a row below R in the first and at row R + r in the second
    (`join_rows_left`, `join_rows_right`);
  * the one-bit answer of a comparison with a constant word, converted unsigned to a number;
  * the signed conversion of the zero word is the number zero.
-/
import Idealize.ShloMosaic.Lib.Pipeline.Value
import Idealize.ShloMosaic.Lib.ValueIdx
import Idealize.ShloMosaic.Lib.ValueLayout

noncomputable section

namespace Idealize.ShloMosaic.HostReads

open Idealize.ShloMosaic Idealize.ShloMosaic.ValueIdx

variable {α : Type}

/-- A padded array read at an index that is the image of operand index `k` (on every axis the low padding plus `k`'s
    coordinate times the interior step) is the operand at `k`. -/
theorem pad_apply_in {s t : Shape} (lo hi interior : Fin s.rank → Nat) (x : s.Idx → α) {u : Shape} (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a, Nat.add_sub_cancel_left]
    exact ⟨Nat.le_add_right _ _, Nat.mul_mod_left _ _, by rw [Nat.mul_div_cancel _ (Nat.succ_pos _)]; exact (k a).isLt⟩
  unfold pad
  rw [dif_pos hin]
  refine congrArg x (funext fun a => Fin.ext ?_)
  show ((j (a.cast h.1)).val - lo a) / (interior a + 1) = (k a).val
  rw [hk a, Nat.add_sub_cancel_left, Nat.mul_div_cancel _ (Nat.succ_pos _)]

/-- A padded array read at an index whose coordinate on some axis lies past the operand's last element is the padding
    value. -/
theorem pad_apply_out {s t : Shape} (lo hi interior : Fin s.rank → Nat) (x : s.Idx → α) {u : Shape} (v : u.Idx → α)
    (h : s.Pads lo hi interior t) (hu : 0 < u.numel) (j : t.Idx) (a : Fin s.rank)
    (ha : s.size a ≤ ((j (a.cast h.1)).val - lo a) / (interior a + 1)) :
    pad t lo hi interior x v h hu j = v (Shape.Idx.first hu) := by
  unfold pad
  rw [dif_neg (fun hin => absurd (hin a).2.2 (Nat.not_lt.2 ha))]

/-- A matrix padded by `p` rows at the high end, at a row inside the operand. -/
theorem pad_rows_in {R C R' p : Nat} (x : (⟨2, ![R, C]⟩ : Shape).Idx → α) {u : Shape} (v : u.Idx → α)
    (h : (⟨2, ![R, C]⟩ : Shape).Pads (![0, 0] : Fin 2 → Nat) ![p, 0] ![0, 0] ⟨2, ![R', C]⟩) (hu : 0 < u.numel)
    (i : Fin R') (j : Fin C) (hi : i.val < R) :
    pad (⟨2, ![R', C]⟩ : Shape) (![0, 0] : Fin 2 → Nat) ![p, 0] ![0, 0] x v h hu (ix2 i j) = x (ix2 ⟨i.val, hi⟩ j) :=
  pad_apply_in _ _ _ x v h hu (ix2 i j) (ix2 ⟨i.val, hi⟩ j) (fun a => match a with
    | ⟨0, _⟩ => by show i.val = 0 + i.val * (0 + 1); omega
    | ⟨1, _⟩ => by show j.val = 0 + j.val * (0 + 1); omega)

/-- A matrix padded by `p` rows at the high end, at a row past the operand's. -/
theorem pad_rows_out {R C R' p : Nat} (x : (⟨2, ![R, C]⟩ : Shape).Idx → α) {u : Shape} (v : u.Idx → α)
    (h : (⟨2, ![R, C]⟩ : Shape).Pads (![0, 0] : Fin 2 → Nat) ![p, 0] ![0, 0] ⟨2, ![R', C]⟩) (hu : 0 < u.numel)
    (i : Fin R') (j : Fin C) (hi : R ≤ i.val) :
    pad (⟨2, ![R', C]⟩ : Shape) (![0, 0] : Fin 2 → Nat) ![p, 0] ![0, 0] x v h hu (ix2 i j) = v (Shape.Idx.first hu) :=
  pad_apply_out _ _ _ x v h hu (ix2 i j) (0 : Fin 2) (by show R ≤ (i.val - 0) / (0 + 1); rw [Nat.sub_zero, Nat.div_one]; exact hi)

/-- A matrix padded by `p` columns at the high end, at a column inside the operand. -/
theorem pad_cols_in {R C C' p : Nat} (x : (⟨2, ![R, C]⟩ : Shape).Idx → α) {u : Shape} (v : u.Idx → α)
    (h : (⟨2, ![R, C]⟩ : Shape).Pads (![0, 0] : Fin 2 → Nat) ![0, p] ![0, 0] ⟨2, ![R, C']⟩) (hu : 0 < u.numel)
    (i : Fin R) (j : Fin C') (hj : j.val < C) :
    pad (⟨2, ![R, C']⟩ : Shape) (![0, 0] : Fin 2 → Nat) ![0, p] ![0, 0] x v h hu (ix2 i j) = x (ix2 i ⟨j.val, hj⟩) :=
  pad_apply_in _ _ _ x v h hu (ix2 i j) (ix2 i ⟨j.val, hj⟩) (fun a => match a with
    | ⟨0, _⟩ => by show i.val = 0 + i.val * (0 + 1); omega
    | ⟨1, _⟩ => by show j.val = 0 + j.val * (0 + 1); omega)

/-- A matrix padded by `p` columns at the high end, at a column past the operand's. -/
theorem pad_cols_out {R C C' p : Nat} (x : (⟨2, ![R, C]⟩ : Shape).Idx → α) {u : Shape} (v : u.Idx → α)
    (h : (⟨2, ![R, C]⟩ : Shape).Pads (![0, 0] : Fin 2 → Nat) ![0, p] ![0, 0] ⟨2, ![R, C']⟩) (hu : 0 < u.numel)
    (i : Fin R) (j : Fin C') (hj : C ≤ j.val) :
    pad (⟨2, ![R, C']⟩ : Shape) (![0, 0] : Fin 2 → Nat) ![0, p] ![0, 0] x v h hu (ix2 i j) = v (Shape.Idx.first hu) :=
  pad_apply_out _ _ _ x v h hu (ix2 i j) (1 : Fin 2) (by show C ≤ (j.val - 0) / (0 + 1); rw [Nat.sub_zero, Nat.div_one]; exact hj)

/-- A vector padded by `p` entries at the high end, at an entry inside the operand. -/
theorem pad_vec_in {N N' p : Nat} (x : (⟨1, ![N]⟩ : Shape).Idx → α) {u : Shape} (v : u.Idx → α)
    (h : (⟨1, ![N]⟩ : Shape).Pads (![0] : Fin 1 → Nat) ![p] ![0] ⟨1, ![N']⟩) (hu : 0 < u.numel)
    (i : Fin N') (hi : i.val < N) :
    pad (⟨1, ![N']⟩ : Shape) (![0] : Fin 1 → Nat) ![p] ![0] x v h hu (ix1 i) = x (ix1 ⟨i.val, hi⟩) :=
  pad_apply_in _ _ _ x v h hu (ix1 i) (ix1 ⟨i.val, hi⟩) (fun a => match a with
    | ⟨0, _⟩ => by show i.val = 0 + i.val * (0 + 1); omega)

/-- A vector padded by `p` entries at the high end, at an entry past the operand's. -/
theorem pad_vec_out {N N' p : Nat} (x : (⟨1, ![N]⟩ : Shape).Idx → α) {u : Shape} (v : u.Idx → α)
    (h : (⟨1, ![N]⟩ : Shape).Pads (![0] : Fin 1 → Nat) ![p] ![0] ⟨1, ![N']⟩) (hu : 0 < u.numel)
    (i : Fin N') (hi : N ≤ i.val) :
    pad (⟨1, ![N']⟩ : Shape) (![0] : Fin 1 → Nat) ![p] ![0] x v h hu (ix1 i) = v (Shape.Idx.first hu) :=
  pad_apply_out _ _ _ x v h hu (ix1 i) (0 : Fin 1) (by show N ≤ (i.val - 0) / (0 + 1); rw [Nat.sub_zero, Nat.div_one]; exact hi)

/-- Entry (r, c) of u stacked on v, for a row r that falls in u: it is u (r, c). -/
theorem join_rows_left {A B N C : Nat} (u : (⟨2, ![A, C]⟩ : Shape).Idx → α) (v : (⟨2, ![B, C]⟩ : Shape).Idx → α)
    (h : Shape.Concatenates [(⟨2, ![A, C]⟩ : Shape), ⟨2, ![B, C]⟩] ⟨2, ![N, C]⟩ 0)
    (r : Fin N) (c : Fin C) (d : Fin A) (hr : r.val = d.val) :
    concatenate (⟨2, ![N, C]⟩ : Shape) 0 [⟨⟨2, ![A, C]⟩, u⟩, ⟨⟨2, ![B, C]⟩, v⟩] h (ix2 r c) = u (ix2 d c) :=
  concatenate_pair_apply_left 0 u v h (ix2 r c) rfl (ix2 d c) (fun b => match b with
    | ⟨0, _⟩ => hr.symm
    | ⟨1, _⟩ => rfl)

/-- Entry (r, c) of u stacked on v, for a row r past u's A rows: it is v (r − A, c). -/
theorem join_rows_right {A B N C : Nat} (u : (⟨2, ![A, C]⟩ : Shape).Idx → α) (v : (⟨2, ![B, C]⟩ : Shape).Idx → α)
    (h : Shape.Concatenates [(⟨2, ![A, C]⟩ : Shape), ⟨2, ![B, C]⟩] ⟨2, ![N, C]⟩ 0)
    (r : Fin N) (c : Fin C) (d : Fin B) (hr : r.val = A + d.val) :
    concatenate (⟨2, ![N, C]⟩ : Shape) 0 [⟨⟨2, ![A, C]⟩, u⟩, ⟨⟨2, ![B, C]⟩, v⟩] h (ix2 r c) = v (ix2 d c) :=
  concatenate_pair_apply_right 0 u v h (ix2 r c) rfl rfl (ix2 d c) (fun b hb => match b, hb with
    | ⟨0, _⟩, hb => absurd rfl hb
    | ⟨1, _⟩, _ => rfl)
    (by show d.val + A = r.val; omega)

/-- The signed conversion of the zero word is the number zero. -/
theorem sitofp_zero_word (φ : FTy) : (FloatOps.sitofp (F := Ideal) φ (0#32 : BitVec 32) : EReal) = 0 := by
  show (((0#32 : BitVec 32).toInt : ℝ) : EReal) = 0
  rw [show (0#32 : BitVec 32).toInt = 0 from by decide, Int.cast_zero, EReal.coe_zero]

end Idealize.ShloMosaic.HostReads

end
-- ==== Proof.HostReads.lean ====
/-
  The host-side preparation of the padded LSTM kernel, read at one index.

  Before the four cells run, the inputs are laid out for 1024 units per gate:
  * the input [2048, 1, 1000] loses its unit axis and gains 24 zero columns: entry (n, k) of the result is the input's
    (n, 0, k) for k < 1000 and the padding value, the conversion of the zero word, which is 0, for k ≥ 1000;
  * a layer's weight matrix [4000, 1000] (row q * 1000 + j is unit j of gate q) is cut out of the stack [4, 4000, 1000],
    transposed to [1000, 4000], split to [1000, 4, 1000], padded with zeros to [1024, 4, 1024] and flattened to
    [1024, 4096]: entry (k, q * 1024 + j) of the result, for a real unit j < 1000, is the weight's (q * 1000 + j, k) for
    k < 1000 and 0 for k ≥ 1000; the change of format to 16 bits changes nothing on the extended reals;
  * a layer's two bias vectors [4000] are cut out of their stacks [4, 4000], added, split to [4, 1000], padded to
    [4, 1024] and flattened to [1, 4096]: entry (0, q * 1024 + j), for j < 1000, is the sum of the two biases at q * 1000 + j;
  * after the last cell the result [2048, 1024] is cut back to its 1000 real columns and given its unit axis again:
    entry (n, 0, j) is the padded result's (n, j).

  Every step is a layout operation, which reads ONE index of its operand, so each lemma is a chain of index equations,
  each checked on row-major positions by linear arithmetic: (k * 4 + q) * 1024 + j = k * 4096 + (q * 1024 + j), and so on.
  The lemmas about a layer are proved once for a slice at offsets (l, 0, …) and then stated for the four layers.
-/
import proofs.«123216_j20375324852351_2_alg».proof.KernelIdeal
import proofs.«123216_j20375324852351_2_alg».proof.Proof.LstmCell
import proofs.«123216_j20375324852351_2_alg».proof.Proof.LibHostReads
import Idealize.ShloMosaic.Lib.Pipeline.Value
import Idealize.ShloMosaic.Lib.ValueIdx
import Idealize.ShloMosaic.Lib.ValueLayout

noncomputable section

namespace Cert.HostReads

open Idealize.ShloMosaic Idealize.ShloMosaic.ValueIdx Idealize.ShloMosaic.HostReads
open Cert.KernelIdeal Cert.KernelIdeal.Facts₀ Cert.Lstm

variable [Cert.KernelIdeal.Facts₀]

/-! ## The padded input and the result's cut -/

/-- The padded input at (n, k): the input's (n, 0, k) on the real columns, the padding value 0 past them. -/
theorem padX_apply (a0 : Vec Ideal S2048x1x1000 .f32) (n : Fin 2048) (k : Fin 1024) :
    (pad S2048x1024 ![0, 0] ![0, 24] ![0, 0] (shapeCast S2048x1000 a0 shapeCasts_S2048x1x1000_S2048x1000)
        (sitofp (F := Ideal) .f32 (constantI S_ 32 0#32)) pads_S2048x1000_S2048x1024_000_0240 h_S_ : S2048x1024.Idx → EReal) (ix2 n k)
      = if h : k.val < 1000 then a0 (ix3 n 0 ⟨k.val, h⟩) else 0 := by
  by_cases h : k.val < 1000
  · rw [dif_pos h]
    refine (pad_cols_in _ _ _ h_S_ n k h).trans ?_
    exact shapeCast_apply a0 _ (ix2 n ⟨k.val, h⟩) (ix3 n 0 ⟨k.val, h⟩)
      (by rw [Shape.rowMajor_val_three, Shape.rowMajor_val_two]; show (n.val * 1 + 0) * 1000 + k.val = n.val * 1000 + k.val; omega)
  · rw [dif_neg h]
    refine (pad_cols_out _ _ _ h_S_ n k (by omega)).trans ?_
    exact sitofp_zero_word .f32

/-- The result's cut at (n, 0, j): the padded result's (n, j). -/
theorem cut_apply (o : Vec Ideal S2048x1024 .f32) (n : Fin 2048) (j : Fin 1000) :
    (shapeCast S2048x1x1000 (extractStridedSlice S2048x1000 ![0, 0] o slices_S2048x1024_S2048x1000_0_0)
        shapeCasts_S2048x1000_S2048x1x1000 : S2048x1x1000.Idx → EReal) (ix3 n 0 j) = o (ix2 n (up j)) := by
  refine (shapeCast_apply _ _ (ix3 n 0 j) (ix2 n j)
    (by rw [Shape.rowMajor_val_three, Shape.rowMajor_val_two]; show n.val * 1000 + j.val = (n.val * 1 + 0) * 1000 + j.val; omega)).trans ?_
  exact extractStridedSlice_apply _ o _ (ix2 n j) (ix2 n (up j)) (fun a => match a with
    | ⟨0, _⟩ => by show n.val = 0 + n.val; omega
    | ⟨1, _⟩ => by show j.val = 0 + j.val; omega)

/-! ## A layer's bias and weight, for a slice at offsets (l, 0, …) -/

/-- The padded bias row of the layer cut out at offset l, at q * 1024 + j for a real unit j: flattening sends (q, j) to that
    column, the padding leaves the real columns alone, [4000] splits as q * 1000 + j, and the slice reads layer l. -/
theorem bias_apply (l : Fin 4) (off : Fin 2 → Nat) (h0 : off 0 = l.val) (h1 : off 1 = 0) (hs : S4x4000.Slices off S1x4000)
    (a3 a4 : Vec Ideal S4x4000 .f32) (q : Fin 4) (j : Fin 1000) :
    (shapeCast S1x4096 (pad S4x1024 ![0, 0] ![0, 24] ![0, 0]
        (shapeCast S4x1000 (addf (F := Ideal) (φ := .f32) (shapeCast S4000 (extractStridedSlice S1x4000 off a3 hs) shapeCasts_S1x4000_S4000)
          (shapeCast S4000 (extractStridedSlice S1x4000 off a4 hs) shapeCasts_S1x4000_S4000)) shapeCasts_S4000_S4x1000)
        (sitofp (F := Ideal) .f32 (constantI S_ 32 0#32)) pads_S4x1000_S4x1024_000_0240 h_S_) shapeCasts_S4x1024_S1x4096
      : S1x4096.Idx → EReal) (ix2 0 (gposP q (up j))) = a3 (ix2 l (gpos q j)) + a4 (ix2 l (gpos q j)) := by
  have hj : (up j).val < 1000 := j.isLt
  refine (shapeCast_apply _ _ (ix2 0 (gposP q (up j))) (ix2 q (up j))
    (by rw [Shape.rowMajor_val_two, Shape.rowMajor_val_two]; show q.val * 1024 + j.val = 0 * 4096 + (q.val * 1024 + j.val); omega)).trans ?_
  refine (pad_cols_in _ _ _ h_S_ q (up j) hj).trans ?_
  refine (shapeCast_apply _ _ (ix2 q ⟨(up j).val, hj⟩) (ix1 (gpos q j))
    (by rw [Shape.rowMajor_val_one, Shape.rowMajor_val_two]; show q.val * 1000 + j.val = q.val * 1000 + j.val; rfl)).trans ?_
  rw [addf_apply]
  have e : ∀ b : Vec Ideal S4x4000 .f32,
      (shapeCast S4000 (extractStridedSlice S1x4000 off b hs) shapeCasts_S1x4000_S4000 : S4000.Idx → EReal) (ix1 (gpos q j))
        = b (ix2 l (gpos q j)) := fun b => by
    refine (shapeCast_apply _ _ (ix1 (gpos q j)) (ix2 0 (gpos q j))
      (by rw [Shape.rowMajor_val_one, Shape.rowMajor_val_two]; show 0 * 4000 + (gpos q j).val = (gpos q j).val; omega)).trans ?_
    exact extractStridedSlice_apply off b hs (ix2 0 (gpos q j)) (ix2 l (gpos q j)) (fun a => match a with
      | ⟨0, _⟩ => by show l.val = off 0 + 0; omega
      | ⟨1, _⟩ => by show (gpos q j).val = off 1 + (gpos q j).val; omega)
  rw [e a3, e a4]

/-- The padded weight of the layer cut out at offset l, at (k, q * 1024 + j) for a real unit j: flattening sends (k, q, j) to
    that column, the padding is the operand for k < 1000 and 0 past it, the split sends column q * 1000 + j to (q, j), the
    transpose swaps the two coordinates, and the slice reads layer l. -/
theorem weight_apply (l : Fin 4) (off : Fin 3 → Nat) (h0 : off 0 = l.val) (h1 : off 1 = 0) (h2 : off 2 = 0)
    (hs : S4x4000x1000.Slices off S1x4000x1000)
    (a : Vec Ideal S4x4000x1000 .f32) (k : Fin 1024) (q : Fin 4) (j : Fin 1000) :
    (truncf (F := Ideal) .bf16 (shapeCast S1024x4096 (pad S1024x4x1024 ![0, 0, 0] ![24, 0, 24] ![0, 0, 0]
        (shapeCast S1000x4x1000 (transpose S1000x4000 [1, 0]
          (shapeCast S4000x1000 (extractStridedSlice S1x4000x1000 off a hs) shapeCasts_S1x4000x1000_S4000x1000)
          transposes_S4000x1000_S1000x4000_1_0) shapeCasts_S1000x4000_S1000x4x1000)
        (sitofp (F := Ideal) .f32 (constantI S_ 32 0#32)) pads_S1000x4x1000_S1024x4x1024_0240_000_0240 h_S_)
        shapeCasts_S1024x4x1024_S1024x4096) bitsLt_bf16_f32 : S1024x4096.Idx → EReal) (ix2 k (gposP q (up j)))
      = if h : k.val < 1000 then a (ix3 l (gpos q j) ⟨k.val, h⟩) else 0 := by
  rw [truncf_apply]
  refine (shapeCast_apply _ _ (ix2 k (gposP q (up j))) (ix3 k q (up j))
    (by rw [Shape.rowMajor_val_three, Shape.rowMajor_val_two]
        show (k.val * 4 + q.val) * 1024 + j.val = k.val * 4096 + (q.val * 1024 + j.val); omega)).trans ?_
  by_cases h : k.val < 1000
  · rw [dif_pos h]
    refine (pad_apply_in _ _ _ _ _ _ h_S_ (ix3 k q (up j)) (ix3 ⟨k.val, h⟩ q j) (fun b => match b with
      | ⟨0, _⟩ => by show k.val = 0 + k.val * (0 + 1); omega
      | ⟨1, _⟩ => by show q.val = 0 + q.val * (0 + 1); omega
      | ⟨2, _⟩ => by show j.val = 0 + j.val * (0 + 1); omega)).trans ?_
    refine (shapeCast_apply _ _ (ix3 ⟨k.val, h⟩ q j) (ix2 ⟨k.val, h⟩ (gpos q j))
      (by rw [Shape.rowMajor_val_three, Shape.rowMajor_val_two]
          show k.val * 4000 + (q.val * 1000 + j.val) = (k.val * 4 + q.val) * 1000 + j.val; omega)).trans ?_
    refine (transpose_apply _ _ _ (ix2 ⟨k.val, h⟩ (gpos q j)) (ix2 (gpos q j) ⟨k.val, h⟩) (fun b => match b with
      | ⟨0, _⟩ => rfl
      | ⟨1, _⟩ => rfl)).trans ?_
    refine (shapeCast_apply _ _ (ix2 (gpos q j) ⟨k.val, h⟩) (ix3 0 (gpos q j) ⟨k.val, h⟩)
      (by rw [Shape.rowMajor_val_three, Shape.rowMajor_val_two]
          show (0 * 4000 + (gpos q j).val) * 1000 + k.val = (gpos q j).val * 1000 + k.val; omega)).trans ?_
    exact extractStridedSlice_apply off a hs (ix3 0 (gpos q j) ⟨k.val, h⟩) (ix3 l (gpos q j) ⟨k.val, h⟩) (fun b => match b with
      | ⟨0, _⟩ => by show l.val = off 0 + 0; omega
      | ⟨1, _⟩ => by show (gpos q j).val = off 1 + (gpos q j).val; omega
      | ⟨2, _⟩ => by show k.val = off 2 + k.val; omega)
  · rw [dif_neg h]
    refine (pad_apply_out _ _ _ _ _ _ h_S_ (ix3 k q (up j)) (0 : Fin 3)
      (by show 1000 ≤ (k.val - 0) / (0 + 1); rw [Nat.sub_zero, Nat.div_one]; omega)).trans ?_
    exact sitofp_zero_word .f32

/-! ## The four layers, at their literal slice offsets -/

/-- Layer 0's padded weight at (k, q * 1024 + j), j a real unit. -/
theorem weight0_apply (a : Vec Ideal S4x4000x1000 .f32) (k : Fin 1024) (q : Fin 4) (j : Fin 1000) :
    (truncf (F := Ideal) .bf16 (shapeCast S1024x4096 (pad S1024x4x1024 ![0, 0, 0] ![24, 0, 24] ![0, 0, 0]
        (shapeCast S1000x4x1000 (transpose S1000x4000 [1, 0]
          (shapeCast S4000x1000 (extractStridedSlice S1x4000x1000 ![0, 0, 0] a slices_S4x4000x1000_S1x4000x1000_0_0_0) shapeCasts_S1x4000x1000_S4000x1000)
          transposes_S4000x1000_S1000x4000_1_0) shapeCasts_S1000x4000_S1000x4x1000)
        (sitofp (F := Ideal) .f32 (constantI S_ 32 0#32)) pads_S1000x4x1000_S1024x4x1024_0240_000_0240 h_S_)
        shapeCasts_S1024x4x1024_S1024x4096) bitsLt_bf16_f32 : S1024x4096.Idx → EReal) (ix2 k (gposP q (up j)))
      = if h : k.val < 1000 then a (ix3 0 (gpos q j) ⟨k.val, h⟩) else 0 :=
  weight_apply 0 ![0, 0, 0] rfl rfl rfl slices_S4x4000x1000_S1x4000x1000_0_0_0 a k q j

/-- Layer 0's padded bias row at q * 1024 + j, j a real unit. -/
theorem bias0_apply (a3 a4 : Vec Ideal S4x4000 .f32) (q : Fin 4) (j : Fin 1000) :
    (shapeCast S1x4096 (pad S4x1024 ![0, 0] ![0, 24] ![0, 0]
        (shapeCast S4x1000 (addf (F := Ideal) (φ := .f32) (shapeCast S4000 (extractStridedSlice S1x4000 ![0, 0] a3 slices_S4x4000_S1x4000_0_0) shapeCasts_S1x4000_S4000)
          (shapeCast S4000 (extractStridedSlice S1x4000 ![0, 0] a4 slices_S4x4000_S1x4000_0_0) shapeCasts_S1x4000_S4000)) shapeCasts_S4000_S4x1000)
        (sitofp (F := Ideal) .f32 (constantI S_ 32 0#32)) pads_S4x1000_S4x1024_000_0240 h_S_) shapeCasts_S4x1024_S1x4096
      : S1x4096.Idx → EReal) (ix2 0 (gposP q (up j)))
      = a3 (ix2 0 (gpos q j)) + a4 (ix2 0 (gpos q j)) :=
  bias_apply 0 ![0, 0] rfl rfl slices_S4x4000_S1x4000_0_0 a3 a4 q j

/-- Layer 1's padded weight at (k, q * 1024 + j), j a real unit. -/
theorem weight1_apply (a : Vec Ideal S4x4000x1000 .f32) (k : Fin 1024) (q : Fin 4) (j : Fin 1000) :
    (truncf (F := Ideal) .bf16 (shapeCast S1024x4096 (pad S1024x4x1024 ![0, 0, 0] ![24, 0, 24] ![0, 0, 0]
        (shapeCast S1000x4x1000 (transpose S1000x4000 [1, 0]
          (shapeCast S4000x1000 (extractStridedSlice S1x4000x1000 ![1, 0, 0] a slices_S4x4000x1000_S1x4000x1000_1_0_0) shapeCasts_S1x4000x1000_S4000x1000)
          transposes_S4000x1000_S1000x4000_1_0) shapeCasts_S1000x4000_S1000x4x1000)
        (sitofp (F := Ideal) .f32 (constantI S_ 32 0#32)) pads_S1000x4x1000_S1024x4x1024_0240_000_0240 h_S_)
        shapeCasts_S1024x4x1024_S1024x4096) bitsLt_bf16_f32 : S1024x4096.Idx → EReal) (ix2 k (gposP q (up j)))
      = if h : k.val < 1000 then a (ix3 1 (gpos q j) ⟨k.val, h⟩) else 0 :=
  weight_apply 1 ![1, 0, 0] rfl rfl rfl slices_S4x4000x1000_S1x4000x1000_1_0_0 a k q j

/-- Layer 1's padded bias row at q * 1024 + j, j a real unit. -/
theorem bias1_apply (a3 a4 : Vec Ideal S4x4000 .f32) (q : Fin 4) (j : Fin 1000) :
    (shapeCast S1x4096 (pad S4x1024 ![0, 0] ![0, 24] ![0, 0]
        (shapeCast S4x1000 (addf (F := Ideal) (φ := .f32) (shapeCast S4000 (extractStridedSlice S1x4000 ![1, 0] a3 slices_S4x4000_S1x4000_1_0) shapeCasts_S1x4000_S4000)
          (shapeCast S4000 (extractStridedSlice S1x4000 ![1, 0] a4 slices_S4x4000_S1x4000_1_0) shapeCasts_S1x4000_S4000)) shapeCasts_S4000_S4x1000)
        (sitofp (F := Ideal) .f32 (constantI S_ 32 0#32)) pads_S4x1000_S4x1024_000_0240 h_S_) shapeCasts_S4x1024_S1x4096
      : S1x4096.Idx → EReal) (ix2 0 (gposP q (up j)))
      = a3 (ix2 1 (gpos q j)) + a4 (ix2 1 (gpos q j)) :=
  bias_apply 1 ![1, 0] rfl rfl slices_S4x4000_S1x4000_1_0 a3 a4 q j

/-- Layer 2's padded weight at (k, q * 1024 + j), j a real unit. -/
theorem weight2_apply (a : Vec Ideal S4x4000x1000 .f32) (k : Fin 1024) (q : Fin 4) (j : Fin 1000) :
    (truncf (F := Ideal) .bf16 (shapeCast S1024x4096 (pad S1024x4x1024 ![0, 0, 0] ![24, 0, 24] ![0, 0, 0]
        (shapeCast S1000x4x1000 (transpose S1000x4000 [1, 0]
          (shapeCast S4000x1000 (extractStridedSlice S1x4000x1000 ![2, 0, 0] a slices_S4x4000x1000_S1x4000x1000_2_0_0) shapeCasts_S1x4000x1000_S4000x1000)
          transposes_S4000x1000_S1000x4000_1_0) shapeCasts_S1000x4000_S1000x4x1000)
        (sitofp (F := Ideal) .f32 (constantI S_ 32 0#32)) pads_S1000x4x1000_S1024x4x1024_0240_000_0240 h_S_)
        shapeCasts_S1024x4x1024_S1024x4096) bitsLt_bf16_f32 : S1024x4096.Idx → EReal) (ix2 k (gposP q (up j)))
      = if h : k.val < 1000 then a (ix3 2 (gpos q j) ⟨k.val, h⟩) else 0 :=
  weight_apply 2 ![2, 0, 0] rfl rfl rfl slices_S4x4000x1000_S1x4000x1000_2_0_0 a k q j

/-- Layer 2's padded bias row at q * 1024 + j, j a real unit. -/
theorem bias2_apply (a3 a4 : Vec Ideal S4x4000 .f32) (q : Fin 4) (j : Fin 1000) :
    (shapeCast S1x4096 (pad S4x1024 ![0, 0] ![0, 24] ![0, 0]
        (shapeCast S4x1000 (addf (F := Ideal) (φ := .f32) (shapeCast S4000 (extractStridedSlice S1x4000 ![2, 0] a3 slices_S4x4000_S1x4000_2_0) shapeCasts_S1x4000_S4000)
          (shapeCast S4000 (extractStridedSlice S1x4000 ![2, 0] a4 slices_S4x4000_S1x4000_2_0) shapeCasts_S1x4000_S4000)) shapeCasts_S4000_S4x1000)
        (sitofp (F := Ideal) .f32 (constantI S_ 32 0#32)) pads_S4x1000_S4x1024_000_0240 h_S_) shapeCasts_S4x1024_S1x4096
      : S1x4096.Idx → EReal) (ix2 0 (gposP q (up j)))
      = a3 (ix2 2 (gpos q j)) + a4 (ix2 2 (gpos q j)) :=
  bias_apply 2 ![2, 0] rfl rfl slices_S4x4000_S1x4000_2_0 a3 a4 q j

/-- Layer 3's padded weight at (k, q * 1024 + j), j a real unit. -/
theorem weight3_apply (a : Vec Ideal S4x4000x1000 .f32) (k : Fin 1024) (q : Fin 4) (j : Fin 1000) :
    (truncf (F := Ideal) .bf16 (shapeCast S1024x4096 (pad S1024x4x1024 ![0, 0, 0] ![24, 0, 24] ![0, 0, 0]
        (shapeCast S1000x4x1000 (transpose S1000x4000 [1, 0]
          (shapeCast S4000x1000 (extractStridedSlice S1x4000x1000 ![3, 0, 0] a slices_S4x4000x1000_S1x4000x1000_3_0_0) shapeCasts_S1x4000x1000_S4000x1000)
          transposes_S4000x1000_S1000x4000_1_0) shapeCasts_S1000x4000_S1000x4x1000)
        (sitofp (F := Ideal) .f32 (constantI S_ 32 0#32)) pads_S1000x4x1000_S1024x4x1024_0240_000_0240 h_S_)
        shapeCasts_S1024x4x1024_S1024x4096) bitsLt_bf16_f32 : S1024x4096.Idx → EReal) (ix2 k (gposP q (up j)))
      = if h : k.val < 1000 then a (ix3 3 (gpos q j) ⟨k.val, h⟩) else 0 :=
  weight_apply 3 ![3, 0, 0] rfl rfl rfl slices_S4x4000x1000_S1x4000x1000_3_0_0 a k q j

/-- Layer 3's padded bias row at q * 1024 + j, j a real unit. -/
theorem bias3_apply (a3 a4 : Vec Ideal S4x4000 .f32) (q : Fin 4) (j : Fin 1000) :
    (shapeCast S1x4096 (pad S4x1024 ![0, 0] ![0, 24] ![0, 0]
        (shapeCast S4x1000 (addf (F := Ideal) (φ := .f32) (shapeCast S4000 (extractStridedSlice S1x4000 ![3, 0] a3 slices_S4x4000_S1x4000_3_0) shapeCasts_S1x4000_S4000)
          (shapeCast S4000 (extractStridedSlice S1x4000 ![3, 0] a4 slices_S4x4000_S1x4000_3_0) shapeCasts_S1x4000_S4000)) shapeCasts_S4000_S4x1000)
        (sitofp (F := Ideal) .f32 (constantI S_ 32 0#32)) pads_S4x1000_S4x1024_000_0240 h_S_) shapeCasts_S4x1024_S1x4096
      : S1x4096.Idx → EReal) (ix2 0 (gposP q (up j)))
      = a3 (ix2 3 (gpos q j)) + a4 (ix2 3 (gpos q j)) :=
  bias_apply 3 ![3, 0] rfl rfl slices_S4x4000_S1x4000_3_0 a3 a4 q j

/-! ## The same facts in the vocabulary of the cell: matrices, rows, layers -/

/-- The padded input as a matrix: the real input on the first 1000 columns, zero on the last 24. -/
theorem padX_mat (a0 : Vec Ideal S2048x1x1000 .f32) (n : Fin 2048) (k : Fin 1024) :
    mat2 (pad S2048x1024 ![0, 0] ![0, 24] ![0, 0] (shapeCast S2048x1000 a0 shapeCasts_S2048x1x1000_S2048x1000)
        (sitofp (F := Ideal) .f32 (constantI S_ 32 0#32)) pads_S2048x1000_S2048x1024_000_0240 h_S_ : S2048x1024.Idx → EReal) n k = if h : k.val < 1000 then rows3 a0 n ⟨k.val, h⟩ else 0 :=
  padX_apply a0 n k

/-- The result's cut as a matrix: the padded result on its first 1000 columns. -/
theorem cut_mat (o : Vec Ideal S2048x1024 .f32) (n : Fin 2048) (j : Fin 1000) :
    rows3 (shapeCast S2048x1x1000 (extractStridedSlice S2048x1000 ![0, 0] o slices_S2048x1024_S2048x1000_0_0)
        shapeCasts_S2048x1000_S2048x1x1000 : S2048x1x1000.Idx → EReal) n j = mat2 o n (up j) :=
  cut_apply o n j

/-- Layer 0's padded weight as a matrix: the transposed real weight on the first 1000 rows, zero on the last 24. -/
theorem weight0_mat (a : Vec Ideal S4x4000x1000 .f32) (k : Fin 1024) (q : Fin 4) (j : Fin 1000) :
    mat2 (truncf (F := Ideal) .bf16 (shapeCast S1024x4096 (pad S1024x4x1024 ![0, 0, 0] ![24, 0, 24] ![0, 0, 0]
        (shapeCast S1000x4x1000 (transpose S1000x4000 [1, 0]
          (shapeCast S4000x1000 (extractStridedSlice S1x4000x1000 ![0, 0, 0] a slices_S4x4000x1000_S1x4000x1000_0_0_0) shapeCasts_S1x4000x1000_S4000x1000)
          transposes_S4000x1000_S1000x4000_1_0) shapeCasts_S1000x4000_S1000x4x1000)
        (sitofp (F := Ideal) .f32 (constantI S_ 32 0#32)) pads_S1000x4x1000_S1024x4x1024_0240_000_0240 h_S_)
        shapeCasts_S1024x4x1024_S1024x4096) bitsLt_bf16_f32 : S1024x4096.Idx → EReal) k (gposP q (up j))
      = if h : k.val < 1000 then layer3 a 0 (gpos q j) ⟨k.val, h⟩ else 0 :=
  weight0_apply a k q j

/-- Layer 0's padded bias as a row: the sum of the two real biases at every real unit. -/
theorem bias0_row (a3 a4 : Vec Ideal S4x4000 .f32) (q : Fin 4) (j : Fin 1000) :
    row2 (shapeCast S1x4096 (pad S4x1024 ![0, 0] ![0, 24] ![0, 0]
        (shapeCast S4x1000 (addf (F := Ideal) (φ := .f32) (shapeCast S4000 (extractStridedSlice S1x4000 ![0, 0] a3 slices_S4x4000_S1x4000_0_0) shapeCasts_S1x4000_S4000)
          (shapeCast S4000 (extractStridedSlice S1x4000 ![0, 0] a4 slices_S4x4000_S1x4000_0_0) shapeCasts_S1x4000_S4000)) shapeCasts_S4000_S4x1000)
        (sitofp (F := Ideal) .f32 (constantI S_ 32 0#32)) pads_S4x1000_S4x1024_000_0240 h_S_) shapeCasts_S4x1024_S1x4096
      : S1x4096.Idx → EReal) (gposP q (up j))
      = layer2 a3 0 (gpos q j) + layer2 a4 0 (gpos q j) :=
  bias0_apply a3 a4 q j

/-- Layer 1's padded weight as a matrix: the transposed real weight on the first 1000 rows, zero on the last 24. -/
theorem weight1_mat (a : Vec Ideal S4x4000x1000 .f32) (k : Fin 1024) (q : Fin 4) (j : Fin 1000) :
    mat2 (truncf (F := Ideal) .bf16 (shapeCast S1024x4096 (pad S1024x4x1024 ![0, 0, 0] ![24, 0, 24] ![0, 0, 0]
        (shapeCast S1000x4x1000 (transpose S1000x4000 [1, 0]
          (shapeCast S4000x1000 (extractStridedSlice S1x4000x1000 ![1, 0, 0] a slices_S4x4000x1000_S1x4000x1000_1_0_0) shapeCasts_S1x4000x1000_S4000x1000)
          transposes_S4000x1000_S1000x4000_1_0) shapeCasts_S1000x4000_S1000x4x1000)
        (sitofp (F := Ideal) .f32 (constantI S_ 32 0#32)) pads_S1000x4x1000_S1024x4x1024_0240_000_0240 h_S_)
        shapeCasts_S1024x4x1024_S1024x4096) bitsLt_bf16_f32 : S1024x4096.Idx → EReal) k (gposP q (up j))
      = if h : k.val < 1000 then layer3 a 1 (gpos q j) ⟨k.val, h⟩ else 0 :=
  weight1_apply a k q j

/-- Layer 1's padded bias as a row: the sum of the two real biases at every real unit. -/
theorem bias1_row (a3 a4 : Vec Ideal S4x4000 .f32) (q : Fin 4) (j : Fin 1000) :
    row2 (shapeCast S1x4096 (pad S4x1024 ![0, 0] ![0, 24] ![0, 0]
        (shapeCast S4x1000 (addf (F := Ideal) (φ := .f32) (shapeCast S4000 (extractStridedSlice S1x4000 ![1, 0] a3 slices_S4x4000_S1x4000_1_0) shapeCasts_S1x4000_S4000)
          (shapeCast S4000 (extractStridedSlice S1x4000 ![1, 0] a4 slices_S4x4000_S1x4000_1_0) shapeCasts_S1x4000_S4000)) shapeCasts_S4000_S4x1000)
        (sitofp (F := Ideal) .f32 (constantI S_ 32 0#32)) pads_S4x1000_S4x1024_000_0240 h_S_) shapeCasts_S4x1024_S1x4096
      : S1x4096.Idx → EReal) (gposP q (up j))
      = layer2 a3 1 (gpos q j) + layer2 a4 1 (gpos q j) :=
  bias1_apply a3 a4 q j

/-- Layer 2's padded weight as a matrix: the transposed real weight on the first 1000 rows, zero on the last 24. -/
theorem weight2_mat (a : Vec Ideal S4x4000x1000 .f32) (k : Fin 1024) (q : Fin 4) (j : Fin 1000) :
    mat2 (truncf (F := Ideal) .bf16 (shapeCast S1024x4096 (pad S1024x4x1024 ![0, 0, 0] ![24, 0, 24] ![0, 0, 0]
        (shapeCast S1000x4x1000 (transpose S1000x4000 [1, 0]
          (shapeCast S4000x1000 (extractStridedSlice S1x4000x1000 ![2, 0, 0] a slices_S4x4000x1000_S1x4000x1000_2_0_0) shapeCasts_S1x4000x1000_S4000x1000)
          transposes_S4000x1000_S1000x4000_1_0) shapeCasts_S1000x4000_S1000x4x1000)
        (sitofp (F := Ideal) .f32 (constantI S_ 32 0#32)) pads_S1000x4x1000_S1024x4x1024_0240_000_0240 h_S_)
        shapeCasts_S1024x4x1024_S1024x4096) bitsLt_bf16_f32 : S1024x4096.Idx → EReal) k (gposP q (up j))
      = if h : k.val < 1000 then layer3 a 2 (gpos q j) ⟨k.val, h⟩ else 0 :=
  weight2_apply a k q j

/-- Layer 2's padded bias as a row: the sum of the two real biases at every real unit. -/
theorem bias2_row (a3 a4 : Vec Ideal S4x4000 .f32) (q : Fin 4) (j : Fin 1000) :
    row2 (shapeCast S1x4096 (pad S4x1024 ![0, 0] ![0, 24] ![0, 0]
        (shapeCast S4x1000 (addf (F := Ideal) (φ := .f32) (shapeCast S4000 (extractStridedSlice S1x4000 ![2, 0] a3 slices_S4x4000_S1x4000_2_0) shapeCasts_S1x4000_S4000)
          (shapeCast S4000 (extractStridedSlice S1x4000 ![2, 0] a4 slices_S4x4000_S1x4000_2_0) shapeCasts_S1x4000_S4000)) shapeCasts_S4000_S4x1000)
        (sitofp (F := Ideal) .f32 (constantI S_ 32 0#32)) pads_S4x1000_S4x1024_000_0240 h_S_) shapeCasts_S4x1024_S1x4096
      : S1x4096.Idx → EReal) (gposP q (up j))
      = layer2 a3 2 (gpos q j) + layer2 a4 2 (gpos q j) :=
  bias2_apply a3 a4 q j

/-- Layer 3's padded weight as a matrix: the transposed real weight on the first 1000 rows, zero on the last 24. -/
theorem weight3_mat (a : Vec Ideal S4x4000x1000 .f32) (k : Fin 1024) (q : Fin 4) (j : Fin 1000) :
    mat2 (truncf (F := Ideal) .bf16 (shapeCast S1024x4096 (pad S1024x4x1024 ![0, 0, 0] ![24, 0, 24] ![0, 0, 0]
        (shapeCast S1000x4x1000 (transpose S1000x4000 [1, 0]
          (shapeCast S4000x1000 (extractStridedSlice S1x4000x1000 ![3, 0, 0] a slices_S4x4000x1000_S1x4000x1000_3_0_0) shapeCasts_S1x4000x1000_S4000x1000)
          transposes_S4000x1000_S1000x4000_1_0) shapeCasts_S1000x4000_S1000x4x1000)
        (sitofp (F := Ideal) .f32 (constantI S_ 32 0#32)) pads_S1000x4x1000_S1024x4x1024_0240_000_0240 h_S_)
        shapeCasts_S1024x4x1024_S1024x4096) bitsLt_bf16_f32 : S1024x4096.Idx → EReal) k (gposP q (up j))
      = if h : k.val < 1000 then layer3 a 3 (gpos q j) ⟨k.val, h⟩ else 0 :=
  weight3_apply a k q j

/-- Layer 3's padded bias as a row: the sum of the two real biases at every real unit. -/
theorem bias3_row (a3 a4 : Vec Ideal S4x4000 .f32) (q : Fin 4) (j : Fin 1000) :
    row2 (shapeCast S1x4096 (pad S4x1024 ![0, 0] ![0, 24] ![0, 0]
        (shapeCast S4x1000 (addf (F := Ideal) (φ := .f32) (shapeCast S4000 (extractStridedSlice S1x4000 ![3, 0] a3 slices_S4x4000_S1x4000_3_0) shapeCasts_S1x4000_S4000)
          (shapeCast S4000 (extractStridedSlice S1x4000 ![3, 0] a4 slices_S4x4000_S1x4000_3_0) shapeCasts_S1x4000_S4000)) shapeCasts_S4000_S4x1000)
        (sitofp (F := Ideal) .f32 (constantI S_ 32 0#32)) pads_S4x1000_S4x1024_000_0240 h_S_) shapeCasts_S4x1024_S1x4096
      : S1x4096.Idx → EReal) (gposP q (up j))
      = layer2 a3 3 (gpos q j) + layer2 a4 3 (gpos q j) :=
  bias3_apply a3 a4 q j

end Cert.HostReads

end
-- ==== Proof.HostFoldArgs.lean ====
import proofs.«123216_j20375324852351_2_alg».proof.Proof.Gen.KernelIdeal.Frame
import Idealize.ShloMosaic.PureOps.Ideal

set_option maxRecDepth 16384

noncomputable section

namespace Cert.HostFold

open Idealize.ShloMosaic Idealize.ShloMosaic.TcCoe Idealize.ShloMosaic.StableHlo
open Cert.KernelIdeal Cert.KernelIdeal.Gen
/-- A stretch of host operations leaves a buffer none of its operations writes as it found it. -/
macro "host_keep" : tactic => `(tactic|
  exact StableHlo.after_of_forall_not_mem _ _ (List.forall_iff_forall_mem.mp (by
    simp only [hostOps0, hostOps0_1, hostOps0_2, hostOps0_3, hostOps0_4, hostOps0_5, hostOps0_6, hostOps1, hostOps1_1, hostOps1_2, hostOps1_3, hostOps1_4, hostOps1_5, hostOps1_6, hostOps2, hostOps2_1, hostOps2_2, hostOps2_3, hostOps2_4, hostOps2_5, hostOps2_6, hostOps3, hostOps3_1, hostOps3_2, hostOps3_3, hostOps3_4, hostOps3_5, hostOps3_6, hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! # The argument arrays read back through the fold

No host operation and no region writes an argument array, so at every boundary of the fold an argument's buffer holds
what the launch memory holds: the fold is walked back one stretch (or one region) at a time. -/

theorem W2_arg1 : W2 m ρ c (Proc.devRef .tc main_arg1) = m ((c : Thread nD τ).loc main_arg1) :=
  calc W2 m ρ c (Proc.devRef .tc main_arg1)
    _ = W1 m ρ c (Proc.devRef .tc main_arg1) := by host_keep
    _ = W0 m ρ c (Proc.devRef .tc main_arg1) := by host_keep
    _ = m ((c : Thread nD τ).loc main_arg1) := rfl

theorem W8_arg1 : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := by host_keep
    _ = W5 m ρ c (Proc.devRef .tc main_arg1) := by host_keep
    _ = W4 m ρ c (Proc.devRef .tc main_arg1) := by host_keep
    _ = W3 m ρ c (Proc.devRef .tc main_arg1) := by host_keep
    _ = W2 m ρ c (Proc.devRef .tc main_arg1) := by host_keep
    _ = m ((c : Thread nD τ).loc main_arg1) := W2_arg1 m ρ c

theorem W16_arg1 : W16 m ρ c (Proc.devRef .tc main_arg1) = m ((c : Thread nD τ).loc main_arg1) :=
  calc W16 m ρ c (Proc.devRef .tc main_arg1)
    _ = W15 m ρ c (Proc.devRef .tc main_arg1) := W16_of_ne m ρ c main_arg1 (by decide)
    _ = W14 m ρ c (Proc.devRef .tc main_arg1) := by host_keep
    _ = W13 m ρ c (Proc.devRef .tc main_arg1) := by host_keep
    _ = W12 m ρ c (Proc.devRef .tc main_arg1) := by host_keep
    _ = W11 m ρ c (Proc.devRef .tc main_arg1) := by host_keep
    _ = W10 m ρ c (Proc.devRef .tc main_arg1) := by host_keep
    _ = W9 m ρ c (Proc.devRef .tc main_arg1) := by host_keep
    _ = W8 m ρ c (Proc.devRef .tc main_arg1) := by host_keep
    _ = m ((c : Thread nD τ).loc main_arg1) := W8_arg1 m ρ c

theorem W24_arg1 : W24 m ρ c (Proc.devRef .tc main_arg1) = m ((c : Thread nD τ).loc main_arg1) :=
  calc W24 m ρ c (Proc.devRef .tc main_arg1)
    _ = W23 m ρ c (Proc.devRef .tc main_arg1) := W24_of_ne m ρ c main_arg1 (by decide)
    _ = W22 m ρ c (Proc.devRef .tc main_arg1) := by host_keep
    _ = W21 m ρ c (Proc.devRef .tc main_arg1) := by host_keep
    _ = W20 m ρ c (Proc.devRef .tc main_arg1) := by host_keep
    _ = W19 m ρ c (Proc.devRef .tc main_arg1) := by host_keep
    _ = W18 m ρ c (Proc.devRef .tc main_arg1) := by host_keep
    _ = W17 m ρ c (Proc.devRef .tc main_arg1) := by host_keep
    _ = W16 m ρ c (Proc.devRef .tc main_arg1) := by host_keep
    _ = m ((c : Thread nD τ).loc main_arg1) := W16_arg1 m ρ c

theorem W4_arg3 : W4 m ρ c (Proc.devRef .tc main_arg3) = m ((c : Thread nD τ).loc main_arg3) :=
  calc W4 m ρ c (Proc.devRef .tc main_arg3)
    _ = W3 m ρ c (Proc.devRef .tc main_arg3) := by host_keep
    _ = W2 m ρ c (Proc.devRef .tc main_arg3) := by host_keep
    _ = W1 m ρ c (Proc.devRef .tc main_arg3) := by host_keep
    _ = W0 m ρ c (Proc.devRef .tc main_arg3) := by host_keep
    _ = m ((c : Thread nD τ).loc main_arg3) := rfl

theorem W10_arg3 : W10 m ρ c (Proc.devRef .tc main_arg3) = m ((c : Thread nD τ).loc main_arg3) :=
  calc W10 m ρ c (Proc.devRef .tc main_arg3)
    _ = W9 m ρ c (Proc.devRef .tc main_arg3) := by host_keep
    _ = W8 m ρ c (Proc.devRef .tc main_arg3) := by host_keep
    _ = W7 m ρ c (Proc.devRef .tc main_arg3) := W8_of_ne m ρ c main_arg3 (by decide)
    _ = W6 m ρ c (Proc.devRef .tc main_arg3) := by host_keep
    _ = W5 m ρ c (Proc.devRef .tc main_arg3) := by host_keep
    _ = W4 m ρ c (Proc.devRef .tc main_arg3) := by host_keep
    _ = m ((c : Thread nD τ).loc main_arg3) := W4_arg3 m ρ c

theorem W18_arg3 : W18 m ρ c (Proc.devRef .tc main_arg3) = m ((c : Thread nD τ).loc main_arg3) :=
  calc W18 m ρ c (Proc.devRef .tc main_arg3)
    _ = W17 m ρ c (Proc.devRef .tc main_arg3) := by host_keep
    _ = W16 m ρ c (Proc.devRef .tc main_arg3) := by host_keep
    _ = W15 m ρ c (Proc.devRef .tc main_arg3) := W16_of_ne m ρ c main_arg3 (by decide)
    _ = W14 m ρ c (Proc.devRef .tc main_arg3) := by host_keep
    _ = W13 m ρ c (Proc.devRef .tc main_arg3) := by host_keep
    _ = W12 m ρ c (Proc.devRef .tc main_arg3) := by host_keep
    _ = W11 m ρ c (Proc.devRef .tc main_arg3) := by host_keep
    _ = W10 m ρ c (Proc.devRef .tc main_arg3) := by host_keep
    _ = m ((c : Thread nD τ).loc main_arg3) := W10_arg3 m ρ c

theorem W26_arg3 : W26 m ρ c (Proc.devRef .tc main_arg3) = m ((c : Thread nD τ).loc main_arg3) :=
  calc W26 m ρ c (Proc.devRef .tc main_arg3)
    _ = W25 m ρ c (Proc.devRef .tc main_arg3) := by host_keep
    _ = W24 m ρ c (Proc.devRef .tc main_arg3) := by host_keep
    _ = W23 m ρ c (Proc.devRef .tc main_arg3) := W24_of_ne m ρ c main_arg3 (by decide)
    _ = W22 m ρ c (Proc.devRef .tc main_arg3) := by host_keep
    _ = W21 m ρ c (Proc.devRef .tc main_arg3) := by host_keep
    _ = W20 m ρ c (Proc.devRef .tc main_arg3) := by host_keep
    _ = W19 m ρ c (Proc.devRef .tc main_arg3) := by host_keep
    _ = W18 m ρ c (Proc.devRef .tc main_arg3) := by host_keep
    _ = m ((c : Thread nD τ).loc main_arg3) := W18_arg3 m ρ c

theorem W4_arg4 : W4 m ρ c (Proc.devRef .tc main_arg4) = m ((c : Thread nD τ).loc main_arg4) :=
  calc W4 m ρ c (Proc.devRef .tc main_arg4)
    _ = W3 m ρ c (Proc.devRef .tc main_arg4) := by host_keep
    _ = W2 m ρ c (Proc.devRef .tc main_arg4) := by host_keep
    _ = W1 m ρ c (Proc.devRef .tc main_arg4) := by host_keep
    _ = W0 m ρ c (Proc.devRef .tc main_arg4) := by host_keep
    _ = m ((c : Thread nD τ).loc main_arg4) := rfl

theorem W10_arg4 : W10 m ρ c (Proc.devRef .tc main_arg4) = m ((c : Thread nD τ).loc main_arg4) :=
  calc W10 m ρ c (Proc.devRef .tc main_arg4)
    _ = W9 m ρ c (Proc.devRef .tc main_arg4) := by host_keep
    _ = W8 m ρ c (Proc.devRef .tc main_arg4) := by host_keep
    _ = W7 m ρ c (Proc.devRef .tc main_arg4) := W8_of_ne m ρ c main_arg4 (by decide)
    _ = W6 m ρ c (Proc.devRef .tc main_arg4) := by host_keep
    _ = W5 m ρ c (Proc.devRef .tc main_arg4) := by host_keep
    _ = W4 m ρ c (Proc.devRef .tc main_arg4) := by host_keep
    _ = m ((c : Thread nD τ).loc main_arg4) := W4_arg4 m ρ c

theorem W18_arg4 : W18 m ρ c (Proc.devRef .tc main_arg4) = m ((c : Thread nD τ).loc main_arg4) :=
  calc W18 m ρ c (Proc.devRef .tc main_arg4)
    _ = W17 m ρ c (Proc.devRef .tc main_arg4) := by host_keep
    _ = W16 m ρ c (Proc.devRef .tc main_arg4) := by host_keep
    _ = W15 m ρ c (Proc.devRef .tc main_arg4) := W16_of_ne m ρ c main_arg4 (by decide)
    _ = W14 m ρ c (Proc.devRef .tc main_arg4) := by host_keep
    _ = W13 m ρ c (Proc.devRef .tc main_arg4) := by host_keep
    _ = W12 m ρ c (Proc.devRef .tc main_arg4) := by host_keep
    _ = W11 m ρ c (Proc.devRef .tc main_arg4) := by host_keep
    _ = W10 m ρ c (Proc.devRef .tc main_arg4) := by host_keep
    _ = m ((c : Thread nD τ).loc main_arg4) := W10_arg4 m ρ c

theorem W26_arg4 : W26 m ρ c (Proc.devRef .tc main_arg4) = m ((c : Thread nD τ).loc main_arg4) :=
  calc W26 m ρ c (Proc.devRef .tc main_arg4)
    _ = W25 m ρ c (Proc.devRef .tc main_arg4) := by host_keep
    _ = W24 m ρ c (Proc.devRef .tc main_arg4) := by host_keep
    _ = W23 m ρ c (Proc.devRef .tc main_arg4) := W24_of_ne m ρ c main_arg4 (by decide)
    _ = W22 m ρ c (Proc.devRef .tc main_arg4) := by host_keep
    _ = W21 m ρ c (Proc.devRef .tc main_arg4) := by host_keep
    _ = W20 m ρ c (Proc.devRef .tc main_arg4) := by host_keep
    _ = W19 m ρ c (Proc.devRef .tc main_arg4) := by host_keep
    _ = W18 m ρ c (Proc.devRef .tc main_arg4) := by host_keep
    _ = m ((c : Thread nD τ).loc main_arg4) := W18_arg4 m ρ c

theorem W12_arg2 : W12 m ρ c (Proc.devRef .tc main_arg2) = m ((c : Thread nD τ).loc main_arg2) :=
  calc W12 m ρ c (Proc.devRef .tc main_arg2)
    _ = W11 m ρ c (Proc.devRef .tc main_arg2) := by host_keep
    _ = W10 m ρ c (Proc.devRef .tc main_arg2) := by host_keep
    _ = W9 m ρ c (Proc.devRef .tc main_arg2) := by host_keep
    _ = W8 m ρ c (Proc.devRef .tc main_arg2) := by host_keep
    _ = W7 m ρ c (Proc.devRef .tc main_arg2) := W8_of_ne m ρ c main_arg2 (by decide)
    _ = W6 m ρ c (Proc.devRef .tc main_arg2) := by host_keep
    _ = W5 m ρ c (Proc.devRef .tc main_arg2) := by host_keep
    _ = W4 m ρ c (Proc.devRef .tc main_arg2) := by host_keep
    _ = W3 m ρ c (Proc.devRef .tc main_arg2) := by host_keep
    _ = W2 m ρ c (Proc.devRef .tc main_arg2) := by host_keep
    _ = W1 m ρ c (Proc.devRef .tc main_arg2) := by host_keep
    _ = W0 m ρ c (Proc.devRef .tc main_arg2) := by host_keep
    _ = m ((c : Thread nD τ).loc main_arg2) := rfl

theorem W20_arg2 : W20 m ρ c (Proc.devRef .tc main_arg2) = m ((c : Thread nD τ).loc main_arg2) :=
  calc W20 m ρ c (Proc.devRef .tc main_arg2)
    _ = W19 m ρ c (Proc.devRef .tc main_arg2) := by host_keep
    _ = W18 m ρ c (Proc.devRef .tc main_arg2) := by host_keep
    _ = W17 m ρ c (Proc.devRef .tc main_arg2) := by host_keep
    _ = W16 m ρ c (Proc.devRef .tc main_arg2) := by host_keep
    _ = W15 m ρ c (Proc.devRef .tc main_arg2) := W16_of_ne m ρ c main_arg2 (by decide)
    _ = W14 m ρ c (Proc.devRef .tc main_arg2) := by host_keep
    _ = W13 m ρ c (Proc.devRef .tc main_arg2) := by host_keep
    _ = W12 m ρ c (Proc.devRef .tc main_arg2) := by host_keep
    _ = m ((c : Thread nD τ).loc main_arg2) := W12_arg2 m ρ c

theorem W28_arg2 : W28 m ρ c (Proc.devRef .tc main_arg2) = m ((c : Thread nD τ).loc main_arg2) :=
  calc W28 m ρ c (Proc.devRef .tc main_arg2)
    _ = W27 m ρ c (Proc.devRef .tc main_arg2) := by host_keep
    _ = W26 m ρ c (Proc.devRef .tc main_arg2) := by host_keep
    _ = W25 m ρ c (Proc.devRef .tc main_arg2) := by host_keep
    _ = W24 m ρ c (Proc.devRef .tc main_arg2) := by host_keep
    _ = W23 m ρ c (Proc.devRef .tc main_arg2) := W24_of_ne m ρ c main_arg2 (by decide)
    _ = W22 m ρ c (Proc.devRef .tc main_arg2) := by host_keep
    _ = W21 m ρ c (Proc.devRef .tc main_arg2) := by host_keep
    _ = W20 m ρ c (Proc.devRef .tc main_arg2) := by host_keep
    _ = m ((c : Thread nD τ).loc main_arg2) := W20_arg2 m ρ c

end Cert.HostFold
end
-- ==== Proof.HostFoldOps.lean ====
import proofs.«123216_j20375324852351_2_alg».proof.Proof.Gen.KernelIdeal.Frame
import Idealize.ShloMosaic.PureOps.Ideal

set_option maxRecDepth 16384

noncomputable section

namespace Cert.HostFold

open Idealize.ShloMosaic Idealize.ShloMosaic.TcCoe Idealize.ShloMosaic.StableHlo
open Cert.KernelIdeal Cert.KernelIdeal.Gen

/-! # What each stretch of host operations leaves in the buffers it writes

Stated over ANY contents `X` of the buffers when the stretch starts, with the contents of the buffers the stretch reads
named by hypotheses: each result is the operations' own functions composed, in program order. -/

variable (X : Valuation τ sig (Elt Ideal))

/-! ## The input rows: the [2048, 1, 1000] argument flattened to [2048, 1000] and padded with 24 zero columns -/

theorem s0_x (a0 : FVec Ideal S2048x1x1000 .f32) (ha0 : X (Proc.devRef .tc main_arg0) = a0) :
    StableHlo.after hostOps0 X (Proc.devRef .tc main_v0) = shapeCast S2048x1000 a0 shapeCasts_S2048x1x1000_S2048x1000 := by
  subst ha0; rw [hostOps0]; after_results <;> rfl

theorem s0_c  :
    StableHlo.after hostOps0 X (Proc.devRef .tc main_c) = (constantI S_ 32 0#32 : IVec S_ 32) := by
  rw [hostOps0]; after_results <;> rfl

theorem s0_p (x : FVec Ideal S2048x1000 .f32) (z : IVec S_ 32) (hx : X (Proc.devRef .tc main_v0) = x) (hz : X (Proc.devRef .tc main_c) = z) :
    StableHlo.after hostOps0_1 X (Proc.devRef .tc main_v1) = pad S2048x1024 ![0, 0] ![0, 24] ![0, 0] x (sitofp (F := Ideal) .f32 z) pads_S2048x1000_S2048x1024_000_0240 h_S_ := by
  subst hx; subst hz; rw [hostOps0_1]; after_results <;> rfl

/-! ## Layer 0: the slice of each stacked argument, transposed, padded and (for a weight) rounded -/

theorem l0_w3 (a : FVec Ideal S4x4000x1000 .f32) (ha : X (Proc.devRef .tc main_arg1) = a) :
    StableHlo.after hostOps0_2 X (Proc.devRef .tc main_v5) = shapeCast S1000x4x1000 (transpose S1000x4000 [1, 0] (shapeCast S4000x1000 (extractStridedSlice S1x4000x1000 ![0, 0, 0] a slices_S4x4000x1000_S1x4000x1000_0_0_0) shapeCasts_S1x4000x1000_S4000x1000) transposes_S4000x1000_S1000x4000_1_0) shapeCasts_S1000x4000_S1000x4x1000 := by
  subst ha; rw [hostOps0_2]; after_results <;> rfl

theorem l0_c0  :
    StableHlo.after hostOps0_2 X (Proc.devRef .tc main_c_0) = (constantI S_ 32 0#32 : IVec S_ 32) := by
  rw [hostOps0_2]; after_results <;> rfl

theorem l0_wp (x : FVec Ideal S1000x4x1000 .f32) (z : IVec S_ 32) (hx : X (Proc.devRef .tc main_v5) = x) (hz : X (Proc.devRef .tc main_c_0) = z) :
    StableHlo.after hostOps0_3 X (Proc.devRef .tc main_v6) = pad S1024x4x1024 ![0, 0, 0] ![24, 0, 24] ![0, 0, 0] x (sitofp (F := Ideal) .f32 z) pads_S1000x4x1000_S1024x4x1024_0240_000_0240 h_S_ := by
  subst hx; subst hz; rw [hostOps0_3]; after_results <;> rfl

theorem l0_wf (y : FVec Ideal S1024x4x1024 .f32) (hy : X (Proc.devRef .tc main_v6) = y) :
    StableHlo.after hostOps0_4 X (Proc.devRef .tc main_v8) = truncf .bf16 (shapeCast S1024x4096 y shapeCasts_S1024x4x1024_S1024x4096) bitsLt_bf16_f32 := by
  subst hy; rw [hostOps0_4]; after_results <;> rfl

theorem l0_b1 (a3 : FVec Ideal S4x4000 .f32) (a4 : FVec Ideal S4x4000 .f32) (ha3 : X (Proc.devRef .tc main_arg3) = a3) (ha4 : X (Proc.devRef .tc main_arg4) = a4) :
    StableHlo.after hostOps0_4 X (Proc.devRef .tc main_v14) = shapeCast S4x1000 (addf (shapeCast S4000 (extractStridedSlice S1x4000 ![0, 0] a3 slices_S4x4000_S1x4000_0_0) shapeCasts_S1x4000_S4000) (shapeCast S4000 (extractStridedSlice S1x4000 ![0, 0] a4 slices_S4x4000_S1x4000_0_0) shapeCasts_S1x4000_S4000)) shapeCasts_S4000_S4x1000 := by
  subst ha3; subst ha4; rw [hostOps0_4]; after_results <;> rfl

theorem l0_c1  :
    StableHlo.after hostOps0_4 X (Proc.devRef .tc main_c_1) = (constantI S_ 32 0#32 : IVec S_ 32) := by
  rw [hostOps0_4]; after_results <;> rfl

theorem l0_bp (x : FVec Ideal S4x1000 .f32) (z : IVec S_ 32) (hx : X (Proc.devRef .tc main_v14) = x) (hz : X (Proc.devRef .tc main_c_1) = z) :
    StableHlo.after hostOps0_5 X (Proc.devRef .tc main_v15) = pad S4x1024 ![0, 0] ![0, 24] ![0, 0] x (sitofp (F := Ideal) .f32 z) pads_S4x1000_S4x1024_000_0240 h_S_ := by
  subst hx; subst hz; rw [hostOps0_5]; after_results <;> rfl

theorem l0_bf (y : FVec Ideal S4x1024 .f32) (hy : X (Proc.devRef .tc main_v15) = y) :
    StableHlo.after hostOps0_6 X (Proc.devRef .tc main_v16) = shapeCast S1x4096 y shapeCasts_S4x1024_S1x4096 := by
  subst hy; rw [hostOps0_6]; after_results <;> rfl

/-! ## Layer 1: the slice of each stacked argument, transposed, padded and (for a weight) rounded -/

theorem l1_w3 (a : FVec Ideal S4x4000x1000 .f32) (ha : X (Proc.devRef .tc main_arg1) = a) :
    StableHlo.after hostOps1 X (Proc.devRef .tc main_v21) = shapeCast S1000x4x1000 (transpose S1000x4000 [1, 0] (shapeCast S4000x1000 (extractStridedSlice S1x4000x1000 ![1, 0, 0] a slices_S4x4000x1000_S1x4000x1000_1_0_0) shapeCasts_S1x4000x1000_S4000x1000) transposes_S4000x1000_S1000x4000_1_0) shapeCasts_S1000x4000_S1000x4x1000 := by
  subst ha; rw [hostOps1]; after_results <;> rfl

theorem l1_c0  :
    StableHlo.after hostOps1 X (Proc.devRef .tc main_c_2) = (constantI S_ 32 0#32 : IVec S_ 32) := by
  rw [hostOps1]; after_results <;> rfl

theorem l1_wp (x : FVec Ideal S1000x4x1000 .f32) (z : IVec S_ 32) (hx : X (Proc.devRef .tc main_v21) = x) (hz : X (Proc.devRef .tc main_c_2) = z) :
    StableHlo.after hostOps1_1 X (Proc.devRef .tc main_v22) = pad S1024x4x1024 ![0, 0, 0] ![24, 0, 24] ![0, 0, 0] x (sitofp (F := Ideal) .f32 z) pads_S1000x4x1000_S1024x4x1024_0240_000_0240 h_S_ := by
  subst hx; subst hz; rw [hostOps1_1]; after_results <;> rfl

theorem l1_wf (y : FVec Ideal S1024x4x1024 .f32) (hy : X (Proc.devRef .tc main_v22) = y) :
    StableHlo.after hostOps1_2 X (Proc.devRef .tc main_v24) = truncf .bf16 (shapeCast S1024x4096 y shapeCasts_S1024x4x1024_S1024x4096) bitsLt_bf16_f32 := by
  subst hy; rw [hostOps1_2]; after_results <;> rfl

theorem l1_b1 (a3 : FVec Ideal S4x4000 .f32) (a4 : FVec Ideal S4x4000 .f32) (ha3 : X (Proc.devRef .tc main_arg3) = a3) (ha4 : X (Proc.devRef .tc main_arg4) = a4) :
    StableHlo.after hostOps1_2 X (Proc.devRef .tc main_v30) = shapeCast S4x1000 (addf (shapeCast S4000 (extractStridedSlice S1x4000 ![1, 0] a3 slices_S4x4000_S1x4000_1_0) shapeCasts_S1x4000_S4000) (shapeCast S4000 (extractStridedSlice S1x4000 ![1, 0] a4 slices_S4x4000_S1x4000_1_0) shapeCasts_S1x4000_S4000)) shapeCasts_S4000_S4x1000 := by
  subst ha3; subst ha4; rw [hostOps1_2]; after_results <;> rfl

theorem l1_c1  :
    StableHlo.after hostOps1_2 X (Proc.devRef .tc main_c_3) = (constantI S_ 32 0#32 : IVec S_ 32) := by
  rw [hostOps1_2]; after_results <;> rfl

theorem l1_bp (x : FVec Ideal S4x1000 .f32) (z : IVec S_ 32) (hx : X (Proc.devRef .tc main_v30) = x) (hz : X (Proc.devRef .tc main_c_3) = z) :
    StableHlo.after hostOps1_3 X (Proc.devRef .tc main_v31) = pad S4x1024 ![0, 0] ![0, 24] ![0, 0] x (sitofp (F := Ideal) .f32 z) pads_S4x1000_S4x1024_000_0240 h_S_ := by
  subst hx; subst hz; rw [hostOps1_3]; after_results <;> rfl

theorem l1_bf (y : FVec Ideal S4x1024 .f32) (hy : X (Proc.devRef .tc main_v31) = y) :
    StableHlo.after hostOps1_4 X (Proc.devRef .tc main_v32) = shapeCast S1x4096 y shapeCasts_S4x1024_S1x4096 := by
  subst hy; rw [hostOps1_4]; after_results <;> rfl

theorem l1_h3 (a : FVec Ideal S4x4000x1000 .f32) (ha : X (Proc.devRef .tc main_arg2) = a) :
    StableHlo.after hostOps1_4 X (Proc.devRef .tc main_v36) = shapeCast S1000x4x1000 (transpose S1000x4000 [1, 0] (shapeCast S4000x1000 (extractStridedSlice S1x4000x1000 ![1, 0, 0] a slices_S4x4000x1000_S1x4000x1000_1_0_0) shapeCasts_S1x4000x1000_S4000x1000) transposes_S4000x1000_S1000x4000_1_0) shapeCasts_S1000x4000_S1000x4x1000 := by
  subst ha; rw [hostOps1_4]; after_results <;> rfl

theorem l1_c2  :
    StableHlo.after hostOps1_4 X (Proc.devRef .tc main_c_4) = (constantI S_ 32 0#32 : IVec S_ 32) := by
  rw [hostOps1_4]; after_results <;> rfl

theorem l1_hp (x : FVec Ideal S1000x4x1000 .f32) (z : IVec S_ 32) (hx : X (Proc.devRef .tc main_v36) = x) (hz : X (Proc.devRef .tc main_c_4) = z) :
    StableHlo.after hostOps1_5 X (Proc.devRef .tc main_v37) = pad S1024x4x1024 ![0, 0, 0] ![24, 0, 24] ![0, 0, 0] x (sitofp (F := Ideal) .f32 z) pads_S1000x4x1000_S1024x4x1024_0240_000_0240 h_S_ := by
  subst hx; subst hz; rw [hostOps1_5]; after_results <;> rfl

theorem l1_hf (y : FVec Ideal S1024x4x1024 .f32) (hy : X (Proc.devRef .tc main_v37) = y) :
    StableHlo.after hostOps1_6 X (Proc.devRef .tc main_v39) = truncf .bf16 (shapeCast S1024x4096 y shapeCasts_S1024x4x1024_S1024x4096) bitsLt_bf16_f32 := by
  subst hy; rw [hostOps1_6]; after_results <;> rfl

/-! ## Layer 2: the slice of each stacked argument, transposed, padded and (for a weight) rounded -/

theorem l2_w3 (a : FVec Ideal S4x4000x1000 .f32) (ha : X (Proc.devRef .tc main_arg1) = a) :
    StableHlo.after hostOps2 X (Proc.devRef .tc main_v44) = shapeCast S1000x4x1000 (transpose S1000x4000 [1, 0] (shapeCast S4000x1000 (extractStridedSlice S1x4000x1000 ![2, 0, 0] a slices_S4x4000x1000_S1x4000x1000_2_0_0) shapeCasts_S1x4000x1000_S4000x1000) transposes_S4000x1000_S1000x4000_1_0) shapeCasts_S1000x4000_S1000x4x1000 := by
  subst ha; rw [hostOps2]; after_results <;> rfl

theorem l2_c0  :
    StableHlo.after hostOps2 X (Proc.devRef .tc main_c_5) = (constantI S_ 32 0#32 : IVec S_ 32) := by
  rw [hostOps2]; after_results <;> rfl

theorem l2_wp (x : FVec Ideal S1000x4x1000 .f32) (z : IVec S_ 32) (hx : X (Proc.devRef .tc main_v44) = x) (hz : X (Proc.devRef .tc main_c_5) = z) :
    StableHlo.after hostOps2_1 X (Proc.devRef .tc main_v45) = pad S1024x4x1024 ![0, 0, 0] ![24, 0, 24] ![0, 0, 0] x (sitofp (F := Ideal) .f32 z) pads_S1000x4x1000_S1024x4x1024_0240_000_0240 h_S_ := by
  subst hx; subst hz; rw [hostOps2_1]; after_results <;> rfl

theorem l2_wf (y : FVec Ideal S1024x4x1024 .f32) (hy : X (Proc.devRef .tc main_v45) = y) :
    StableHlo.after hostOps2_2 X (Proc.devRef .tc main_v47) = truncf .bf16 (shapeCast S1024x4096 y shapeCasts_S1024x4x1024_S1024x4096) bitsLt_bf16_f32 := by
  subst hy; rw [hostOps2_2]; after_results <;> rfl

theorem l2_b1 (a3 : FVec Ideal S4x4000 .f32) (a4 : FVec Ideal S4x4000 .f32) (ha3 : X (Proc.devRef .tc main_arg3) = a3) (ha4 : X (Proc.devRef .tc main_arg4) = a4) :
    StableHlo.after hostOps2_2 X (Proc.devRef .tc main_v53) = shapeCast S4x1000 (addf (shapeCast S4000 (extractStridedSlice S1x4000 ![2, 0] a3 slices_S4x4000_S1x4000_2_0) shapeCasts_S1x4000_S4000) (shapeCast S4000 (extractStridedSlice S1x4000 ![2, 0] a4 slices_S4x4000_S1x4000_2_0) shapeCasts_S1x4000_S4000)) shapeCasts_S4000_S4x1000 := by
  subst ha3; subst ha4; rw [hostOps2_2]; after_results <;> rfl

theorem l2_c1  :
    StableHlo.after hostOps2_2 X (Proc.devRef .tc main_c_6) = (constantI S_ 32 0#32 : IVec S_ 32) := by
  rw [hostOps2_2]; after_results <;> rfl

theorem l2_bp (x : FVec Ideal S4x1000 .f32) (z : IVec S_ 32) (hx : X (Proc.devRef .tc main_v53) = x) (hz : X (Proc.devRef .tc main_c_6) = z) :
    StableHlo.after hostOps2_3 X (Proc.devRef .tc main_v54) = pad S4x1024 ![0, 0] ![0, 24] ![0, 0] x (sitofp (F := Ideal) .f32 z) pads_S4x1000_S4x1024_000_0240 h_S_ := by
  subst hx; subst hz; rw [hostOps2_3]; after_results <;> rfl

theorem l2_bf (y : FVec Ideal S4x1024 .f32) (hy : X (Proc.devRef .tc main_v54) = y) :
    StableHlo.after hostOps2_4 X (Proc.devRef .tc main_v55) = shapeCast S1x4096 y shapeCasts_S4x1024_S1x4096 := by
  subst hy; rw [hostOps2_4]; after_results <;> rfl

theorem l2_h3 (a : FVec Ideal S4x4000x1000 .f32) (ha : X (Proc.devRef .tc main_arg2) = a) :
    StableHlo.after hostOps2_4 X (Proc.devRef .tc main_v59) = shapeCast S1000x4x1000 (transpose S1000x4000 [1, 0] (shapeCast S4000x1000 (extractStridedSlice S1x4000x1000 ![2, 0, 0] a slices_S4x4000x1000_S1x4000x1000_2_0_0) shapeCasts_S1x4000x1000_S4000x1000) transposes_S4000x1000_S1000x4000_1_0) shapeCasts_S1000x4000_S1000x4x1000 := by
  subst ha; rw [hostOps2_4]; after_results <;> rfl

theorem l2_c2  :
    StableHlo.after hostOps2_4 X (Proc.devRef .tc main_c_7) = (constantI S_ 32 0#32 : IVec S_ 32) := by
  rw [hostOps2_4]; after_results <;> rfl

theorem l2_hp (x : FVec Ideal S1000x4x1000 .f32) (z : IVec S_ 32) (hx : X (Proc.devRef .tc main_v59) = x) (hz : X (Proc.devRef .tc main_c_7) = z) :
    StableHlo.after hostOps2_5 X (Proc.devRef .tc main_v60) = pad S1024x4x1024 ![0, 0, 0] ![24, 0, 24] ![0, 0, 0] x (sitofp (F := Ideal) .f32 z) pads_S1000x4x1000_S1024x4x1024_0240_000_0240 h_S_ := by
  subst hx; subst hz; rw [hostOps2_5]; after_results <;> rfl

theorem l2_hf (y : FVec Ideal S1024x4x1024 .f32) (hy : X (Proc.devRef .tc main_v60) = y) :
    StableHlo.after hostOps2_6 X (Proc.devRef .tc main_v62) = truncf .bf16 (shapeCast S1024x4096 y shapeCasts_S1024x4x1024_S1024x4096) bitsLt_bf16_f32 := by
  subst hy; rw [hostOps2_6]; after_results <;> rfl

/-! ## Layer 3: the slice of each stacked argument, transposed, padded and (for a weight) rounded -/

theorem l3_w3 (a : FVec Ideal S4x4000x1000 .f32) (ha : X (Proc.devRef .tc main_arg1) = a) :
    StableHlo.after hostOps3 X (Proc.devRef .tc main_v67) = shapeCast S1000x4x1000 (transpose S1000x4000 [1, 0] (shapeCast S4000x1000 (extractStridedSlice S1x4000x1000 ![3, 0, 0] a slices_S4x4000x1000_S1x4000x1000_3_0_0) shapeCasts_S1x4000x1000_S4000x1000) transposes_S4000x1000_S1000x4000_1_0) shapeCasts_S1000x4000_S1000x4x1000 := by
  subst ha; rw [hostOps3]; after_results <;> rfl

theorem l3_c0  :
    StableHlo.after hostOps3 X (Proc.devRef .tc main_c_8) = (constantI S_ 32 0#32 : IVec S_ 32) := by
  rw [hostOps3]; after_results <;> rfl

theorem l3_wp (x : FVec Ideal S1000x4x1000 .f32) (z : IVec S_ 32) (hx : X (Proc.devRef .tc main_v67) = x) (hz : X (Proc.devRef .tc main_c_8) = z) :
    StableHlo.after hostOps3_1 X (Proc.devRef .tc main_v68) = pad S1024x4x1024 ![0, 0, 0] ![24, 0, 24] ![0, 0, 0] x (sitofp (F := Ideal) .f32 z) pads_S1000x4x1000_S1024x4x1024_0240_000_0240 h_S_ := by
  subst hx; subst hz; rw [hostOps3_1]; after_results <;> rfl

theorem l3_wf (y : FVec Ideal S1024x4x1024 .f32) (hy : X (Proc.devRef .tc main_v68) = y) :
    StableHlo.after hostOps3_2 X (Proc.devRef .tc main_v70) = truncf .bf16 (shapeCast S1024x4096 y shapeCasts_S1024x4x1024_S1024x4096) bitsLt_bf16_f32 := by
  subst hy; rw [hostOps3_2]; after_results <;> rfl

theorem l3_b1 (a3 : FVec Ideal S4x4000 .f32) (a4 : FVec Ideal S4x4000 .f32) (ha3 : X (Proc.devRef .tc main_arg3) = a3) (ha4 : X (Proc.devRef .tc main_arg4) = a4) :
    StableHlo.after hostOps3_2 X (Proc.devRef .tc main_v76) = shapeCast S4x1000 (addf (shapeCast S4000 (extractStridedSlice S1x4000 ![3, 0] a3 slices_S4x4000_S1x4000_3_0) shapeCasts_S1x4000_S4000) (shapeCast S4000 (extractStridedSlice S1x4000 ![3, 0] a4 slices_S4x4000_S1x4000_3_0) shapeCasts_S1x4000_S4000)) shapeCasts_S4000_S4x1000 := by
  subst ha3; subst ha4; rw [hostOps3_2]; after_results <;> rfl

theorem l3_c1  :
    StableHlo.after hostOps3_2 X (Proc.devRef .tc main_c_9) = (constantI S_ 32 0#32 : IVec S_ 32) := by
  rw [hostOps3_2]; after_results <;> rfl

theorem l3_bp (x : FVec Ideal S4x1000 .f32) (z : IVec S_ 32) (hx : X (Proc.devRef .tc main_v76) = x) (hz : X (Proc.devRef .tc main_c_9) = z) :
    StableHlo.after hostOps3_3 X (Proc.devRef .tc main_v77) = pad S4x1024 ![0, 0] ![0, 24] ![0, 0] x (sitofp (F := Ideal) .f32 z) pads_S4x1000_S4x1024_000_0240 h_S_ := by
  subst hx; subst hz; rw [hostOps3_3]; after_results <;> rfl

theorem l3_bf (y : FVec Ideal S4x1024 .f32) (hy : X (Proc.devRef .tc main_v77) = y) :
    StableHlo.after hostOps3_4 X (Proc.devRef .tc main_v78) = shapeCast S1x4096 y shapeCasts_S4x1024_S1x4096 := by
  subst hy; rw [hostOps3_4]; after_results <;> rfl

theorem l3_h3 (a : FVec Ideal S4x4000x1000 .f32) (ha : X (Proc.devRef .tc main_arg2) = a) :
    StableHlo.after hostOps3_4 X (Proc.devRef .tc main_v82) = shapeCast S1000x4x1000 (transpose S1000x4000 [1, 0] (shapeCast S4000x1000 (extractStridedSlice S1x4000x1000 ![3, 0, 0] a slices_S4x4000x1000_S1x4000x1000_3_0_0) shapeCasts_S1x4000x1000_S4000x1000) transposes_S4000x1000_S1000x4000_1_0) shapeCasts_S1000x4000_S1000x4x1000 := by
  subst ha; rw [hostOps3_4]; after_results <;> rfl

theorem l3_c2  :
    StableHlo.after hostOps3_4 X (Proc.devRef .tc main_c_10) = (constantI S_ 32 0#32 : IVec S_ 32) := by
  rw [hostOps3_4]; after_results <;> rfl

theorem l3_hp (x : FVec Ideal S1000x4x1000 .f32) (z : IVec S_ 32) (hx : X (Proc.devRef .tc main_v82) = x) (hz : X (Proc.devRef .tc main_c_10) = z) :
    StableHlo.after hostOps3_5 X (Proc.devRef .tc main_v83) = pad S1024x4x1024 ![0, 0, 0] ![24, 0, 24] ![0, 0, 0] x (sitofp (F := Ideal) .f32 z) pads_S1000x4x1000_S1024x4x1024_0240_000_0240 h_S_ := by
  subst hx; subst hz; rw [hostOps3_5]; after_results <;> rfl

theorem l3_hf (y : FVec Ideal S1024x4x1024 .f32) (hy : X (Proc.devRef .tc main_v83) = y) :
    StableHlo.after hostOps3_6 X (Proc.devRef .tc main_v85) = truncf .bf16 (shapeCast S1024x4096 y shapeCasts_S1024x4x1024_S1024x4096) bitsLt_bf16_f32 := by
  subst hy; rw [hostOps3_6]; after_results <;> rfl

/-! ## The result: the first 1000 columns of the last hidden state, as a [2048, 1, 1000] array -/

theorem s4_cut (o : FVec Ideal S2048x1024 .f32) (ho : X (Proc.devRef .tc main_v86_0) = o) :
    StableHlo.after hostOps4 X (Proc.devRef .tc main_v88) = shapeCast S2048x1x1000 (extractStridedSlice S2048x1000 ![0, 0] o slices_S2048x1024_S2048x1000_0_0) shapeCasts_S2048x1000_S2048x1x1000 := by
  subst ho; rw [hostOps4]; after_results <;> rfl

end Cert.HostFold
end
-- ==== Proof.HostFold0.lean ====
import proofs.«123216_j20375324852351_2_alg».proof.Proof.Gen.KernelIdeal.Frame
import Idealize.ShloMosaic.PureOps.Ideal
import proofs.«123216_j20375324852351_2_alg».proof.Proof.HostFoldArgs
import proofs.«123216_j20375324852351_2_alg».proof.Proof.HostFoldOps

set_option maxRecDepth 16384

noncomputable section

namespace Cert.HostFold

open Idealize.ShloMosaic Idealize.ShloMosaic.TcCoe Idealize.ShloMosaic.StableHlo
open Cert.KernelIdeal Cert.KernelIdeal.Gen
variable (m : (ℓ : Loc nD τ sig) → Buf (Elt Ideal) ℓ) (ρ : Dev nD → PrngReg) (c : Dev nD)

/-! # Region 0's entry: the padded input rows, the first layer's padded input weights and padded bias, as the host
    operations' functions composed over the launch memory's argument arrays -/

theorem V7_v1 (A0 : FVec Ideal S2048x1x1000 .f32) (hA0 : m ((c : Thread nD τ).loc main_arg0) = A0) :
    V7 m ρ c main_v1 = pad S2048x1024 ![0, 0] ![0, 24] ![0, 0] (shapeCast S2048x1000 A0 shapeCasts_S2048x1x1000_S2048x1000) (sitofp (F := Ideal) .f32 (constantI S_ 32 0#32)) pads_S2048x1000_S2048x1024_000_0240 h_S_ :=
  calc W7 m ρ c (Proc.devRef .tc main_v1)
    _ = W6 m ρ c (Proc.devRef .tc main_v1) := by host_keep
    _ = W5 m ρ c (Proc.devRef .tc main_v1) := by host_keep
    _ = W4 m ρ c (Proc.devRef .tc main_v1) := by host_keep
    _ = W3 m ρ c (Proc.devRef .tc main_v1) := by host_keep
    _ = W2 m ρ c (Proc.devRef .tc main_v1) := by host_keep
    _ = _ := s0_p (W1 m ρ c) _ _ (s0_x (W0 m ρ c) A0 hA0) (s0_c (W0 m ρ c))

theorem V7_v8 (A1 : FVec Ideal S4x4000x1000 .f32) (hA1 : m ((c : Thread nD τ).loc main_arg1) = A1) :
    V7 m ρ c main_v8 = truncf .bf16 (shapeCast S1024x4096 (pad S1024x4x1024 ![0, 0, 0] ![24, 0, 24] ![0, 0, 0] (shapeCast S1000x4x1000 (transpose S1000x4000 [1, 0] (shapeCast S4000x1000 (extractStridedSlice S1x4000x1000 ![0, 0, 0] A1 slices_S4x4000x1000_S1x4000x1000_0_0_0) shapeCasts_S1x4000x1000_S4000x1000) transposes_S4000x1000_S1000x4000_1_0) shapeCasts_S1000x4000_S1000x4x1000) (sitofp (F := Ideal) .f32 (constantI S_ 32 0#32)) pads_S1000x4x1000_S1024x4x1024_0240_000_0240 h_S_) shapeCasts_S1024x4x1024_S1024x4096) bitsLt_bf16_f32 :=
  calc W7 m ρ c (Proc.devRef .tc main_v8)
    _ = W6 m ρ c (Proc.devRef .tc main_v8) := by host_keep
    _ = W5 m ρ c (Proc.devRef .tc main_v8) := by host_keep
    _ = _ := l0_wf (W4 m ρ c) _ (l0_wp (W3 m ρ c) _ _ (l0_w3 (W2 m ρ c) A1 ((W2_arg1 m ρ c).trans hA1)) (l0_c0 (W2 m ρ c)))

theorem V7_v16 (A3 A4 : FVec Ideal S4x4000 .f32) (hA3 : m ((c : Thread nD τ).loc main_arg3) = A3) (hA4 : m ((c : Thread nD τ).loc main_arg4) = A4) :
    V7 m ρ c main_v16 = shapeCast S1x4096 (pad S4x1024 ![0, 0] ![0, 24] ![0, 0] (shapeCast S4x1000 (addf (shapeCast S4000 (extractStridedSlice S1x4000 ![0, 0] A3 slices_S4x4000_S1x4000_0_0) shapeCasts_S1x4000_S4000) (shapeCast S4000 (extractStridedSlice S1x4000 ![0, 0] A4 slices_S4x4000_S1x4000_0_0) shapeCasts_S1x4000_S4000)) shapeCasts_S4000_S4x1000) (sitofp (F := Ideal) .f32 (constantI S_ 32 0#32)) pads_S4x1000_S4x1024_000_0240 h_S_) shapeCasts_S4x1024_S1x4096 :=
  calc W7 m ρ c (Proc.devRef .tc main_v16)
    _ = _ := l0_bf (W6 m ρ c) _ (l0_bp (W5 m ρ c) _ _ (l0_b1 (W4 m ρ c) A3 A4 ((W4_arg3 m ρ c).trans hA3) ((W4_arg4 m ρ c).trans hA4)) (l0_c1 (W4 m ρ c)))

end Cert.HostFold
end
-- ==== Proof.HostFold1.lean ====
import proofs.«123216_j20375324852351_2_alg».proof.Proof.Gen.KernelIdeal.Frame
import Idealize.ShloMosaic.PureOps.Ideal
import proofs.«123216_j20375324852351_2_alg».proof.Proof.HostFoldArgs
import proofs.«123216_j20375324852351_2_alg».proof.Proof.HostFoldOps

set_option maxRecDepth 16384

noncomputable section

namespace Cert.HostFold

open Idealize.ShloMosaic Idealize.ShloMosaic.TcCoe Idealize.ShloMosaic.StableHlo
open Cert.KernelIdeal Cert.KernelIdeal.Gen
variable (m : (ℓ : Loc nD τ sig) → Buf (Elt Ideal) ℓ) (ρ : Dev nD → PrngReg) (c : Dev nD)

/-! # Region 1's entry: the input rows as region 0 found them, the state region 0 left, and layer 1's padded
    weights and bias as the host operations' functions composed over the launch memory's argument arrays -/

/-- Region 0 reads the input rows through an input window, whose array is never written back: the rows leave the
    region as they entered it. -/
theorem W8_v1 : W8 m ρ c (Proc.devRef .tc main_v1) = W7 m ρ c (Proc.devRef .tc main_v1) :=
  (W8_arr m ρ c 0).trans (((dat0 (V7 m ρ) c).arrAt_in 0 (by decide) _).trans (A_eq0 (V7 m ρ) c 0))

theorem V15_v1 :
    V15 m ρ c main_v1 = V7 m ρ c main_v1 :=
  calc W15 m ρ c (Proc.devRef .tc main_v1)
    _ = W14 m ρ c (Proc.devRef .tc main_v1) := by host_keep
    _ = W13 m ρ c (Proc.devRef .tc main_v1) := by host_keep
    _ = W12 m ρ c (Proc.devRef .tc main_v1) := by host_keep
    _ = W11 m ρ c (Proc.devRef .tc main_v1) := by host_keep
    _ = W10 m ρ c (Proc.devRef .tc main_v1) := by host_keep
    _ = W9 m ρ c (Proc.devRef .tc main_v1) := by host_keep
    _ = W8 m ρ c (Proc.devRef .tc main_v1) := by host_keep
    _ = W7 m ρ c (Proc.devRef .tc main_v1) := W8_v1 m ρ c

theorem V15_v17_0 :
    V15 m ρ c main_v17_0 = V8 m ρ c main_v17_0 :=
  calc W15 m ρ c (Proc.devRef .tc main_v17_0)
    _ = W14 m ρ c (Proc.devRef .tc main_v17_0) := by host_keep
    _ = W13 m ρ c (Proc.devRef .tc main_v17_0) := by host_keep
    _ = W12 m ρ c (Proc.devRef .tc main_v17_0) := by host_keep
    _ = W11 m ρ c (Proc.devRef .tc main_v17_0) := by host_keep
    _ = W10 m ρ c (Proc.devRef .tc main_v17_0) := by host_keep
    _ = W9 m ρ c (Proc.devRef .tc main_v17_0) := by host_keep
    _ = W8 m ρ c (Proc.devRef .tc main_v17_0) := by host_keep

theorem V15_v17_1 :
    V15 m ρ c main_v17_1 = V8 m ρ c main_v17_1 :=
  calc W15 m ρ c (Proc.devRef .tc main_v17_1)
    _ = W14 m ρ c (Proc.devRef .tc main_v17_1) := by host_keep
    _ = W13 m ρ c (Proc.devRef .tc main_v17_1) := by host_keep
    _ = W12 m ρ c (Proc.devRef .tc main_v17_1) := by host_keep
    _ = W11 m ρ c (Proc.devRef .tc main_v17_1) := by host_keep
    _ = W10 m ρ c (Proc.devRef .tc main_v17_1) := by host_keep
    _ = W9 m ρ c (Proc.devRef .tc main_v17_1) := by host_keep
    _ = W8 m ρ c (Proc.devRef .tc main_v17_1) := by host_keep

theorem V15_v24 (A1 : FVec Ideal S4x4000x1000 .f32) (hA1 : m ((c : Thread nD τ).loc main_arg1) = A1) :
    V15 m ρ c main_v24 = truncf .bf16 (shapeCast S1024x4096 (pad S1024x4x1024 ![0, 0, 0] ![24, 0, 24] ![0, 0, 0] (shapeCast S1000x4x1000 (transpose S1000x4000 [1, 0] (shapeCast S4000x1000 (extractStridedSlice S1x4000x1000 ![1, 0, 0] A1 slices_S4x4000x1000_S1x4000x1000_1_0_0) shapeCasts_S1x4000x1000_S4000x1000) transposes_S4000x1000_S1000x4000_1_0) shapeCasts_S1000x4000_S1000x4x1000) (sitofp (F := Ideal) .f32 (constantI S_ 32 0#32)) pads_S1000x4x1000_S1024x4x1024_0240_000_0240 h_S_) shapeCasts_S1024x4x1024_S1024x4096) bitsLt_bf16_f32 :=
  calc W15 m ρ c (Proc.devRef .tc main_v24)
    _ = W14 m ρ c (Proc.devRef .tc main_v24) := by host_keep
    _ = W13 m ρ c (Proc.devRef .tc main_v24) := by host_keep
    _ = W12 m ρ c (Proc.devRef .tc main_v24) := by host_keep
    _ = W11 m ρ c (Proc.devRef .tc main_v24) := by host_keep
    _ = _ := l1_wf (W10 m ρ c) _ (l1_wp (W9 m ρ c) _ _ (l1_w3 (W8 m ρ c) A1 ((W8_arg1 m ρ c).trans hA1)) (l1_c0 (W8 m ρ c)))

theorem V15_v39 (A2 : FVec Ideal S4x4000x1000 .f32) (hA2 : m ((c : Thread nD τ).loc main_arg2) = A2) :
    V15 m ρ c main_v39 = truncf .bf16 (shapeCast S1024x4096 (pad S1024x4x1024 ![0, 0, 0] ![24, 0, 24] ![0, 0, 0] (shapeCast S1000x4x1000 (transpose S1000x4000 [1, 0] (shapeCast S4000x1000 (extractStridedSlice S1x4000x1000 ![1, 0, 0] A2 slices_S4x4000x1000_S1x4000x1000_1_0_0) shapeCasts_S1x4000x1000_S4000x1000) transposes_S4000x1000_S1000x4000_1_0) shapeCasts_S1000x4000_S1000x4x1000) (sitofp (F := Ideal) .f32 (constantI S_ 32 0#32)) pads_S1000x4x1000_S1024x4x1024_0240_000_0240 h_S_) shapeCasts_S1024x4x1024_S1024x4096) bitsLt_bf16_f32 :=
  calc W15 m ρ c (Proc.devRef .tc main_v39)
    _ = _ := l1_hf (W14 m ρ c) _ (l1_hp (W13 m ρ c) _ _ (l1_h3 (W12 m ρ c) A2 ((W12_arg2 m ρ c).trans hA2)) (l1_c2 (W12 m ρ c)))

theorem V15_v32 (A3 A4 : FVec Ideal S4x4000 .f32) (hA3 : m ((c : Thread nD τ).loc main_arg3) = A3) (hA4 : m ((c : Thread nD τ).loc main_arg4) = A4) :
    V15 m ρ c main_v32 = shapeCast S1x4096 (pad S4x1024 ![0, 0] ![0, 24] ![0, 0] (shapeCast S4x1000 (addf (shapeCast S4000 (extractStridedSlice S1x4000 ![1, 0] A3 slices_S4x4000_S1x4000_1_0) shapeCasts_S1x4000_S4000) (shapeCast S4000 (extractStridedSlice S1x4000 ![1, 0] A4 slices_S4x4000_S1x4000_1_0) shapeCasts_S1x4000_S4000)) shapeCasts_S4000_S4x1000) (sitofp (F := Ideal) .f32 (constantI S_ 32 0#32)) pads_S4x1000_S4x1024_000_0240 h_S_) shapeCasts_S4x1024_S1x4096 :=
  calc W15 m ρ c (Proc.devRef .tc main_v32)
    _ = W14 m ρ c (Proc.devRef .tc main_v32) := by host_keep
    _ = W13 m ρ c (Proc.devRef .tc main_v32) := by host_keep
    _ = _ := l1_bf (W12 m ρ c) _ (l1_bp (W11 m ρ c) _ _ (l1_b1 (W10 m ρ c) A3 A4 ((W10_arg3 m ρ c).trans hA3) ((W10_arg4 m ρ c).trans hA4)) (l1_c1 (W10 m ρ c)))

end Cert.HostFold
end
-- ==== Proof.HostFold2.lean ====
import proofs.«123216_j20375324852351_2_alg».proof.Proof.Gen.KernelIdeal.Frame
import Idealize.ShloMosaic.PureOps.Ideal
import proofs.«123216_j20375324852351_2_alg».proof.Proof.HostFoldArgs
import proofs.«123216_j20375324852351_2_alg».proof.Proof.HostFoldOps

set_option maxRecDepth 16384

noncomputable section

namespace Cert.HostFold

open Idealize.ShloMosaic Idealize.ShloMosaic.TcCoe Idealize.ShloMosaic.StableHlo
open Cert.KernelIdeal Cert.KernelIdeal.Gen
variable (m : (ℓ : Loc nD τ sig) → Buf (Elt Ideal) ℓ) (ρ : Dev nD → PrngReg) (c : Dev nD)

/-! # Region 2's entry: the input rows as region 1 found them, the state region 1 left, and layer 2's padded
    weights and bias as the host operations' functions composed over the launch memory's argument arrays -/

/-- Region 1 reads the input rows through an input window, whose array is never written back: the rows leave the
    region as they entered it. -/
theorem W16_v1 : W16 m ρ c (Proc.devRef .tc main_v1) = W15 m ρ c (Proc.devRef .tc main_v1) :=
  (W16_arr m ρ c 0).trans (((dat1 (V15 m ρ) c).arrAt_in 0 (by decide) _).trans (A_eq1 (V15 m ρ) c 0))

theorem V23_v1 :
    V23 m ρ c main_v1 = V15 m ρ c main_v1 :=
  calc W23 m ρ c (Proc.devRef .tc main_v1)
    _ = W22 m ρ c (Proc.devRef .tc main_v1) := by host_keep
    _ = W21 m ρ c (Proc.devRef .tc main_v1) := by host_keep
    _ = W20 m ρ c (Proc.devRef .tc main_v1) := by host_keep
    _ = W19 m ρ c (Proc.devRef .tc main_v1) := by host_keep
    _ = W18 m ρ c (Proc.devRef .tc main_v1) := by host_keep
    _ = W17 m ρ c (Proc.devRef .tc main_v1) := by host_keep
    _ = W16 m ρ c (Proc.devRef .tc main_v1) := by host_keep
    _ = W15 m ρ c (Proc.devRef .tc main_v1) := W16_v1 m ρ c

theorem V23_v40_0 :
    V23 m ρ c main_v40_0 = V16 m ρ c main_v40_0 :=
  calc W23 m ρ c (Proc.devRef .tc main_v40_0)
    _ = W22 m ρ c (Proc.devRef .tc main_v40_0) := by host_keep
    _ = W21 m ρ c (Proc.devRef .tc main_v40_0) := by host_keep
    _ = W20 m ρ c (Proc.devRef .tc main_v40_0) := by host_keep
    _ = W19 m ρ c (Proc.devRef .tc main_v40_0) := by host_keep
    _ = W18 m ρ c (Proc.devRef .tc main_v40_0) := by host_keep
    _ = W17 m ρ c (Proc.devRef .tc main_v40_0) := by host_keep
    _ = W16 m ρ c (Proc.devRef .tc main_v40_0) := by host_keep

theorem V23_v40_1 :
    V23 m ρ c main_v40_1 = V16 m ρ c main_v40_1 :=
  calc W23 m ρ c (Proc.devRef .tc main_v40_1)
    _ = W22 m ρ c (Proc.devRef .tc main_v40_1) := by host_keep
    _ = W21 m ρ c (Proc.devRef .tc main_v40_1) := by host_keep
    _ = W20 m ρ c (Proc.devRef .tc main_v40_1) := by host_keep
    _ = W19 m ρ c (Proc.devRef .tc main_v40_1) := by host_keep
    _ = W18 m ρ c (Proc.devRef .tc main_v40_1) := by host_keep
    _ = W17 m ρ c (Proc.devRef .tc main_v40_1) := by host_keep
    _ = W16 m ρ c (Proc.devRef .tc main_v40_1) := by host_keep

theorem V23_v47 (A1 : FVec Ideal S4x4000x1000 .f32) (hA1 : m ((c : Thread nD τ).loc main_arg1) = A1) :
    V23 m ρ c main_v47 = truncf .bf16 (shapeCast S1024x4096 (pad S1024x4x1024 ![0, 0, 0] ![24, 0, 24] ![0, 0, 0] (shapeCast S1000x4x1000 (transpose S1000x4000 [1, 0] (shapeCast S4000x1000 (extractStridedSlice S1x4000x1000 ![2, 0, 0] A1 slices_S4x4000x1000_S1x4000x1000_2_0_0) shapeCasts_S1x4000x1000_S4000x1000) transposes_S4000x1000_S1000x4000_1_0) shapeCasts_S1000x4000_S1000x4x1000) (sitofp (F := Ideal) .f32 (constantI S_ 32 0#32)) pads_S1000x4x1000_S1024x4x1024_0240_000_0240 h_S_) shapeCasts_S1024x4x1024_S1024x4096) bitsLt_bf16_f32 :=
  calc W23 m ρ c (Proc.devRef .tc main_v47)
    _ = W22 m ρ c (Proc.devRef .tc main_v47) := by host_keep
    _ = W21 m ρ c (Proc.devRef .tc main_v47) := by host_keep
    _ = W20 m ρ c (Proc.devRef .tc main_v47) := by host_keep
    _ = W19 m ρ c (Proc.devRef .tc main_v47) := by host_keep
    _ = _ := l2_wf (W18 m ρ c) _ (l2_wp (W17 m ρ c) _ _ (l2_w3 (W16 m ρ c) A1 ((W16_arg1 m ρ c).trans hA1)) (l2_c0 (W16 m ρ c)))

theorem V23_v62 (A2 : FVec Ideal S4x4000x1000 .f32) (hA2 : m ((c : Thread nD τ).loc main_arg2) = A2) :
    V23 m ρ c main_v62 = truncf .bf16 (shapeCast S1024x4096 (pad S1024x4x1024 ![0, 0, 0] ![24, 0, 24] ![0, 0, 0] (shapeCast S1000x4x1000 (transpose S1000x4000 [1, 0] (shapeCast S4000x1000 (extractStridedSlice S1x4000x1000 ![2, 0, 0] A2 slices_S4x4000x1000_S1x4000x1000_2_0_0) shapeCasts_S1x4000x1000_S4000x1000) transposes_S4000x1000_S1000x4000_1_0) shapeCasts_S1000x4000_S1000x4x1000) (sitofp (F := Ideal) .f32 (constantI S_ 32 0#32)) pads_S1000x4x1000_S1024x4x1024_0240_000_0240 h_S_) shapeCasts_S1024x4x1024_S1024x4096) bitsLt_bf16_f32 :=
  calc W23 m ρ c (Proc.devRef .tc main_v62)
    _ = _ := l2_hf (W22 m ρ c) _ (l2_hp (W21 m ρ c) _ _ (l2_h3 (W20 m ρ c) A2 ((W20_arg2 m ρ c).trans hA2)) (l2_c2 (W20 m ρ c)))

theorem V23_v55 (A3 A4 : FVec Ideal S4x4000 .f32) (hA3 : m ((c : Thread nD τ).loc main_arg3) = A3) (hA4 : m ((c : Thread nD τ).loc main_arg4) = A4) :
    V23 m ρ c main_v55 = shapeCast S1x4096 (pad S4x1024 ![0, 0] ![0, 24] ![0, 0] (shapeCast S4x1000 (addf (shapeCast S4000 (extractStridedSlice S1x4000 ![2, 0] A3 slices_S4x4000_S1x4000_2_0) shapeCasts_S1x4000_S4000) (shapeCast S4000 (extractStridedSlice S1x4000 ![2, 0] A4 slices_S4x4000_S1x4000_2_0) shapeCasts_S1x4000_S4000)) shapeCasts_S4000_S4x1000) (sitofp (F := Ideal) .f32 (constantI S_ 32 0#32)) pads_S4x1000_S4x1024_000_0240 h_S_) shapeCasts_S4x1024_S1x4096 :=
  calc W23 m ρ c (Proc.devRef .tc main_v55)
    _ = W22 m ρ c (Proc.devRef .tc main_v55) := by host_keep
    _ = W21 m ρ c (Proc.devRef .tc main_v55) := by host_keep
    _ = _ := l2_bf (W20 m ρ c) _ (l2_bp (W19 m ρ c) _ _ (l2_b1 (W18 m ρ c) A3 A4 ((W18_arg3 m ρ c).trans hA3) ((W18_arg4 m ρ c).trans hA4)) (l2_c1 (W18 m ρ c)))

end Cert.HostFold
end
-- ==== Proof.HostFold3.lean ====
import proofs.«123216_j20375324852351_2_alg».proof.Proof.Gen.KernelIdeal.Frame
import Idealize.ShloMosaic.PureOps.Ideal
import proofs.«123216_j20375324852351_2_alg».proof.Proof.HostFoldArgs
import proofs.«123216_j20375324852351_2_alg».proof.Proof.HostFoldOps

set_option maxRecDepth 16384

noncomputable section

namespace Cert.HostFold

open Idealize.ShloMosaic Idealize.ShloMosaic.TcCoe Idealize.ShloMosaic.StableHlo
open Cert.KernelIdeal Cert.KernelIdeal.Gen
variable (m : (ℓ : Loc nD τ sig) → Buf (Elt Ideal) ℓ) (ρ : Dev nD → PrngReg) (c : Dev nD)

/-! # Region 3's entry: the input rows as region 2 found them, the state region 2 left, and layer 3's padded
    weights and bias as the host operations' functions composed over the launch memory's argument arrays -/

/-- Region 2 reads the input rows through an input window, whose array is never written back: the rows leave the
    region as they entered it. -/
theorem W24_v1 : W24 m ρ c (Proc.devRef .tc main_v1) = W23 m ρ c (Proc.devRef .tc main_v1) :=
  (W24_arr m ρ c 0).trans (((dat2 (V23 m ρ) c).arrAt_in 0 (by decide) _).trans (A_eq2 (V23 m ρ) c 0))

theorem V31_v1 :
    V31 m ρ c main_v1 = V23 m ρ c main_v1 :=
  calc W31 m ρ c (Proc.devRef .tc main_v1)
    _ = W30 m ρ c (Proc.devRef .tc main_v1) := by host_keep
    _ = W29 m ρ c (Proc.devRef .tc main_v1) := by host_keep
    _ = W28 m ρ c (Proc.devRef .tc main_v1) := by host_keep
    _ = W27 m ρ c (Proc.devRef .tc main_v1) := by host_keep
    _ = W26 m ρ c (Proc.devRef .tc main_v1) := by host_keep
    _ = W25 m ρ c (Proc.devRef .tc main_v1) := by host_keep
    _ = W24 m ρ c (Proc.devRef .tc main_v1) := by host_keep
    _ = W23 m ρ c (Proc.devRef .tc main_v1) := W24_v1 m ρ c

theorem V31_v63_0 :
    V31 m ρ c main_v63_0 = V24 m ρ c main_v63_0 :=
  calc W31 m ρ c (Proc.devRef .tc main_v63_0)
    _ = W30 m ρ c (Proc.devRef .tc main_v63_0) := by host_keep
    _ = W29 m ρ c (Proc.devRef .tc main_v63_0) := by host_keep
    _ = W28 m ρ c (Proc.devRef .tc main_v63_0) := by host_keep
    _ = W27 m ρ c (Proc.devRef .tc main_v63_0) := by host_keep
    _ = W26 m ρ c (Proc.devRef .tc main_v63_0) := by host_keep
    _ = W25 m ρ c (Proc.devRef .tc main_v63_0) := by host_keep
    _ = W24 m ρ c (Proc.devRef .tc main_v63_0) := by host_keep

theorem V31_v63_1 :
    V31 m ρ c main_v63_1 = V24 m ρ c main_v63_1 :=
  calc W31 m ρ c (Proc.devRef .tc main_v63_1)
    _ = W30 m ρ c (Proc.devRef .tc main_v63_1) := by host_keep
    _ = W29 m ρ c (Proc.devRef .tc main_v63_1) := by host_keep
    _ = W28 m ρ c (Proc.devRef .tc main_v63_1) := by host_keep
    _ = W27 m ρ c (Proc.devRef .tc main_v63_1) := by host_keep
    _ = W26 m ρ c (Proc.devRef .tc main_v63_1) := by host_keep
    _ = W25 m ρ c (Proc.devRef .tc main_v63_1) := by host_keep
    _ = W24 m ρ c (Proc.devRef .tc main_v63_1) := by host_keep

theorem V31_v70 (A1 : FVec Ideal S4x4000x1000 .f32) (hA1 : m ((c : Thread nD τ).loc main_arg1) = A1) :
    V31 m ρ c main_v70 = truncf .bf16 (shapeCast S1024x4096 (pad S1024x4x1024 ![0, 0, 0] ![24, 0, 24] ![0, 0, 0] (shapeCast S1000x4x1000 (transpose S1000x4000 [1, 0] (shapeCast S4000x1000 (extractStridedSlice S1x4000x1000 ![3, 0, 0] A1 slices_S4x4000x1000_S1x4000x1000_3_0_0) shapeCasts_S1x4000x1000_S4000x1000) transposes_S4000x1000_S1000x4000_1_0) shapeCasts_S1000x4000_S1000x4x1000) (sitofp (F := Ideal) .f32 (constantI S_ 32 0#32)) pads_S1000x4x1000_S1024x4x1024_0240_000_0240 h_S_) shapeCasts_S1024x4x1024_S1024x4096) bitsLt_bf16_f32 :=
  calc W31 m ρ c (Proc.devRef .tc main_v70)
    _ = W30 m ρ c (Proc.devRef .tc main_v70) := by host_keep
    _ = W29 m ρ c (Proc.devRef .tc main_v70) := by host_keep
    _ = W28 m ρ c (Proc.devRef .tc main_v70) := by host_keep
    _ = W27 m ρ c (Proc.devRef .tc main_v70) := by host_keep
    _ = _ := l3_wf (W26 m ρ c) _ (l3_wp (W25 m ρ c) _ _ (l3_w3 (W24 m ρ c) A1 ((W24_arg1 m ρ c).trans hA1)) (l3_c0 (W24 m ρ c)))

theorem V31_v85 (A2 : FVec Ideal S4x4000x1000 .f32) (hA2 : m ((c : Thread nD τ).loc main_arg2) = A2) :
    V31 m ρ c main_v85 = truncf .bf16 (shapeCast S1024x4096 (pad S1024x4x1024 ![0, 0, 0] ![24, 0, 24] ![0, 0, 0] (shapeCast S1000x4x1000 (transpose S1000x4000 [1, 0] (shapeCast S4000x1000 (extractStridedSlice S1x4000x1000 ![3, 0, 0] A2 slices_S4x4000x1000_S1x4000x1000_3_0_0) shapeCasts_S1x4000x1000_S4000x1000) transposes_S4000x1000_S1000x4000_1_0) shapeCasts_S1000x4000_S1000x4x1000) (sitofp (F := Ideal) .f32 (constantI S_ 32 0#32)) pads_S1000x4x1000_S1024x4x1024_0240_000_0240 h_S_) shapeCasts_S1024x4x1024_S1024x4096) bitsLt_bf16_f32 :=
  calc W31 m ρ c (Proc.devRef .tc main_v85)
    _ = _ := l3_hf (W30 m ρ c) _ (l3_hp (W29 m ρ c) _ _ (l3_h3 (W28 m ρ c) A2 ((W28_arg2 m ρ c).trans hA2)) (l3_c2 (W28 m ρ c)))

theorem V31_v78 (A3 A4 : FVec Ideal S4x4000 .f32) (hA3 : m ((c : Thread nD τ).loc main_arg3) = A3) (hA4 : m ((c : Thread nD τ).loc main_arg4) = A4) :
    V31 m ρ c main_v78 = shapeCast S1x4096 (pad S4x1024 ![0, 0] ![0, 24] ![0, 0] (shapeCast S4x1000 (addf (shapeCast S4000 (extractStridedSlice S1x4000 ![3, 0] A3 slices_S4x4000_S1x4000_3_0) shapeCasts_S1x4000_S4000) (shapeCast S4000 (extractStridedSlice S1x4000 ![3, 0] A4 slices_S4x4000_S1x4000_3_0) shapeCasts_S1x4000_S4000)) shapeCasts_S4000_S4x1000) (sitofp (F := Ideal) .f32 (constantI S_ 32 0#32)) pads_S4x1000_S4x1024_000_0240 h_S_) shapeCasts_S4x1024_S1x4096 :=
  calc W31 m ρ c (Proc.devRef .tc main_v78)
    _ = W30 m ρ c (Proc.devRef .tc main_v78) := by host_keep
    _ = W29 m ρ c (Proc.devRef .tc main_v78) := by host_keep
    _ = _ := l3_bf (W28 m ρ c) _ (l3_bp (W27 m ρ c) _ _ (l3_b1 (W26 m ρ c) A3 A4 ((W26_arg3 m ρ c).trans hA3) ((W26_arg4 m ρ c).trans hA4)) (l3_c1 (W26 m ρ c)))

end Cert.HostFold
end
-- ==== Proof.HostFold.lean ====
/-
  The host side of the run, at the ideal instance: what every buffer a region reads holds when the region is entered, and
  what the result buffer holds at the end.

  The generated frame names the buffer contents at each boundary of the run as a fold from the launch memory: a stretch of
  host operations rewrites the buffers its operations write and leaves the rest, a region rewrites its arrays and leaves
  the rest. Read at one buffer, the fold collapses: walked back through every stretch and region that does not write the
  buffer, and opened at the ones that do, it is the host operations' functions composed over the argument arrays of the
  launch memory. Layer `l`'s weights are slice `l` of a stacked argument, transposed to [1000, 4000], split into four
  gates, padded with zeros to [1024, 4, 1024], flattened to [1024, 4096] and rounded; its bias is the sum of the two bias
  slices, split into gates, padded and flattened to one row; the input rows are the argument flattened and padded. The
  state a region leaves reaches the next region unchanged, and the result is the first 1000 columns of the last hidden
  state.

  The parts: the arguments read back at each boundary, what each stretch leaves in the buffers it writes, one module per region's entry; this module
  adds the input rows at every region as the composed term, and the result.
-/
import proofs.«123216_j20375324852351_2_alg».proof.Proof.Gen.KernelIdeal.Frame
import Idealize.ShloMosaic.PureOps.Ideal
import proofs.«123216_j20375324852351_2_alg».proof.Proof.HostFold0
import proofs.«123216_j20375324852351_2_alg».proof.Proof.HostFold1
import proofs.«123216_j20375324852351_2_alg».proof.Proof.HostFold2
import proofs.«123216_j20375324852351_2_alg».proof.Proof.HostFold3

set_option maxRecDepth 16384

noncomputable section

namespace Cert.HostFold

open Idealize.ShloMosaic Idealize.ShloMosaic.TcCoe Idealize.ShloMosaic.StableHlo
open Cert.KernelIdeal Cert.KernelIdeal.Gen

variable (m : (ℓ : Loc nD τ sig) → Buf (Elt Ideal) ℓ) (ρ : Dev nD → PrngReg) (c : Dev nD)

/-! # The input rows at every region's entry, as the composed term -/

theorem V15_v1_term (A0 : FVec Ideal S2048x1x1000 .f32) (hA0 : m ((c : Thread nD τ).loc main_arg0) = A0) :
    V15 m ρ c main_v1 = pad S2048x1024 ![0, 0] ![0, 24] ![0, 0] (shapeCast S2048x1000 A0 shapeCasts_S2048x1x1000_S2048x1000) (sitofp (F := Ideal) .f32 (constantI S_ 32 0#32)) pads_S2048x1000_S2048x1024_000_0240 h_S_ :=
  (V15_v1 m ρ c).trans (V7_v1 m ρ c A0 hA0)

theorem V23_v1_term (A0 : FVec Ideal S2048x1x1000 .f32) (hA0 : m ((c : Thread nD τ).loc main_arg0) = A0) :
    V23 m ρ c main_v1 = pad S2048x1024 ![0, 0] ![0, 24] ![0, 0] (shapeCast S2048x1000 A0 shapeCasts_S2048x1x1000_S2048x1000) (sitofp (F := Ideal) .f32 (constantI S_ 32 0#32)) pads_S2048x1000_S2048x1024_000_0240 h_S_ :=
  (V23_v1 m ρ c).trans (V15_v1_term m ρ c A0 hA0)

theorem V31_v1_term (A0 : FVec Ideal S2048x1x1000 .f32) (hA0 : m ((c : Thread nD τ).loc main_arg0) = A0) :
    V31 m ρ c main_v1 = pad S2048x1024 ![0, 0] ![0, 24] ![0, 0] (shapeCast S2048x1000 A0 shapeCasts_S2048x1x1000_S2048x1000) (sitofp (F := Ideal) .f32 (constantI S_ 32 0#32)) pads_S2048x1000_S2048x1024_000_0240 h_S_ :=
  (V31_v1 m ρ c).trans (V23_v1_term m ρ c A0 hA0)

/-! # The result buffer at the end of the run: the cut of region 3's hidden-state array -/

theorem W33_v88 (o : FVec Ideal S2048x1024 .f32) (ho : V32 m ρ c main_v86_0 = o) :
    W33 m ρ c (Proc.devRef .tc main_v88) = shapeCast S2048x1x1000 (extractStridedSlice S2048x1000 ![0, 0] o slices_S2048x1024_S2048x1000_0_0) shapeCasts_S2048x1000_S2048x1x1000 :=
  s4_cut (W32 m ρ c) o ho

end Cert.HostFold
end
-- ==== Proof.CellBody.lean ====
/-
  The four kernel bodies' stored values on the extended reals, index by index.

  Each body loads a block of 128 rows of the padded input (and, after the first cell, of the previous hidden and cell
  state), the whole padded weight matrices and the bias row, multiplies the blocks by the weights into a zero
  accumulator, adds the bias row to every row, cuts the [128, 4096] pre-activations into the four gates' [128, 1024]
  column ranges (gate `q`'s unit `j` is column `q * 1024 + j`), and combines them lane by lane. Rounding to the
  narrower format is the identity on the extended reals and a reshape to the same shape moves nothing, so what a body
  stores is the padded cell of the block: the new cell state, and the new hidden state (in the last body clamped below
  at zero). The second, third and fourth bodies are the same term.
-/
import proofs.«123216_j20375324852351_2_alg».proof.Proof.Gen.KernelIdeal.Skeleton
import proofs.«123216_j20375324852351_2_alg».proof.Proof.LstmCell
import Idealize.ShloMosaic.Lib.ValueIdx
import Idealize.ShloMosaic.Lib.ValueLayout
import Idealize.ShloMosaic.PureOps.Ideal.Laws

noncomputable section

open scoped BigOperators

namespace Cert.CellBody

open Idealize.ShloMosaic Idealize.ShloMosaic.ValueIdx Cert.KernelIdeal Cert.KernelIdeal.Gen Cert.Lstm

/-! ## The block's matrix product at an index -/

/-- Row coordinate of the left operand of the block's matrix product. -/
theorem lhs_row (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide),
    dif_pos (show (0 : Fin S128x1024.rank) ∈ dot_S128x1024_S1024x4096_S128x4096_1_0_0_1_n_n.lhsNonContracting by decide)]
  rfl

/-- Column coordinate of the right operand of the block's matrix product. -/
theorem rhs_col (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide),
    dif_pos (show (1 : Fin S1024x4096.rank) ∈ dot_S128x1024_S1024x4096_S128x4096_1_0_0_1_n_n.rhsNonContracting by decide)]
  rfl

/-- The block's matrix product into the zero accumulator, at row `p` and column `r`: the sum over the 1024 inner
    coordinates of the products. -/
theorem matmul_at (a : FVec Ideal S128x1024 .bf16) (w : FVec Ideal S1024x4096 .bf16) (p : Fin 128) (r : Fin 4096) :
    matmul dot_S128x1024_S1024x4096_S128x4096_1_0_0_1_n_n none a w (constant S128x4096 .f32 0x00000000#32) (ix2 p r)
      = ∑ k : Fin 1024, a (ix2 p k) * w (ix2 k r) := by
  simp only [matmul]
  rw [Ideal.matmul_constant_zero_apply,
    ← Equiv.sum_comp (contrEquiv1 dot_S128x1024_S1024x4096_S128x4096_1_0_0_1_n_n 1024 rfl rfl).symm]
  refine Finset.sum_congr rfl fun k _ => ?_
  have hk := contrEquiv1_symm_val dot_S128x1024_S1024x4096_S128x4096_1_0_0_1_n_n 1024 rfl rfl k
  have el : dot_S128x1024_S1024x4096_S128x4096_1_0_0_1_n_n.lhsIdx (ix2 p r)
      ((contrEquiv1 dot_S128x1024_S1024x4096_S128x4096_1_0_0_1_n_n 1024 rfl rfl).symm k) = ix2 p k :=
    funext fun a => Fin.ext (by
      match a with
      | ⟨0, _⟩ => exact lhs_row _ _
      | ⟨1, _⟩ => exact (dot_S128x1024_S1024x4096_S128x4096_1_0_0_1_n_n.lhsIdx_val_of_single rfl _ _).trans hk)
  have er : dot_S128x1024_S1024x4096_S128x4096_1_0_0_1_n_n.rhsIdx (ix2 p r)
      ((contrEquiv1 dot_S128x1024_S1024x4096_S128x4096_1_0_0_1_n_n 1024 rfl rfl).symm k) = ix2 k r :=
    funext fun a => Fin.ext (by
      match a with
      | ⟨0, _⟩ => exact (dot_S128x1024_S1024x4096_S128x4096_1_0_0_1_n_n.rhsIdx_val_of_single rfl _ _).trans hk
      | ⟨1, _⟩ => exact rhs_col _ _)
  rw [el, er]

/-! ## The layout operations at an index -/

/-- The bias row under its broadcast over the block's 128 rows. -/
theorem bias_at (b : FVec Ideal S1x4096 .f32) (p : Fin 128) (r : Fin 4096) :
    broadcastTo S128x4096 b broadcasts_S1x4096_S128x4096 (ix2 p r) = b (ix2 0 r) :=
  broadcastTo_apply b broadcasts_S1x4096_S128x4096 (ix2 p r) (ix2 0 r) fun a => by
    match a with
    | ⟨0, _⟩ => rfl
    | ⟨1, _⟩ => rfl

/-- A gate's 1024 columns cut out of the 4096 at column offset `o`: unit `j` of the cut is column `o + j`. -/
theorem slice_at (o : Nat) (g : FVec Ideal S128x4096 .f32) (h : S128x4096.Slices ![0, o] S128x1024) (p : Fin 128)
    (j : Fin 1024) (r : Fin 4096) (hr : r.val = o + j.val) :
    extractStridedSlice S128x1024 ![0, o] g h (ix2 p j) = g (ix2 p r) :=
  extractStridedSlice_apply ![0, o] g h (ix2 p j) (ix2 p r) fun a => by
    match a with
    | ⟨0, _⟩ => exact (Nat.zero_add _).symm
    | ⟨1, _⟩ => exact hr

/-! ## The gate pre-activations -/

/-- The first cell's pre-activation block at row `p` and column `r`. -/
theorem gate0_at (x : Vec Ideal S128x1024 .f32) (w : Vec Ideal S1024x4096 .bf16) (b : Vec Ideal S1x4096 .f32)
    (p : Fin 128) (r : Fin 4096) :
    k0_pay1 (F := Ideal) x w b (ix2 p r) = gateP0 (mat2 x) (mat2 w) (row2 b) p r := by
  unfold k0_pay1
  rw [addf_apply, matmul_at, bias_at]
  simp only [shapeCast_self]
  rfl

/-- A later cell's pre-activation block at row `p` and column `r`. -/
theorem gate1_at (x h : Vec Ideal S128x1024 .f32) (wih whh : Vec Ideal S1024x4096 .bf16) (b : Vec Ideal S1x4096 .f32)
    (p : Fin 128) (r : Fin 4096) :
    k1_pay1 (F := Ideal) x h wih whh b (ix2 p r) = gateP (mat2 x) (mat2 h) (mat2 wih) (mat2 whh) (row2 b) p r := by
  unfold k1_pay1
  rw [addf_apply, addf_apply, matmul_at, matmul_at, bias_at]
  simp only [shapeCast_self]
  rfl

/-! ## The cells -/

/-- The lane-by-lane sigmoid and hyperbolic tangent at an index. -/
theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

/-- The first cell's new cell state, as stored. -/
theorem pay0_c (x : Vec Ideal S128x1024 .f32) (w : Vec Ideal S1024x4096 .bf16) (b : Vec Ideal S1x4096 .f32) :
    k0_pay2 (F := Ideal) x w b = fun i => cellCP0 (mat2 x) (mat2 w) (row2 b) (i 0) (i 1) := by
  funext i
  obtain ⟨p, j, rfl⟩ : ∃ (p : Fin 128) (j : Fin 1024), i = ix2 p j := ⟨i 0, i 1, eq_ix2 i⟩
  unfold k0_pay2
  rw [mulf_apply, logistic_at, tanh_at, slice_at 0 _ _ p j (gposP 0 j) rfl, slice_at 2048 _ _ p j (gposP 2 j) rfl,
    gate0_at, gate0_at]
  rfl

/-- The first cell's new hidden state, as stored. -/
theorem pay0_h (x : Vec Ideal S128x1024 .f32) (w : Vec Ideal S1024x4096 .bf16) (b : Vec Ideal S1x4096 .f32) :
    k0_pay3 (F := Ideal) x w b = fun i => cellHP0 (mat2 x) (mat2 w) (row2 b) (i 0) (i 1) := by
  funext i
  obtain ⟨p, j, rfl⟩ : ∃ (p : Fin 128) (j : Fin 1024), i = ix2 p j := ⟨i 0, i 1, eq_ix2 i⟩
  unfold k0_pay3
  rw [mulf_apply, logistic_at, tanh_at, slice_at 3072 _ _ p j (gposP 3 j) rfl, gate0_at, pay0_c]
  rfl

/-- A later cell's new cell state, as stored. -/
theorem pay1_c (x h : Vec Ideal S128x1024 .f32) (wih whh : Vec Ideal S1024x4096 .bf16) (b : Vec Ideal S1x4096 .f32)
    (c : Vec Ideal S128x1024 .f32) :
    k1_pay2 (F := Ideal) x h wih whh b c
      = fun i => cellCP (mat2 x) (mat2 h) (mat2 c) (mat2 wih) (mat2 whh) (row2 b) (i 0) (i 1) := by
  funext i
  obtain ⟨p, j, rfl⟩ : ∃ (p : Fin 128) (j : Fin 1024), i = ix2 p j := ⟨i 0, i 1, eq_ix2 i⟩
  unfold k1_pay2
  rw [addf_apply, mulf_apply, mulf_apply, logistic_at, logistic_at, tanh_at, shapeCast_self,
    slice_at 1024 _ _ p j (gposP 1 j) rfl, slice_at 0 _ _ p j (gposP 0 j) rfl, slice_at 2048 _ _ p j (gposP 2 j) rfl,
    gate1_at, gate1_at, gate1_at]
  rfl

/-- A later cell's new hidden state, as stored. -/
theorem pay1_h (x h : Vec Ideal S128x1024 .f32) (wih whh : Vec Ideal S1024x4096 .bf16) (b : Vec Ideal S1x4096 .f32)
    (c : Vec Ideal S128x1024 .f32) :
    k1_pay3 (F := Ideal) x h wih whh b c
      = fun i => cellHP (mat2 x) (mat2 h) (mat2 c) (mat2 wih) (mat2 whh) (row2 b) (i 0) (i 1) := by
  funext i
  obtain ⟨p, j, rfl⟩ : ∃ (p : Fin 128) (j : Fin 1024), i = ix2 p j := ⟨i 0, i 1, eq_ix2 i⟩
  unfold k1_pay3
  rw [mulf_apply, logistic_at, tanh_at, slice_at 3072 _ _ p j (gposP 3 j) rfl, gate1_at, pay1_c]
  rfl

/-! The third and fourth cells' payloads are the second's, term for term. -/

theorem pay2_c (x h : Vec Ideal S128x1024 .f32) (wih whh : Vec Ideal S1024x4096 .bf16) (b : Vec Ideal S1x4096 .f32)
    (c : Vec Ideal S128x1024 .f32) :
    k2_pay2 (F := Ideal) x h wih whh b c
      = fun i => cellCP (mat2 x) (mat2 h) (mat2 c) (mat2 wih) (mat2 whh) (row2 b) (i 0) (i 1) :=
  (show k2_pay2 (F := Ideal) x h wih whh b c = k1_pay2 (F := Ideal) x h wih whh b c from rfl).trans (pay1_c x h wih whh b c)

theorem pay2_h (x h : Vec Ideal S128x1024 .f32) (wih whh : Vec Ideal S1024x4096 .bf16) (b : Vec Ideal S1x4096 .f32)
    (c : Vec Ideal S128x1024 .f32) :
    k2_pay3 (F := Ideal) x h wih whh b c
      = fun i => cellHP (mat2 x) (mat2 h) (mat2 c) (mat2 wih) (mat2 whh) (row2 b) (i 0) (i 1) :=
  (show k2_pay3 (F := Ideal) x h wih whh b c = k1_pay3 (F := Ideal) x h wih whh b c from rfl).trans (pay1_h x h wih whh b c)

theorem pay3_c (x h : Vec Ideal S128x1024 .f32) (wih whh : Vec Ideal S1024x4096 .bf16) (b : Vec Ideal S1x4096 .f32)
    (c : Vec Ideal S128x1024 .f32) :
    k3_pay2 (F := Ideal) x h wih whh b c
      = fun i => cellCP (mat2 x) (mat2 h) (mat2 c) (mat2 wih) (mat2 whh) (row2 b) (i 0) (i 1) :=
  (show k3_pay2 (F := Ideal) x h wih whh b c = k1_pay2 (F := Ideal) x h wih whh b c from rfl).trans (pay1_c x h wih whh b c)

/-- The last cell stores its hidden state clamped below at zero. -/
theorem pay3_h (x h : Vec Ideal S128x1024 .f32) (wih whh : Vec Ideal S1024x4096 .bf16) (b : Vec Ideal S1x4096 .f32)
    (c : Vec Ideal S128x1024 .f32) :
    k3_pay3 (F := Ideal) x h wih whh b c
      = fun i => max (cellHP (mat2 x) (mat2 h) (mat2 c) (mat2 wih) (mat2 whh) (row2 b) (i 0) (i 1)) 0 := by
  funext i
  obtain ⟨p, j, rfl⟩ : ∃ (p : Fin 128) (j : Fin 1024), i = ix2 p j := ⟨i 0, i 1, eq_ix2 i⟩
  unfold k3_pay3
  rw [maximumf_apply, mulf_apply, logistic_at, tanh_at, slice_at 3072 _ _ p j (gposP 3 j) rfl, broadcast_apply,
    show k3_pay1 (F := Ideal) x h wih whh b = k1_pay1 (F := Ideal) x h wih whh b from rfl, gate1_at, pay3_c]
  show max _ (Ideal.ofBits .f32 0x00000000#32) = _
  rw [Ideal.ofBits_zero_f32]
  rfl

end Cert.CellBody

end
-- ==== Proof.RegionValueCommon.lean ====
/-
  From a block of rows to the whole array: the padded cell is row-local.

  Row `n` of a padded cell's result depends only on row `n` of the input, of the previous hidden state and of the
  previous cell state (the weights and the bias are shared by all rows). So the cell computed on a block of 128 rows
  that are rows `t * 128 … t * 128 + 127` of three [2048, 1024] arrays is, row by row, the cell of the arrays.
-/
import proofs.«123216_j20375324852351_2_alg».proof.Proof.CellBody

noncomputable section

open scoped BigOperators

namespace Cert.RegionValue

open Cert.KernelIdeal Idealize.ShloMosaic Idealize.ShloMosaic.ValueIdx Cert.Lstm

/-- The zero offsets of a whole-block access. -/
theorem hz : (![0, 0] : Fin 2 → Nat) = fun _ => 0 := funext fun a => by fin_cases a <;> rfl

/-! ## The padded cell is row-local -/

/-- Equal rows of the input give equal rows of the first cell's cell state, -/
theorem cellCP0_row {N M : ℕ} (x : Mat N 1024) (x' : Mat M 1024) (w : Mat 1024 4096) (b : Fin 4096 → EReal)
    (n : Fin N) (n' : Fin M) (hx : x n = x' n') (j : Fin 1024) : cellCP0 x w b n j = cellCP0 x' w b n' j := by
  simp only [cellCP0, gateP0, hx]

/-- and of its hidden state; -/
theorem cellHP0_row {N M : ℕ} (x : Mat N 1024) (x' : Mat M 1024) (w : Mat 1024 4096) (b : Fin 4096 → EReal)
    (n : Fin N) (n' : Fin M) (hx : x n = x' n') (j : Fin 1024) : cellHP0 x w b n j = cellHP0 x' w b n' j := by
  simp only [cellHP0, cellCP0, gateP0, hx]

/-- equal rows of the input and of the previous state give equal rows of a later cell's cell state, -/
theorem cellCP_row {N M : ℕ} (x h c : Mat N 1024) (x' h' c' : Mat M 1024) (wih whh : Mat 1024 4096) (b : Fin 4096 → EReal)
    (n : Fin N) (n' : Fin M) (hx : x n = x' n') (hh : h n = h' n') (hc : c n = c' n') (j : Fin 1024) :
    cellCP x h c wih whh b n j = cellCP x' h' c' wih whh b n' j := by
  simp only [cellCP, gateP, hx, hh, hc]

/-- and of its hidden state. -/
theorem cellHP_row {N M : ℕ} (x h c : Mat N 1024) (x' h' c' : Mat M 1024) (wih whh : Mat 1024 4096) (b : Fin 4096 → EReal)
    (n : Fin N) (n' : Fin M) (hx : x n = x' n') (hh : h n = h' n') (hc : c n = c' n') (j : Fin 1024) :
    cellHP x h c wih whh b n j = cellHP x' h' c' wih whh b n' j := by
  simp only [cellHP, cellCP, gateP, hx, hh, hc]

/-- The first cell of a block of rows is the first cell of the array at those rows. -/
theorem cellHP0_of_blocks (x : Vec Ideal S128x1024 .f32) (w : Vec Ideal S1024x4096 .bf16) (b : Vec Ideal S1x4096 .f32)
    (X : S2048x1024.Idx → EReal) (tv : ℕ)
    (hx : ∀ (y : S128x1024.Idx) (k : S2048x1024.Idx), (k 0).val = tv * 128 + (y 0).val → (k 1).val = (y 1).val → x y = X k)
    (p : Fin 128) (q : Fin 1024) (n : Fin 2048) (q' : Fin 1024) (hn : n.val = tv * 128 + p.val) (hq : q'.val = q.val) :
    cellHP0 (mat2 x) (mat2 w) (row2 b) p q = cellHP0 (mat2 X) (mat2 w) (row2 b) n q' := by
  obtain rfl : q' = q := Fin.ext hq
  exact cellHP0_row _ _ _ _ _ _ (funext fun k => hx (ix2 p k) (ix2 n k) hn rfl) _

/-- The same for its cell state. -/
theorem cellCP0_of_blocks (x : Vec Ideal S128x1024 .f32) (w : Vec Ideal S1024x4096 .bf16) (b : Vec Ideal S1x4096 .f32)
    (X : S2048x1024.Idx → EReal) (tv : ℕ)
    (hx : ∀ (y : S128x1024.Idx) (k : S2048x1024.Idx), (k 0).val = tv * 128 + (y 0).val → (k 1).val = (y 1).val → x y = X k)
    (p : Fin 128) (q : Fin 1024) (n : Fin 2048) (q' : Fin 1024) (hn : n.val = tv * 128 + p.val) (hq : q'.val = q.val) :
    cellCP0 (mat2 x) (mat2 w) (row2 b) p q = cellCP0 (mat2 X) (mat2 w) (row2 b) n q' := by
  obtain rfl : q' = q := Fin.ext hq
  exact cellCP0_row _ _ _ _ _ _ (funext fun k => hx (ix2 p k) (ix2 n k) hn rfl) _

/-- A later cell of three blocks of rows is that cell of the arrays at those rows. -/
theorem cellHP_of_blocks (x h cs : Vec Ideal S128x1024 .f32) (wih whh : Vec Ideal S1024x4096 .bf16) (b : Vec Ideal S1x4096 .f32)
    (X H C : S2048x1024.Idx → EReal) (tv : ℕ)
    (hx : ∀ (y : S128x1024.Idx) (k : S2048x1024.Idx), (k 0).val = tv * 128 + (y 0).val → (k 1).val = (y 1).val → x y = X k)
    (hh : ∀ (y : S128x1024.Idx) (k : S2048x1024.Idx), (k 0).val = tv * 128 + (y 0).val → (k 1).val = (y 1).val → h y = H k)
    (hc : ∀ (y : S128x1024.Idx) (k : S2048x1024.Idx), (k 0).val = tv * 128 + (y 0).val → (k 1).val = (y 1).val → cs y = C k)
    (p : Fin 128) (q : Fin 1024) (n : Fin 2048) (q' : Fin 1024) (hn : n.val = tv * 128 + p.val) (hq : q'.val = q.val) :
    cellHP (mat2 x) (mat2 h) (mat2 cs) (mat2 wih) (mat2 whh) (row2 b) p q
      = cellHP (mat2 X) (mat2 H) (mat2 C) (mat2 wih) (mat2 whh) (row2 b) n q' := by
  obtain rfl : q' = q := Fin.ext hq
  exact cellHP_row _ _ _ _ _ _ _ _ _ _ _ (funext fun k => hx (ix2 p k) (ix2 n k) hn rfl)
    (funext fun k => hh (ix2 p k) (ix2 n k) hn rfl) (funext fun k => hc (ix2 p k) (ix2 n k) hn rfl) _

/-- The same for its cell state. -/
theorem cellCP_of_blocks (x h cs : Vec Ideal S128x1024 .f32) (wih whh : Vec Ideal S1024x4096 .bf16) (b : Vec Ideal S1x4096 .f32)
    (X H C : S2048x1024.Idx → EReal) (tv : ℕ)
    (hx : ∀ (y : S128x1024.Idx) (k : S2048x1024.Idx), (k 0).val = tv * 128 + (y 0).val → (k 1).val = (y 1).val → x y = X k)
    (hh : ∀ (y : S128x1024.Idx) (k : S2048x1024.Idx), (k 0).val = tv * 128 + (y 0).val → (k 1).val = (y 1).val → h y = H k)
    (hc : ∀ (y : S128x1024.Idx) (k : S2048x1024.Idx), (k 0).val = tv * 128 + (y 0).val → (k 1).val = (y 1).val → cs y = C k)
    (p : Fin 128) (q : Fin 1024) (n : Fin 2048) (q' : Fin 1024) (hn : n.val = tv * 128 + p.val) (hq : q'.val = q.val) :
    cellCP (mat2 x) (mat2 h) (mat2 cs) (mat2 wih) (mat2 whh) (row2 b) p q
      = cellCP (mat2 X) (mat2 H) (mat2 C) (mat2 wih) (mat2 whh) (row2 b) n q' := by
  obtain rfl : q' = q := Fin.ext hq
  exact cellCP_row _ _ _ _ _ _ _ _ _ _ _ (funext fun k => hx (ix2 p k) (ix2 n k) hn rfl)
    (funext fun k => hh (ix2 p k) (ix2 n k) hn rfl) (funext fun k => hc (ix2 p k) (ix2 n k) hn rfl) _

end Cert.RegionValue

end
-- ==== Proof.RegionValue0.lean ====
/-
  Region 0's two output arrays as functions of the arrays the region finds, index by index.

  The grid has 16 points; point `t` loads rows `t * 128 … t * 128 + 127` of the padded input and the whole weight
  matrix and bias row, and writes the same rows of the hidden-state and cell-state arrays. What it writes is the first
  padded cell of its block, which is the cell of the whole arrays at those rows; the 16 blocks cover the 2048 rows.
-/
import proofs.«123216_j20375324852351_2_alg».proof.Proof.Gen.KernelIdeal.Frame
import proofs.«123216_j20375324852351_2_alg».proof.Proof.RegionValueCommon
import Idealize.ShloMosaic.Lib.Pipeline.Value
import Idealize.ShloMosaic.Lib.ValueIdx

noncomputable section

open scoped BigOperators

namespace Cert.RegionValue

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (V : (c : Dev nD) → (b : Ref sig .tc) → Buf (Elt Ideal) ((c : Thread nD τ).loc b))
/-! ## Region 0: the first cell, from the zero state -/

/-- The windows' block indices at each of the 16 points: the input rows and the two outputs move with the point along
    the rows, the weights and the bias stay at block (0, 0). -/
theorem idx0 : ∀ t : Fin cfg0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = t.val ∧ win0_3.index t 1 = 0 ∧ win0_4.index t 0 = t.val ∧ win0_4.index t 1 = 0 :=
  (by decide +kernel : ∀ t : Fin grid0.N, _)

/-- The input block at point `t`: row `p` of the block is row `t * 128 + p` of the padded input. -/
theorem x_blk0 (c : Dev nD) (t : Fin cfg0.N) (y : S128x1024.Idx) (k : S2048x1024.Idx)
    (hk0 : (k 0).val = t.val * 128 + (y 0).val) (hk1 : (k 1).val = (y 1).val) :
    (iblk0 V c 0 t : Vec Ideal S128x1024 .f32) y = (V c main_v1 : S2048x1024.Idx → EReal) k := by
  obtain ⟨e0, e1, -⟩ := idx0 t
  unfold iblk0
  rw [View.read_apply]
  show V c main_v1 _ = V c main_v1 _
  congr 1
  funext a
  apply Fin.ext
  match a with
  | ⟨0, _⟩ => show win0_0.index t 0 * 128 + 1 * (y 0).val = (k 0).val; rw [e0, hk0]; omega
  | ⟨1, _⟩ => show win0_0.index t 1 * 1024 + 1 * (y 1).val = (k 1).val; rw [e1, hk1]; omega

/-- The weight block at every point is the whole weight matrix. -/
theorem w_blk0 (c : Dev nD) (t : Fin cfg0.N) :
    (iblk0 V c 1 t : Vec Ideal S1024x4096 .bf16) = (V c main_v8 : S1024x4096.Idx → EReal) := by
  obtain ⟨-, -, e0, e1, -⟩ := idx0 t
  funext y
  unfold iblk0
  rw [View.read_apply]
  show V c main_v8 _ = V c main_v8 _
  congr 1
  funext a
  apply Fin.ext
  match a with
  | ⟨0, _⟩ => show win0_1.index t 0 * 1024 + 1 * (y 0).val = (y 0).val; rw [e0]; omega
  | ⟨1, _⟩ => show win0_1.index t 1 * 4096 + 1 * (y 1).val = (y 1).val; rw [e1]; omega

/-- The bias block at every point is the whole bias row. -/
theorem b_blk0 (c : Dev nD) (t : Fin cfg0.N) :
    (iblk0 V c 2 t : Vec Ideal S1x4096 .f32) = (V c main_v16 : S1x4096.Idx → EReal) := by
  obtain ⟨-, -, -, -, e0, e1, -⟩ := idx0 t
  funext y
  unfold iblk0
  rw [View.read_apply]
  show V c main_v16 _ = V c main_v16 _
  congr 1
  funext a
  apply Fin.ext
  match a with
  | ⟨0, _⟩ => show win0_2.index t 0 * 1 + 1 * (y 0).val = (y 0).val; rw [e0]; omega
  | ⟨1, _⟩ => show win0_2.index t 1 * 4096 + 1 * (y 1).val = (y 1).val; rw [e1]; omega

/-- What point `t` writes back to the hidden-state array is block `t` of the first cell of the whole arrays. -/
theorem flushed0_3_eq (c : Dev nD) (t : Fin cfg0.N) :
    (dat0 V c).flushed 3 t = ((cfg0.win 3).blk t).view.read (Elt Ideal)
      (fun i => cellHP0 (mat2 (V c main_v1)) (mat2 (V c main_v8)) (row2 (V c main_v16)) (i 0) (i 1)) := by
  show (cfg0.win 3).cut (grid0.coords t) ((dat0 V c).after 3 t) = _
  rw [after0_3]
  unfold out0_3
  rw [View.canon_unit_zero hz]
  simp only [View.ld_unit_zero (S := S128x1024) hz, View.ld_unit_zero (S := S1024x4096) hz, View.ld_unit_zero (S := S1x4096) hz]
  rw [CellBody.pay0_h, w_blk0, b_blk0]
  obtain ⟨-, -, -, -, -, -, e0, e1, -⟩ := idx0 t
  funext j
  rw [View.read_apply]
  refine cellHP0_of_blocks _ _ _ _ t.val (fun y k h0 h1 => x_blk0 V c t y k h0 h1) _ _ _ _ ?_ ?_
  · show win0_3.index t 0 * 128 + 1 * (j 0).val = t.val * 128 + (j 0).val; rw [e0]; omega
  · show win0_3.index t 1 * 1024 + 1 * (j 1).val = (j 1).val; rw [e1]; omega

/-- And to the cell-state array. -/
theorem flushed0_4_eq (c : Dev nD) (t : Fin cfg0.N) :
    (dat0 V c).flushed 4 t = ((cfg0.win 4).blk t).view.read (Elt Ideal)
      (fun i => cellCP0 (mat2 (V c main_v1)) (mat2 (V c main_v8)) (row2 (V c main_v16)) (i 0) (i 1)) := by
  show (cfg0.win 4).cut (grid0.coords t) ((dat0 V c).after 4 t) = _
  rw [after0_4]
  unfold out0_4
  rw [View.canon_unit_zero hz]
  simp only [View.ld_unit_zero (S := S128x1024) hz, View.ld_unit_zero (S := S1024x4096) hz, View.ld_unit_zero (S := S1x4096) hz]
  rw [CellBody.pay0_c, w_blk0, b_blk0]
  obtain ⟨-, -, -, -, -, -, -, -, e0, e1⟩ := idx0 t
  funext j
  rw [View.read_apply]
  refine cellCP0_of_blocks _ _ _ _ t.val (fun y k h0 h1 => x_blk0 V c t y k h0 h1) _ _ _ _ ?_ ?_
  · show win0_4.index t 0 * 128 + 1 * (j 0).val = t.val * 128 + (j 0).val; rw [e0]; omega
  · show win0_4.index t 1 * 1024 + 1 * (j 1).val = (j 1).val; rw [e1]; omega

/-- Row `r` of the hidden-state array is in the block of point `r / 128`. -/
theorem covered0_3 (i : S2048x1024.Idx) :
    ∃ t : Fin cfg0.N, (cfg0.win 3).flush t = true ∧ i ∈ ((cfg0.win 3).blk t).view.set := by
  have hi0 : (i 0).val < 2048 := (i 0).isLt
  have hi1 : (i 1).val < 1024 := (i 1).isLt
  have ht : (i 0).val / 128 < cfg0.N := by show (i 0).val / 128 < 16; omega
  obtain ⟨-, -, -, -, -, -, e0, e1, -⟩ := idx0 ⟨(i 0).val / 128, ht⟩
  refine ⟨⟨(i 0).val / 128, ht⟩, flush0_3 _, ?_⟩
  show i ∈ ((View.whole main_v17_0).slice (win0_3.rect ⟨(i 0).val / 128, ht⟩)).set
  rw [View.set_slice_whole, Rect.mem_set_unit]
  intro a
  match a with
  | ⟨0, _⟩ =>
    show win0_3.index ⟨(i 0).val / 128, ht⟩ 0 * 128 ≤ (i 0).val ∧ (i 0).val < win0_3.index ⟨(i 0).val / 128, ht⟩ 0 * 128 + 128
    rw [e0]; show (i 0).val / 128 * 128 ≤ (i 0).val ∧ (i 0).val < (i 0).val / 128 * 128 + 128; omega
  | ⟨1, _⟩ =>
    show win0_3.index ⟨(i 0).val / 128, ht⟩ 1 * 1024 ≤ (i 1).val ∧ (i 1).val < win0_3.index ⟨(i 0).val / 128, ht⟩ 1 * 1024 + 1024
    rw [e1]; omega

theorem covered0_4 (i : S2048x1024.Idx) :
    ∃ t : Fin cfg0.N, (cfg0.win 4).flush t = true ∧ i ∈ ((cfg0.win 4).blk t).view.set := by
  have hi0 : (i 0).val < 2048 := (i 0).isLt
  have hi1 : (i 1).val < 1024 := (i 1).isLt
  have ht : (i 0).val / 128 < cfg0.N := by show (i 0).val / 128 < 16; omega
  obtain ⟨-, -, -, -, -, -, -, -, e0, e1⟩ := idx0 ⟨(i 0).val / 128, ht⟩
  refine ⟨⟨(i 0).val / 128, ht⟩, flush0_4 _, ?_⟩
  show i ∈ ((View.whole main_v17_1).slice (win0_4.rect ⟨(i 0).val / 128, ht⟩)).set
  rw [View.set_slice_whole, Rect.mem_set_unit]
  intro a
  match a with
  | ⟨0, _⟩ =>
    show win0_4.index ⟨(i 0).val / 128, ht⟩ 0 * 128 ≤ (i 0).val ∧ (i 0).val < win0_4.index ⟨(i 0).val / 128, ht⟩ 0 * 128 + 128
    rw [e0]; show (i 0).val / 128 * 128 ≤ (i 0).val ∧ (i 0).val < (i 0).val / 128 * 128 + 128; omega
  | ⟨1, _⟩ =>
    show win0_4.index ⟨(i 0).val / 128, ht⟩ 1 * 1024 ≤ (i 1).val ∧ (i 1).val < win0_4.index ⟨(i 0).val / 128, ht⟩ 1 * 1024 + 1024
    rw [e1]; omega

/-- After the first region the hidden-state array is the first padded cell of the padded input, row by row. -/
theorem region0_h (c : Dev nD) : (dat0 (F := Ideal) V c).arrAt 3 cfg0.N
    = fun i => cellHP0 (mat2 (V c main_v1)) (mat2 (V c main_v8)) (row2 (V c main_v16)) (i 0) (i 1) :=
  (dat0 V c).arrAt_eq_of_cover 3 _ (fun t _ => flushed0_3_eq V c t) covered0_3

/-- And the cell-state array the first padded cell's cell state. -/
theorem region0_c (c : Dev nD) : (dat0 (F := Ideal) V c).arrAt 4 cfg0.N
    = fun i => cellCP0 (mat2 (V c main_v1)) (mat2 (V c main_v8)) (row2 (V c main_v16)) (i 0) (i 1) :=
  (dat0 V c).arrAt_eq_of_cover 4 _ (fun t _ => flushed0_4_eq V c t) covered0_4

end Cert.RegionValue

end
-- ==== Proof.RegionValue1.lean ====
/-
  Region 1's two output arrays as functions of the arrays the region finds, index by index.

  The grid has 16 points; point `t` loads rows `t * 128 … t * 128 + 127` of the padded input, of the previous hidden
  state and of the previous cell state, and the whole weight matrices and bias row, and writes the same rows of the new
  hidden-state and cell-state arrays. What it writes is the padded cell of its blocks, which is the cell of the whole
  arrays at those rows; the 16 blocks cover the 2048 rows.
-/
import proofs.«123216_j20375324852351_2_alg».proof.Proof.Gen.KernelIdeal.Frame
import proofs.«123216_j20375324852351_2_alg».proof.Proof.RegionValueCommon
import Idealize.ShloMosaic.Lib.Pipeline.Value
import Idealize.ShloMosaic.Lib.ValueIdx

noncomputable section

open scoped BigOperators

namespace Cert.RegionValue

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (V : (c : Dev nD) → (b : Ref sig .tc) → Buf (Elt Ideal) ((c : Thread nD τ).loc b))

/-! ## Region 1: the second cell -/

/-- The windows' block indices at each of the 16 points: the three row windows and the two outputs move with the
    point along the rows, the weights and the bias stay at block (0, 0). -/
theorem idx1 : ∀ t : Fin cfg1.N,
    (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = 0 ∧ win1_3.index t 1 = 0)
    ∧ (win1_4.index t 0 = 0 ∧ win1_4.index t 1 = 0) ∧ (win1_5.index t 0 = 0 ∧ win1_5.index t 1 = 0)
    ∧ (win1_6.index t 0 = t.val ∧ win1_6.index t 1 = 0) ∧ (win1_7.index t 0 = t.val ∧ win1_7.index t 1 = 0) :=
  (by decide +kernel : ∀ t : Fin grid1.N, _)

/-- The input block at point `t`: row `p` of the block is row `t * 128 + p` of the padded input. -/
theorem x_blk1 (c : Dev nD) (t : Fin cfg1.N) (y : S128x1024.Idx) (k : S2048x1024.Idx)
    (hk0 : (k 0).val = t.val * 128 + (y 0).val) (hk1 : (k 1).val = (y 1).val) :
    (iblk1 V c 0 t : Vec Ideal S128x1024 .f32) y = (V c main_v1 : S2048x1024.Idx → EReal) k := by
  obtain ⟨⟨e0, e1⟩, -⟩ := idx1 t
  unfold iblk1
  rw [View.read_apply]
  show V c main_v1 _ = V c main_v1 _
  congr 1
  funext a
  apply Fin.ext
  match a with
  | ⟨0, _⟩ => show win1_0.index t 0 * 128 + 1 * (y 0).val = (k 0).val; rw [e0, hk0]; omega
  | ⟨1, _⟩ => show win1_0.index t 1 * 1024 + 1 * (y 1).val = (k 1).val; rw [e1, hk1]; omega

/-- The previous hidden state's block at point `t`, likewise. -/
theorem h_blk1 (c : Dev nD) (t : Fin cfg1.N) (y : S128x1024.Idx) (k : S2048x1024.Idx)
    (hk0 : (k 0).val = t.val * 128 + (y 0).val) (hk1 : (k 1).val = (y 1).val) :
    (iblk1 V c 1 t : Vec Ideal S128x1024 .f32) y = (V c main_v17_0 : S2048x1024.Idx → EReal) k := by
  obtain ⟨-, ⟨e0, e1⟩, -⟩ := idx1 t
  unfold iblk1
  rw [View.read_apply]
  show V c main_v17_0 _ = V c main_v17_0 _
  congr 1
  funext a
  apply Fin.ext
  match a with
  | ⟨0, _⟩ => show win1_1.index t 0 * 128 + 1 * (y 0).val = (k 0).val; rw [e0, hk0]; omega
  | ⟨1, _⟩ => show win1_1.index t 1 * 1024 + 1 * (y 1).val = (k 1).val; rw [e1, hk1]; omega

/-- The previous cell state's block at point `t`, likewise. -/
theorem c_blk1 (c : Dev nD) (t : Fin cfg1.N) (y : S128x1024.Idx) (k : S2048x1024.Idx)
    (hk0 : (k 0).val = t.val * 128 + (y 0).val) (hk1 : (k 1).val = (y 1).val) :
    (iblk1 V c 2 t : Vec Ideal S128x1024 .f32) y = (V c main_v17_1 : S2048x1024.Idx → EReal) k := by
  obtain ⟨-, -, ⟨e0, e1⟩, -⟩ := idx1 t
  unfold iblk1
  rw [View.read_apply]
  show V c main_v17_1 _ = V c main_v17_1 _
  congr 1
  funext a
  apply Fin.ext
  match a with
  | ⟨0, _⟩ => show win1_2.index t 0 * 128 + 1 * (y 0).val = (k 0).val; rw [e0, hk0]; omega
  | ⟨1, _⟩ => show win1_2.index t 1 * 1024 + 1 * (y 1).val = (k 1).val; rw [e1, hk1]; omega

/-- The input weights' block at every point is the whole matrix. -/
theorem wih_blk1 (c : Dev nD) (t : Fin cfg1.N) :
    (iblk1 V c 3 t : Vec Ideal S1024x4096 .bf16) = (V c main_v24 : S1024x4096.Idx → EReal) := by
  obtain ⟨-, -, -, ⟨e0, e1⟩, -⟩ := idx1 t
  funext y
  unfold iblk1
  rw [View.read_apply]
  show V c main_v24 _ = V c main_v24 _
  congr 1
  funext a
  apply Fin.ext
  match a with
  | ⟨0, _⟩ => show win1_3.index t 0 * 1024 + 1 * (y 0).val = (y 0).val; rw [e0]; omega
  | ⟨1, _⟩ => show win1_3.index t 1 * 4096 + 1 * (y 1).val = (y 1).val; rw [e1]; omega

/-- The recurrent weights' block at every point is the whole matrix. -/
theorem whh_blk1 (c : Dev nD) (t : Fin cfg1.N) :
    (iblk1 V c 4 t : Vec Ideal S1024x4096 .bf16) = (V c main_v39 : S1024x4096.Idx → EReal) := by
  obtain ⟨-, -, -, -, ⟨e0, e1⟩, -⟩ := idx1 t
  funext y
  unfold iblk1
  rw [View.read_apply]
  show V c main_v39 _ = V c main_v39 _
  congr 1
  funext a
  apply Fin.ext
  match a with
  | ⟨0, _⟩ => show win1_4.index t 0 * 1024 + 1 * (y 0).val = (y 0).val; rw [e0]; omega
  | ⟨1, _⟩ => show win1_4.index t 1 * 4096 + 1 * (y 1).val = (y 1).val; rw [e1]; omega

/-- The bias block at every point is the whole bias row. -/
theorem b_blk1 (c : Dev nD) (t : Fin cfg1.N) :
    (iblk1 V c 5 t : Vec Ideal S1x4096 .f32) = (V c main_v32 : S1x4096.Idx → EReal) := by
  obtain ⟨-, -, -, -, -, ⟨e0, e1⟩, -⟩ := idx1 t
  funext y
  unfold iblk1
  rw [View.read_apply]
  show V c main_v32 _ = V c main_v32 _
  congr 1
  funext a
  apply Fin.ext
  match a with
  | ⟨0, _⟩ => show win1_5.index t 0 * 1 + 1 * (y 0).val = (y 0).val; rw [e0]; omega
  | ⟨1, _⟩ => show win1_5.index t 1 * 4096 + 1 * (y 1).val = (y 1).val; rw [e1]; omega

/-- What point `t` writes back to the hidden-state array is block `t` of the cell of the whole arrays. -/
theorem flushed1_6_eq (c : Dev nD) (t : Fin cfg1.N) :
    (dat1 V c).flushed 6 t = ((cfg1.win 6).blk t).view.read (Elt Ideal)
      (fun i => cellHP (mat2 (V c main_v1)) (mat2 (V c main_v17_0)) (mat2 (V c main_v17_1)) (mat2 (V c main_v24))
        (mat2 (V c main_v39)) (row2 (V c main_v32)) (i 0) (i 1)) := by
  show (cfg1.win 6).cut (grid1.coords t) ((dat1 V c).after 6 t) = _
  rw [after1_6]
  unfold out1_6
  rw [View.canon_unit_zero hz]
  simp only [View.ld_unit_zero (S := S128x1024) hz, View.ld_unit_zero (S := S1024x4096) hz, View.ld_unit_zero (S := S1x4096) hz]
  rw [CellBody.pay1_h, wih_blk1, whh_blk1, b_blk1]
  obtain ⟨-, -, -, -, -, -, ⟨e0, e1⟩, -⟩ := idx1 t
  funext j
  rw [View.read_apply]
  refine cellHP_of_blocks _ _ _ _ _ _ _ _ _ t.val (fun y k h0 h1 => x_blk1 V c t y k h0 h1)
    (fun y k h0 h1 => h_blk1 V c t y k h0 h1) (fun y k h0 h1 => c_blk1 V c t y k h0 h1) _ _ _ _ ?_ ?_
  · show win1_6.index t 0 * 128 + 1 * (j 0).val = t.val * 128 + (j 0).val; rw [e0]; omega
  · show win1_6.index t 1 * 1024 + 1 * (j 1).val = (j 1).val; rw [e1]; omega

/-- And to the cell-state array. -/
theorem flushed1_7_eq (c : Dev nD) (t : Fin cfg1.N) :
    (dat1 V c).flushed 7 t = ((cfg1.win 7).blk t).view.read (Elt Ideal)
      (fun i => cellCP (mat2 (V c main_v1)) (mat2 (V c main_v17_0)) (mat2 (V c main_v17_1)) (mat2 (V c main_v24))
        (mat2 (V c main_v39)) (row2 (V c main_v32)) (i 0) (i 1)) := by
  show (cfg1.win 7).cut (grid1.coords t) ((dat1 V c).after 7 t) = _
  rw [after1_7]
  unfold out1_7
  rw [View.canon_unit_zero hz]
  simp only [View.ld_unit_zero (S := S128x1024) hz, View.ld_unit_zero (S := S1024x4096) hz, View.ld_unit_zero (S := S1x4096) hz]
  rw [CellBody.pay1_c, wih_blk1, whh_blk1, b_blk1]
  obtain ⟨-, -, -, -, -, -, -, ⟨e0, e1⟩⟩ := idx1 t
  funext j
  rw [View.read_apply]
  refine cellCP_of_blocks _ _ _ _ _ _ _ _ _ t.val (fun y k h0 h1 => x_blk1 V c t y k h0 h1)
    (fun y k h0 h1 => h_blk1 V c t y k h0 h1) (fun y k h0 h1 => c_blk1 V c t y k h0 h1) _ _ _ _ ?_ ?_
  · show win1_7.index t 0 * 128 + 1 * (j 0).val = t.val * 128 + (j 0).val; rw [e0]; omega
  · show win1_7.index t 1 * 1024 + 1 * (j 1).val = (j 1).val; rw [e1]; omega

/-- Row `r` of the hidden-state array is in the block of point `r / 128`. -/
theorem covered1_6 (i : S2048x1024.Idx) :
    ∃ t : Fin cfg1.N, (cfg1.win 6).flush t = true ∧ i ∈ ((cfg1.win 6).blk t).view.set := by
  have hi0 : (i 0).val < 2048 := (i 0).isLt
  have hi1 : (i 1).val < 1024 := (i 1).isLt
  have ht : (i 0).val / 128 < cfg1.N := by show (i 0).val / 128 < 16; omega
  obtain ⟨-, -, -, -, -, -, ⟨e0, e1⟩, -⟩ := idx1 ⟨(i 0).val / 128, ht⟩
  refine ⟨⟨(i 0).val / 128, ht⟩, flush1_6 _, ?_⟩
  show i ∈ ((View.whole main_v40_0).slice (win1_6.rect ⟨(i 0).val / 128, ht⟩)).set
  rw [View.set_slice_whole, Rect.mem_set_unit]
  intro a
  match a with
  | ⟨0, _⟩ =>
    show win1_6.index ⟨(i 0).val / 128, ht⟩ 0 * 128 ≤ (i 0).val ∧ (i 0).val < win1_6.index ⟨(i 0).val / 128, ht⟩ 0 * 128 + 128
    rw [e0]; show (i 0).val / 128 * 128 ≤ (i 0).val ∧ (i 0).val < (i 0).val / 128 * 128 + 128; omega
  | ⟨1, _⟩ =>
    show win1_6.index ⟨(i 0).val / 128, ht⟩ 1 * 1024 ≤ (i 1).val ∧ (i 1).val < win1_6.index ⟨(i 0).val / 128, ht⟩ 1 * 1024 + 1024
    rw [e1]; omega

theorem covered1_7 (i : S2048x1024.Idx) :
    ∃ t : Fin cfg1.N, (cfg1.win 7).flush t = true ∧ i ∈ ((cfg1.win 7).blk t).view.set := by
  have hi0 : (i 0).val < 2048 := (i 0).isLt
  have hi1 : (i 1).val < 1024 := (i 1).isLt
  have ht : (i 0).val / 128 < cfg1.N := by show (i 0).val / 128 < 16; omega
  obtain ⟨-, -, -, -, -, -, -, ⟨e0, e1⟩⟩ := idx1 ⟨(i 0).val / 128, ht⟩
  refine ⟨⟨(i 0).val / 128, ht⟩, flush1_7 _, ?_⟩
  show i ∈ ((View.whole main_v40_1).slice (win1_7.rect ⟨(i 0).val / 128, ht⟩)).set
  rw [View.set_slice_whole, Rect.mem_set_unit]
  intro a
  match a with
  | ⟨0, _⟩ =>
    show win1_7.index ⟨(i 0).val / 128, ht⟩ 0 * 128 ≤ (i 0).val ∧ (i 0).val < win1_7.index ⟨(i 0).val / 128, ht⟩ 0 * 128 + 128
    rw [e0]; show (i 0).val / 128 * 128 ≤ (i 0).val ∧ (i 0).val < (i 0).val / 128 * 128 + 128; omega
  | ⟨1, _⟩ =>
    show win1_7.index ⟨(i 0).val / 128, ht⟩ 1 * 1024 ≤ (i 1).val ∧ (i 1).val < win1_7.index ⟨(i 0).val / 128, ht⟩ 1 * 1024 + 1024
    rw [e1]; omega

/-- After the second region the hidden-state array is the padded cell of the arrays the region found, row by row. -/
theorem region1_h (c : Dev nD) : (dat1 (F := Ideal) V c).arrAt 6 cfg1.N
    = fun i => cellHP (mat2 (V c main_v1)) (mat2 (V c main_v17_0)) (mat2 (V c main_v17_1)) (mat2 (V c main_v24))
        (mat2 (V c main_v39)) (row2 (V c main_v32)) (i 0) (i 1) :=
  (dat1 V c).arrAt_eq_of_cover 6 _ (fun t _ => flushed1_6_eq V c t) covered1_6

/-- And the cell-state array that cell's cell state. -/
theorem region1_c (c : Dev nD) : (dat1 (F := Ideal) V c).arrAt 7 cfg1.N
    = fun i => cellCP (mat2 (V c main_v1)) (mat2 (V c main_v17_0)) (mat2 (V c main_v17_1)) (mat2 (V c main_v24))
        (mat2 (V c main_v39)) (row2 (V c main_v32)) (i 0) (i 1) :=
  (dat1 V c).arrAt_eq_of_cover 7 _ (fun t _ => flushed1_7_eq V c t) covered1_7

end Cert.RegionValue

end
-- ==== Proof.RegionValue2.lean ====
/-
  Region 2's two output arrays as functions of the arrays the region finds, index by index: the third cell, block by
  block of 128 rows over a grid of 16 points, exactly as the second.
-/
import proofs.«123216_j20375324852351_2_alg».proof.Proof.Gen.KernelIdeal.Frame
import proofs.«123216_j20375324852351_2_alg».proof.Proof.RegionValueCommon
import Idealize.ShloMosaic.Lib.Pipeline.Value
import Idealize.ShloMosaic.Lib.ValueIdx

noncomputable section

open scoped BigOperators

namespace Cert.RegionValue

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (V : (c : Dev nD) → (b : Ref sig .tc) → Buf (Elt Ideal) ((c : Thread nD τ).loc b))

/-! ## Region 2: the third cell -/

/-- The windows' block indices at each of the 16 points: the three row windows and the two outputs move with the
    point along the rows, the weights and the bias stay at block (0, 0). -/
theorem idx2 : ∀ t : Fin cfg2.N,
    (win2_0.index t 0 = t.val ∧ win2_0.index t 1 = 0) ∧ (win2_1.index t 0 = t.val ∧ win2_1.index t 1 = 0)
    ∧ (win2_2.index t 0 = t.val ∧ win2_2.index t 1 = 0) ∧ (win2_3.index t 0 = 0 ∧ win2_3.index t 1 = 0)
    ∧ (win2_4.index t 0 = 0 ∧ win2_4.index t 1 = 0) ∧ (win2_5.index t 0 = 0 ∧ win2_5.index t 1 = 0)
    ∧ (win2_6.index t 0 = t.val ∧ win2_6.index t 1 = 0) ∧ (win2_7.index t 0 = t.val ∧ win2_7.index t 1 = 0) :=
  (by decide +kernel : ∀ t : Fin grid2.N, _)

/-- The input block at point `t`: row `p` of the block is row `t * 128 + p` of the padded input. -/
theorem x_blk2 (c : Dev nD) (t : Fin cfg2.N) (y : S128x1024.Idx) (k : S2048x1024.Idx)
    (hk0 : (k 0).val = t.val * 128 + (y 0).val) (hk1 : (k 1).val = (y 1).val) :
    (iblk2 V c 0 t : Vec Ideal S128x1024 .f32) y = (V c main_v1 : S2048x1024.Idx → EReal) k := by
  obtain ⟨⟨e0, e1⟩, -⟩ := idx2 t
  unfold iblk2
  rw [View.read_apply]
  show V c main_v1 _ = V c main_v1 _
  congr 1
  funext a
  apply Fin.ext
  match a with
  | ⟨0, _⟩ => show win2_0.index t 0 * 128 + 1 * (y 0).val = (k 0).val; rw [e0, hk0]; omega
  | ⟨1, _⟩ => show win2_0.index t 1 * 1024 + 1 * (y 1).val = (k 1).val; rw [e1, hk1]; omega

/-- The previous hidden state's block at point `t`, likewise. -/
theorem h_blk2 (c : Dev nD) (t : Fin cfg2.N) (y : S128x1024.Idx) (k : S2048x1024.Idx)
    (hk0 : (k 0).val = t.val * 128 + (y 0).val) (hk1 : (k 1).val = (y 1).val) :
    (iblk2 V c 1 t : Vec Ideal S128x1024 .f32) y = (V c main_v40_0 : S2048x1024.Idx → EReal) k := by
  obtain ⟨-, ⟨e0, e1⟩, -⟩ := idx2 t
  unfold iblk2
  rw [View.read_apply]
  show V c main_v40_0 _ = V c main_v40_0 _
  congr 1
  funext a
  apply Fin.ext
  match a with
  | ⟨0, _⟩ => show win2_1.index t 0 * 128 + 1 * (y 0).val = (k 0).val; rw [e0, hk0]; omega
  | ⟨1, _⟩ => show win2_1.index t 1 * 1024 + 1 * (y 1).val = (k 1).val; rw [e1, hk1]; omega

/-- The previous cell state's block at point `t`, likewise. -/
theorem c_blk2 (c : Dev nD) (t : Fin cfg2.N) (y : S128x1024.Idx) (k : S2048x1024.Idx)
    (hk0 : (k 0).val = t.val * 128 + (y 0).val) (hk1 : (k 1).val = (y 1).val) :
    (iblk2 V c 2 t : Vec Ideal S128x1024 .f32) y = (V c main_v40_1 : S2048x1024.Idx → EReal) k := by
  obtain ⟨-, -, ⟨e0, e1⟩, -⟩ := idx2 t
  unfold iblk2
  rw [View.read_apply]
  show V c main_v40_1 _ = V c main_v40_1 _
  congr 1
  funext a
  apply Fin.ext
  match a with
  | ⟨0, _⟩ => show win2_2.index t 0 * 128 + 1 * (y 0).val = (k 0).val; rw [e0, hk0]; omega
  | ⟨1, _⟩ => show win2_2.index t 1 * 1024 + 1 * (y 1).val = (k 1).val; rw [e1, hk1]; omega

/-- The input weights' block at every point is the whole matrix. -/
theorem wih_blk2 (c : Dev nD) (t : Fin cfg2.N) :
    (iblk2 V c 3 t : Vec Ideal S1024x4096 .bf16) = (V c main_v47 : S1024x4096.Idx → EReal) := by
  obtain ⟨-, -, -, ⟨e0, e1⟩, -⟩ := idx2 t
  funext y
  unfold iblk2
  rw [View.read_apply]
  show V c main_v47 _ = V c main_v47 _
  congr 1
  funext a
  apply Fin.ext
  match a with
  | ⟨0, _⟩ => show win2_3.index t 0 * 1024 + 1 * (y 0).val = (y 0).val; rw [e0]; omega
  | ⟨1, _⟩ => show win2_3.index t 1 * 4096 + 1 * (y 1).val = (y 1).val; rw [e1]; omega

/-- The recurrent weights' block at every point is the whole matrix. -/
theorem whh_blk2 (c : Dev nD) (t : Fin cfg2.N) :
    (iblk2 V c 4 t : Vec Ideal S1024x4096 .bf16) = (V c main_v62 : S1024x4096.Idx → EReal) := by
  obtain ⟨-, -, -, -, ⟨e0, e1⟩, -⟩ := idx2 t
  funext y
  unfold iblk2
  rw [View.read_apply]
  show V c main_v62 _ = V c main_v62 _
  congr 1
  funext a
  apply Fin.ext
  match a with
  | ⟨0, _⟩ => show win2_4.index t 0 * 1024 + 1 * (y 0).val = (y 0).val; rw [e0]; omega
  | ⟨1, _⟩ => show win2_4.index t 1 * 4096 + 1 * (y 1).val = (y 1).val; rw [e1]; omega

/-- The bias block at every point is the whole bias row. -/
theorem b_blk2 (c : Dev nD) (t : Fin cfg2.N) :
    (iblk2 V c 5 t : Vec Ideal S1x4096 .f32) = (V c main_v55 : S1x4096.Idx → EReal) := by
  obtain ⟨-, -, -, -, -, ⟨e0, e1⟩, -⟩ := idx2 t
  funext y
  unfold iblk2
  rw [View.read_apply]
  show V c main_v55 _ = V c main_v55 _
  congr 1
  funext a
  apply Fin.ext
  match a with
  | ⟨0, _⟩ => show win2_5.index t 0 * 1 + 1 * (y 0).val = (y 0).val; rw [e0]; omega
  | ⟨1, _⟩ => show win2_5.index t 1 * 4096 + 1 * (y 1).val = (y 1).val; rw [e1]; omega

/-- What point `t` writes back to the hidden-state array is block `t` of the cell of the whole arrays. -/
theorem flushed2_6_eq (c : Dev nD) (t : Fin cfg2.N) :
    (dat2 V c).flushed 6 t = ((cfg2.win 6).blk t).view.read (Elt Ideal)
      (fun i => cellHP (mat2 (V c main_v1)) (mat2 (V c main_v40_0)) (mat2 (V c main_v40_1)) (mat2 (V c main_v47))
        (mat2 (V c main_v62)) (row2 (V c main_v55)) (i 0) (i 1)) := by
  show (cfg2.win 6).cut (grid2.coords t) ((dat2 V c).after 6 t) = _
  rw [after2_6]
  unfold out2_6
  rw [View.canon_unit_zero hz]
  simp only [View.ld_unit_zero (S := S128x1024) hz, View.ld_unit_zero (S := S1024x4096) hz, View.ld_unit_zero (S := S1x4096) hz]
  rw [CellBody.pay2_h, wih_blk2, whh_blk2, b_blk2]
  obtain ⟨-, -, -, -, -, -, ⟨e0, e1⟩, -⟩ := idx2 t
  funext j
  rw [View.read_apply]
  refine cellHP_of_blocks _ _ _ _ _ _ _ _ _ t.val (fun y k h0 h1 => x_blk2 V c t y k h0 h1)
    (fun y k h0 h1 => h_blk2 V c t y k h0 h1) (fun y k h0 h1 => c_blk2 V c t y k h0 h1) _ _ _ _ ?_ ?_
  · show win2_6.index t 0 * 128 + 1 * (j 0).val = t.val * 128 + (j 0).val; rw [e0]; omega
  · show win2_6.index t 1 * 1024 + 1 * (j 1).val = (j 1).val; rw [e1]; omega

/-- And to the cell-state array. -/
theorem flushed2_7_eq (c : Dev nD) (t : Fin cfg2.N) :
    (dat2 V c).flushed 7 t = ((cfg2.win 7).blk t).view.read (Elt Ideal)
      (fun i => cellCP (mat2 (V c main_v1)) (mat2 (V c main_v40_0)) (mat2 (V c main_v40_1)) (mat2 (V c main_v47))
        (mat2 (V c main_v62)) (row2 (V c main_v55)) (i 0) (i 1)) := by
  show (cfg2.win 7).cut (grid2.coords t) ((dat2 V c).after 7 t) = _
  rw [after2_7]
  unfold out2_7
  rw [View.canon_unit_zero hz]
  simp only [View.ld_unit_zero (S := S128x1024) hz, View.ld_unit_zero (S := S1024x4096) hz, View.ld_unit_zero (S := S1x4096) hz]
  rw [CellBody.pay2_c, wih_blk2, whh_blk2, b_blk2]
  obtain ⟨-, -, -, -, -, -, -, ⟨e0, e1⟩⟩ := idx2 t
  funext j
  rw [View.read_apply]
  refine cellCP_of_blocks _ _ _ _ _ _ _ _ _ t.val (fun y k h0 h1 => x_blk2 V c t y k h0 h1)
    (fun y k h0 h1 => h_blk2 V c t y k h0 h1) (fun y k h0 h1 => c_blk2 V c t y k h0 h1) _ _ _ _ ?_ ?_
  · show win2_7.index t 0 * 128 + 1 * (j 0).val = t.val * 128 + (j 0).val; rw [e0]; omega
  · show win2_7.index t 1 * 1024 + 1 * (j 1).val = (j 1).val; rw [e1]; omega

/-- Row `r` of the hidden-state array is in the block of point `r / 128`. -/
theorem covered2_6 (i : S2048x1024.Idx) :
    ∃ t : Fin cfg2.N, (cfg2.win 6).flush t = true ∧ i ∈ ((cfg2.win 6).blk t).view.set := by
  have hi0 : (i 0).val < 2048 := (i 0).isLt
  have hi1 : (i 1).val < 1024 := (i 1).isLt
  have ht : (i 0).val / 128 < cfg2.N := by show (i 0).val / 128 < 16; omega
  obtain ⟨-, -, -, -, -, -, ⟨e0, e1⟩, -⟩ := idx2 ⟨(i 0).val / 128, ht⟩
  refine ⟨⟨(i 0).val / 128, ht⟩, flush2_6 _, ?_⟩
  show i ∈ ((View.whole main_v63_0).slice (win2_6.rect ⟨(i 0).val / 128, ht⟩)).set
  rw [View.set_slice_whole, Rect.mem_set_unit]
  intro a
  match a with
  | ⟨0, _⟩ =>
    show win2_6.index ⟨(i 0).val / 128, ht⟩ 0 * 128 ≤ (i 0).val ∧ (i 0).val < win2_6.index ⟨(i 0).val / 128, ht⟩ 0 * 128 + 128
    rw [e0]; show (i 0).val / 128 * 128 ≤ (i 0).val ∧ (i 0).val < (i 0).val / 128 * 128 + 128; omega
  | ⟨1, _⟩ =>
    show win2_6.index ⟨(i 0).val / 128, ht⟩ 1 * 1024 ≤ (i 1).val ∧ (i 1).val < win2_6.index ⟨(i 0).val / 128, ht⟩ 1 * 1024 + 1024
    rw [e1]; omega

theorem covered2_7 (i : S2048x1024.Idx) :
    ∃ t : Fin cfg2.N, (cfg2.win 7).flush t = true ∧ i ∈ ((cfg2.win 7).blk t).view.set := by
  have hi0 : (i 0).val < 2048 := (i 0).isLt
  have hi1 : (i 1).val < 1024 := (i 1).isLt
  have ht : (i 0).val / 128 < cfg2.N := by show (i 0).val / 128 < 16; omega
  obtain ⟨-, -, -, -, -, -, -, ⟨e0, e1⟩⟩ := idx2 ⟨(i 0).val / 128, ht⟩
  refine ⟨⟨(i 0).val / 128, ht⟩, flush2_7 _, ?_⟩
  show i ∈ ((View.whole main_v63_1).slice (win2_7.rect ⟨(i 0).val / 128, ht⟩)).set
  rw [View.set_slice_whole, Rect.mem_set_unit]
  intro a
  match a with
  | ⟨0, _⟩ =>
    show win2_7.index ⟨(i 0).val / 128, ht⟩ 0 * 128 ≤ (i 0).val ∧ (i 0).val < win2_7.index ⟨(i 0).val / 128, ht⟩ 0 * 128 + 128
    rw [e0]; show (i 0).val / 128 * 128 ≤ (i 0).val ∧ (i 0).val < (i 0).val / 128 * 128 + 128; omega
  | ⟨1, _⟩ =>
    show win2_7.index ⟨(i 0).val / 128, ht⟩ 1 * 1024 ≤ (i 1).val ∧ (i 1).val < win2_7.index ⟨(i 0).val / 128, ht⟩ 1 * 1024 + 1024
    rw [e1]; omega

/-- After the third region the hidden-state array is the padded cell of the arrays the region found, row by row. -/
theorem region2_h (c : Dev nD) : (dat2 (F := Ideal) V c).arrAt 6 cfg2.N
    = fun i => cellHP (mat2 (V c main_v1)) (mat2 (V c main_v40_0)) (mat2 (V c main_v40_1)) (mat2 (V c main_v47))
        (mat2 (V c main_v62)) (row2 (V c main_v55)) (i 0) (i 1) :=
  (dat2 V c).arrAt_eq_of_cover 6 _ (fun t _ => flushed2_6_eq V c t) covered2_6

/-- And the cell-state array that cell's cell state. -/
theorem region2_c (c : Dev nD) : (dat2 (F := Ideal) V c).arrAt 7 cfg2.N
    = fun i => cellCP (mat2 (V c main_v1)) (mat2 (V c main_v40_0)) (mat2 (V c main_v40_1)) (mat2 (V c main_v47))
        (mat2 (V c main_v62)) (row2 (V c main_v55)) (i 0) (i 1) :=
  (dat2 V c).arrAt_eq_of_cover 7 _ (fun t _ => flushed2_7_eq V c t) covered2_7

end Cert.RegionValue

end
-- ==== Proof.RegionValue3.lean ====
/-
  Region 3's two output arrays as functions of the arrays the region finds, index by index: the fourth cell, block by
  block of 128 rows over a grid of 16 points, exactly as the second and third, except that the hidden state is stored
  clamped below at zero.
-/
import proofs.«123216_j20375324852351_2_alg».proof.Proof.Gen.KernelIdeal.Frame
import proofs.«123216_j20375324852351_2_alg».proof.Proof.RegionValueCommon
import Idealize.ShloMosaic.Lib.Pipeline.Value
import Idealize.ShloMosaic.Lib.ValueIdx

noncomputable section

open scoped BigOperators

namespace Cert.RegionValue

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (V : (c : Dev nD) → (b : Ref sig .tc) → Buf (Elt Ideal) ((c : Thread nD τ).loc b))

/-! ## Region 3: the fourth cell, its hidden state clamped below at zero -/

/-- The windows' block indices at each of the 16 points: the three row windows and the two outputs move with the
    point along the rows, the weights and the bias stay at block (0, 0). -/
theorem idx3 : ∀ t : Fin cfg3.N,
    (win3_0.index t 0 = t.val ∧ win3_0.index t 1 = 0) ∧ (win3_1.index t 0 = t.val ∧ win3_1.index t 1 = 0)
    ∧ (win3_2.index t 0 = t.val ∧ win3_2.index t 1 = 0) ∧ (win3_3.index t 0 = 0 ∧ win3_3.index t 1 = 0)
    ∧ (win3_4.index t 0 = 0 ∧ win3_4.index t 1 = 0) ∧ (win3_5.index t 0 = 0 ∧ win3_5.index t 1 = 0)
    ∧ (win3_6.index t 0 = t.val ∧ win3_6.index t 1 = 0) ∧ (win3_7.index t 0 = t.val ∧ win3_7.index t 1 = 0) :=
  (by decide +kernel : ∀ t : Fin grid3.N, _)

/-- The input block at point `t`: row `p` of the block is row `t * 128 + p` of the padded input. -/
theorem x_blk3 (c : Dev nD) (t : Fin cfg3.N) (y : S128x1024.Idx) (k : S2048x1024.Idx)
    (hk0 : (k 0).val = t.val * 128 + (y 0).val) (hk1 : (k 1).val = (y 1).val) :
    (iblk3 V c 0 t : Vec Ideal S128x1024 .f32) y = (V c main_v1 : S2048x1024.Idx → EReal) k := by
  obtain ⟨⟨e0, e1⟩, -⟩ := idx3 t
  unfold iblk3
  rw [View.read_apply]
  show V c main_v1 _ = V c main_v1 _
  congr 1
  funext a
  apply Fin.ext
  match a with
  | ⟨0, _⟩ => show win3_0.index t 0 * 128 + 1 * (y 0).val = (k 0).val; rw [e0, hk0]; omega
  | ⟨1, _⟩ => show win3_0.index t 1 * 1024 + 1 * (y 1).val = (k 1).val; rw [e1, hk1]; omega

/-- The previous hidden state's block at point `t`, likewise. -/
theorem h_blk3 (c : Dev nD) (t : Fin cfg3.N) (y : S128x1024.Idx) (k : S2048x1024.Idx)
    (hk0 : (k 0).val = t.val * 128 + (y 0).val) (hk1 : (k 1).val = (y 1).val) :
    (iblk3 V c 1 t : Vec Ideal S128x1024 .f32) y = (V c main_v63_0 : S2048x1024.Idx → EReal) k := by
  obtain ⟨-, ⟨e0, e1⟩, -⟩ := idx3 t
  unfold iblk3
  rw [View.read_apply]
  show V c main_v63_0 _ = V c main_v63_0 _
  congr 1
  funext a
  apply Fin.ext
  match a with
  | ⟨0, _⟩ => show win3_1.index t 0 * 128 + 1 * (y 0).val = (k 0).val; rw [e0, hk0]; omega
  | ⟨1, _⟩ => show win3_1.index t 1 * 1024 + 1 * (y 1).val = (k 1).val; rw [e1, hk1]; omega

/-- The previous cell state's block at point `t`, likewise. -/
theorem c_blk3 (c : Dev nD) (t : Fin cfg3.N) (y : S128x1024.Idx) (k : S2048x1024.Idx)
    (hk0 : (k 0).val = t.val * 128 + (y 0).val) (hk1 : (k 1).val = (y 1).val) :
    (iblk3 V c 2 t : Vec Ideal S128x1024 .f32) y = (V c main_v63_1 : S2048x1024.Idx → EReal) k := by
  obtain ⟨-, -, ⟨e0, e1⟩, -⟩ := idx3 t
  unfold iblk3
  rw [View.read_apply]
  show V c main_v63_1 _ = V c main_v63_1 _
  congr 1
  funext a
  apply Fin.ext
  match a with
  | ⟨0, _⟩ => show win3_2.index t 0 * 128 + 1 * (y 0).val = (k 0).val; rw [e0, hk0]; omega
  | ⟨1, _⟩ => show win3_2.index t 1 * 1024 + 1 * (y 1).val = (k 1).val; rw [e1, hk1]; omega

/-- The input weights' block at every point is the whole matrix. -/
theorem wih_blk3 (c : Dev nD) (t : Fin cfg3.N) :
    (iblk3 V c 3 t : Vec Ideal S1024x4096 .bf16) = (V c main_v70 : S1024x4096.Idx → EReal) := by
  obtain ⟨-, -, -, ⟨e0, e1⟩, -⟩ := idx3 t
  funext y
  unfold iblk3
  rw [View.read_apply]
  show V c main_v70 _ = V c main_v70 _
  congr 1
  funext a
  apply Fin.ext
  match a with
  | ⟨0, _⟩ => show win3_3.index t 0 * 1024 + 1 * (y 0).val = (y 0).val; rw [e0]; omega
  | ⟨1, _⟩ => show win3_3.index t 1 * 4096 + 1 * (y 1).val = (y 1).val; rw [e1]; omega

/-- The recurrent weights' block at every point is the whole matrix. -/
theorem whh_blk3 (c : Dev nD) (t : Fin cfg3.N) :
    (iblk3 V c 4 t : Vec Ideal S1024x4096 .bf16) = (V c main_v85 : S1024x4096.Idx → EReal) := by
  obtain ⟨-, -, -, -, ⟨e0, e1⟩, -⟩ := idx3 t
  funext y
  unfold iblk3
  rw [View.read_apply]
  show V c main_v85 _ = V c main_v85 _
  congr 1
  funext a
  apply Fin.ext
  match a with
  | ⟨0, _⟩ => show win3_4.index t 0 * 1024 + 1 * (y 0).val = (y 0).val; rw [e0]; omega
  | ⟨1, _⟩ => show win3_4.index t 1 * 4096 + 1 * (y 1).val = (y 1).val; rw [e1]; omega

/-- The bias block at every point is the whole bias row. -/
theorem b_blk3 (c : Dev nD) (t : Fin cfg3.N) :
    (iblk3 V c 5 t : Vec Ideal S1x4096 .f32) = (V c main_v78 : S1x4096.Idx → EReal) := by
  obtain ⟨-, -, -, -, -, ⟨e0, e1⟩, -⟩ := idx3 t
  funext y
  unfold iblk3
  rw [View.read_apply]
  show V c main_v78 _ = V c main_v78 _
  congr 1
  funext a
  apply Fin.ext
  match a with
  | ⟨0, _⟩ => show win3_5.index t 0 * 1 + 1 * (y 0).val = (y 0).val; rw [e0]; omega
  | ⟨1, _⟩ => show win3_5.index t 1 * 4096 + 1 * (y 1).val = (y 1).val; rw [e1]; omega

/-- What point `t` writes back to the hidden-state array is block `t` of the cell of the whole arrays, clamped below at
    zero. -/
theorem flushed3_6_eq (c : Dev nD) (t : Fin cfg3.N) :
    (dat3 V c).flushed 6 t = ((cfg3.win 6).blk t).view.read (Elt Ideal)
      (fun i => (max (cellHP (mat2 (V c main_v1)) (mat2 (V c main_v63_0)) (mat2 (V c main_v63_1)) (mat2 (V c main_v70))
        (mat2 (V c main_v85)) (row2 (V c main_v78)) (i 0) (i 1)) 0 : EReal)) := by
  show (cfg3.win 6).cut (grid3.coords t) ((dat3 V c).after 6 t) = _
  rw [after3_6]
  unfold out3_6
  rw [View.canon_unit_zero hz]
  simp only [View.ld_unit_zero (S := S128x1024) hz, View.ld_unit_zero (S := S1024x4096) hz, View.ld_unit_zero (S := S1x4096) hz]
  rw [CellBody.pay3_h, wih_blk3, whh_blk3, b_blk3]
  obtain ⟨-, -, -, -, -, -, ⟨e0, e1⟩, -⟩ := idx3 t
  funext j
  rw [View.read_apply]
  show max _ (0 : EReal) = max _ 0
  refine congrArg (fun z : EReal => max z 0) (cellHP_of_blocks _ _ _ _ _ _ _ _ _ t.val (fun y k h0 h1 => x_blk3 V c t y k h0 h1)
    (fun y k h0 h1 => h_blk3 V c t y k h0 h1) (fun y k h0 h1 => c_blk3 V c t y k h0 h1) _ _ _ _ ?_ ?_)
  · show win3_6.index t 0 * 128 + 1 * (j 0).val = t.val * 128 + (j 0).val; rw [e0]; omega
  · show win3_6.index t 1 * 1024 + 1 * (j 1).val = (j 1).val; rw [e1]; omega

/-- And to the cell-state array. -/
theorem flushed3_7_eq (c : Dev nD) (t : Fin cfg3.N) :
    (dat3 V c).flushed 7 t = ((cfg3.win 7).blk t).view.read (Elt Ideal)
      (fun i => cellCP (mat2 (V c main_v1)) (mat2 (V c main_v63_0)) (mat2 (V c main_v63_1)) (mat2 (V c main_v70))
        (mat2 (V c main_v85)) (row2 (V c main_v78)) (i 0) (i 1)) := by
  show (cfg3.win 7).cut (grid3.coords t) ((dat3 V c).after 7 t) = _
  rw [after3_7]
  unfold out3_7
  rw [View.canon_unit_zero hz]
  simp only [View.ld_unit_zero (S := S128x1024) hz, View.ld_unit_zero (S := S1024x4096) hz, View.ld_unit_zero (S := S1x4096) hz]
  rw [CellBody.pay3_c, wih_blk3, whh_blk3, b_blk3]
  obtain ⟨-, -, -, -, -, -, -, ⟨e0, e1⟩⟩ := idx3 t
  funext j
  rw [View.read_apply]
  refine cellCP_of_blocks _ _ _ _ _ _ _ _ _ t.val (fun y k h0 h1 => x_blk3 V c t y k h0 h1)
    (fun y k h0 h1 => h_blk3 V c t y k h0 h1) (fun y k h0 h1 => c_blk3 V c t y k h0 h1) _ _ _ _ ?_ ?_
  · show win3_7.index t 0 * 128 + 1 * (j 0).val = t.val * 128 + (j 0).val; rw [e0]; omega
  · show win3_7.index t 1 * 1024 + 1 * (j 1).val = (j 1).val; rw [e1]; omega

/-- Row `r` of the hidden-state array is in the block of point `r / 128`. -/
theorem covered3_6 (i : S2048x1024.Idx) :
    ∃ t : Fin cfg3.N, (cfg3.win 6).flush t = true ∧ i ∈ ((cfg3.win 6).blk t).view.set := by
  have hi0 : (i 0).val < 2048 := (i 0).isLt
  have hi1 : (i 1).val < 1024 := (i 1).isLt
  have ht : (i 0).val / 128 < cfg3.N := by show (i 0).val / 128 < 16; omega
  obtain ⟨-, -, -, -, -, -, ⟨e0, e1⟩, -⟩ := idx3 ⟨(i 0).val / 128, ht⟩
  refine ⟨⟨(i 0).val / 128, ht⟩, flush3_6 _, ?_⟩
  show i ∈ ((View.whole main_v86_0).slice (win3_6.rect ⟨(i 0).val / 128, ht⟩)).set
  rw [View.set_slice_whole, Rect.mem_set_unit]
  intro a
  match a with
  | ⟨0, _⟩ =>
    show win3_6.index ⟨(i 0).val / 128, ht⟩ 0 * 128 ≤ (i 0).val ∧ (i 0).val < win3_6.index ⟨(i 0).val / 128, ht⟩ 0 * 128 + 128
    rw [e0]; show (i 0).val / 128 * 128 ≤ (i 0).val ∧ (i 0).val < (i 0).val / 128 * 128 + 128; omega
  | ⟨1, _⟩ =>
    show win3_6.index ⟨(i 0).val / 128, ht⟩ 1 * 1024 ≤ (i 1).val ∧ (i 1).val < win3_6.index ⟨(i 0).val / 128, ht⟩ 1 * 1024 + 1024
    rw [e1]; omega

theorem covered3_7 (i : S2048x1024.Idx) :
    ∃ t : Fin cfg3.N, (cfg3.win 7).flush t = true ∧ i ∈ ((cfg3.win 7).blk t).view.set := by
  have hi0 : (i 0).val < 2048 := (i 0).isLt
  have hi1 : (i 1).val < 1024 := (i 1).isLt
  have ht : (i 0).val / 128 < cfg3.N := by show (i 0).val / 128 < 16; omega
  obtain ⟨-, -, -, -, -, -, -, ⟨e0, e1⟩⟩ := idx3 ⟨(i 0).val / 128, ht⟩
  refine ⟨⟨(i 0).val / 128, ht⟩, flush3_7 _, ?_⟩
  show i ∈ ((View.whole main_v86_1).slice (win3_7.rect ⟨(i 0).val / 128, ht⟩)).set
  rw [View.set_slice_whole, Rect.mem_set_unit]
  intro a
  match a with
  | ⟨0, _⟩ =>
    show win3_7.index ⟨(i 0).val / 128, ht⟩ 0 * 128 ≤ (i 0).val ∧ (i 0).val < win3_7.index ⟨(i 0).val / 128, ht⟩ 0 * 128 + 128
    rw [e0]; show (i 0).val / 128 * 128 ≤ (i 0).val ∧ (i 0).val < (i 0).val / 128 * 128 + 128; omega
  | ⟨1, _⟩ =>
    show win3_7.index ⟨(i 0).val / 128, ht⟩ 1 * 1024 ≤ (i 1).val ∧ (i 1).val < win3_7.index ⟨(i 0).val / 128, ht⟩ 1 * 1024 + 1024
    rw [e1]; omega

/-- After the fourth region the hidden-state array is the padded cell of the arrays the region found, clamped below at zero,
    row by row. -/
theorem region3_h (c : Dev nD) : (dat3 (F := Ideal) V c).arrAt 6 cfg3.N
    = fun i => (max (cellHP (mat2 (V c main_v1)) (mat2 (V c main_v63_0)) (mat2 (V c main_v63_1)) (mat2 (V c main_v70))
        (mat2 (V c main_v85)) (row2 (V c main_v78)) (i 0) (i 1)) 0 : EReal) :=
  (dat3 V c).arrAt_eq_of_cover 6 _ (fun t _ => flushed3_6_eq V c t) covered3_6

/-- And the cell-state array that cell's cell state. -/
theorem region3_c (c : Dev nD) : (dat3 (F := Ideal) V c).arrAt 7 cfg3.N
    = fun i => cellCP (mat2 (V c main_v1)) (mat2 (V c main_v63_0)) (mat2 (V c main_v63_1)) (mat2 (V c main_v70))
        (mat2 (V c main_v85)) (row2 (V c main_v78)) (i 0) (i 1) :=
  (dat3 V c).arrAt_eq_of_cover 7 _ (fun t _ => flushed3_7_eq V c t) covered3_7

end Cert.RegionValue

end
-- ==== Proof.RegionValue.lean ====
/-
  The four regions' output arrays as padded cells of the arrays each region finds: `region0_h`, `region0_c`,
  `region1_h`, `region1_c`, `region2_h`, `region2_c`, `region3_h` (and `region3_c`), gathered.
-/
import proofs.«123216_j20375324852351_2_alg».proof.Proof.RegionValue0
import proofs.«123216_j20375324852351_2_alg».proof.Proof.RegionValue1
import proofs.«123216_j20375324852351_2_alg».proof.Proof.RegionValue2
import proofs.«123216_j20375324852351_2_alg».proof.Proof.RegionValue3
-- ==== Proof.KernelNet.lean ====
/-
  The kernel program computes the stack of cells.

  Launch by launch, the padded hidden and cell arrays a launch leaves agree, at the real units, with the real cell's new
  states. A launch's arrays are the padded cell of the arrays it finds; the arrays it finds are the host's padded forms of
  the argument arrays (input rows followed by zeros; transposed weights with zero rows below and the real units' columns in
  place; the two biases added) and the previous launch's outputs, untouched in between; so the padded cell agrees with
  the real cell at the real units. The first launch has no state: it is the real cell from the zero state. The last launch
  also clamps at zero, and the result buffer is its hidden array cut back to the 1000 real units.
-/
import proofs.«123216_j20375324852351_2_alg».proof.Proof.PaddedCell
import proofs.«123216_j20375324852351_2_alg».proof.Proof.HostReads
import proofs.«123216_j20375324852351_2_alg».proof.Proof.HostFold
import proofs.«123216_j20375324852351_2_alg».proof.Proof.RegionValue
import proofs.«123216_j20375324852351_2_alg».proof.Proof.Gen.KernelIdeal.Frame

set_option maxRecDepth 16384

noncomputable section

namespace Cert.KernelNet

open Cert.KernelIdeal Cert.KernelIdeal.Gen Cert.Lstm
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The real data: the argument arrays as matrices, and the states after each cell -/

/-- The input rows. -/
abbrev X : Mat 2048 1000 := rows3 (m ((c : Thread nD τ).loc main_arg0) : S2048x1x1000.Idx → EReal)
/-- Cell `l`'s input weights. -/
abbrev Wih (l : Fin 4) : Mat 4000 1000 := layer3 (m ((c : Thread nD τ).loc main_arg1) : S4x4000x1000.Idx → EReal) l
/-- Cell `l`'s hidden-state weights. -/
abbrev Whh (l : Fin 4) : Mat 4000 1000 := layer3 (m ((c : Thread nD τ).loc main_arg2) : S4x4000x1000.Idx → EReal) l
/-- Cell `l`'s first bias. -/
abbrev Bih (l : Fin 4) : Fin 4000 → EReal := layer2 (m ((c : Thread nD τ).loc main_arg3) : S4x4000.Idx → EReal) l
/-- Cell `l`'s second bias. -/
abbrev Bhh (l : Fin 4) : Fin 4000 → EReal := layer2 (m ((c : Thread nD τ).loc main_arg4) : S4x4000.Idx → EReal) l

/-- The states after the first cell. -/
def st1 : Mat 2048 1000 × Mat 2048 1000 := step (X m c) (Wih m c 0) (Whh m c 0) (Bih m c 0) (Bhh m c 0) (zeroM, zeroM)
/-- The states after the second cell. -/
def st2 : Mat 2048 1000 × Mat 2048 1000 := step (X m c) (Wih m c 1) (Whh m c 1) (Bih m c 1) (Bhh m c 1) (st1 m c)
/-- The states after the third cell. -/
def st3 : Mat 2048 1000 × Mat 2048 1000 := step (X m c) (Wih m c 2) (Whh m c 2) (Bih m c 2) (Bhh m c 2) (st2 m c)
/-- The states after the fourth cell. -/
def st4 : Mat 2048 1000 × Mat 2048 1000 := step (X m c) (Wih m c 3) (Whh m c 3) (Bih m c 3) (Bhh m c 3) (st3 m c)

/-! ## Cell 0 (launch 0): from the zero state -/

theorem padX_0 : PadX (mat2 (V7 m ρ c main_v1 : S2048x1024.Idx → EReal)) (X m c) := fun n k =>
  (congrArg (fun A : S2048x1024.Idx → EReal => mat2 A n k) (HostFold.V7_v1 m ρ c _ rfl)).trans (HostReads.padX_mat _ n k)

theorem padWih_0 : PadW (mat2 (V7 m ρ c main_v8 : S1024x4096.Idx → EReal)) (Wih m c 0) := fun k q j =>
  (congrArg (fun A : S1024x4096.Idx → EReal => mat2 A k (gposP q (up j))) (HostFold.V7_v8 m ρ c _ rfl)).trans
    (HostReads.weight0_mat _ k q j)

theorem padB_0 : PadB (row2 (V7 m ρ c main_v16 : S1x4096.Idx → EReal)) (Bih m c 0) (Bhh m c 0) := fun q j =>
  (congrArg (fun A : S1x4096.Idx → EReal => row2 A (gposP q (up j))) (HostFold.V7_v16 m ρ c _ _ rfl rfl)).trans
    (HostReads.bias0_row _ _ q j)

theorem hout_0 (n : Fin 2048) (k : Fin 1024) : mat2 (V8 m ρ c main_v17_0 : S2048x1024.Idx → EReal) n k
    = cellHP0 (mat2 (V7 m ρ c main_v1 : S2048x1024.Idx → EReal)) (mat2 (V7 m ρ c main_v8 : S1024x4096.Idx → EReal))
        (row2 (V7 m ρ c main_v16 : S1x4096.Idx → EReal)) n k :=
  congrFun ((hF0 m ρ c 3).symm.trans (RegionValue.region0_h (V7 m ρ) c)) (ix2 n k)

theorem cout_0 (n : Fin 2048) (k : Fin 1024) : mat2 (V8 m ρ c main_v17_1 : S2048x1024.Idx → EReal) n k
    = cellCP0 (mat2 (V7 m ρ c main_v1 : S2048x1024.Idx → EReal)) (mat2 (V7 m ρ c main_v8 : S1024x4096.Idx → EReal))
        (row2 (V7 m ρ c main_v16 : S1x4096.Idx → EReal)) n k :=
  congrFun ((hF0 m ρ c 4).symm.trans (RegionValue.region0_c (V7 m ρ) c)) (ix2 n k)

/-- After the first cell the padded hidden and cell arrays agree with the real states at the real units. -/
theorem agree_0 : Agree (mat2 (V8 m ρ c main_v17_0 : S2048x1024.Idx → EReal)) (st1 m c).1
    ∧ Agree (mat2 (V8 m ρ c main_v17_1 : S2048x1024.Idx → EReal)) (st1 m c).2 :=
  ⟨fun n j => (hout_0 m ρ c n (up j)).trans
      (agree_cellHP0 (whh := Whh m c 0) (padX_0 m ρ c) (padWih_0 m ρ c) (padB_0 m ρ c) n j),
   fun n j => (cout_0 m ρ c n (up j)).trans
      (agree_cellCP0 (whh := Whh m c 0) (padX_0 m ρ c) (padWih_0 m ρ c) (padB_0 m ρ c) n j)⟩

/-! ## Cell 1 (launch 1): its padded inputs against the real data, and what it leaves -/

theorem padX_1 : PadX (mat2 (V15 m ρ c main_v1 : S2048x1024.Idx → EReal)) (X m c) := fun n k =>
  (congrArg (fun A : S2048x1024.Idx → EReal => mat2 A n k) (HostFold.V15_v1_term m ρ c _ rfl)).trans (HostReads.padX_mat _ n k)

theorem padWih_1 : PadW (mat2 (V15 m ρ c main_v24 : S1024x4096.Idx → EReal)) (Wih m c 1) := fun k q j =>
  (congrArg (fun A : S1024x4096.Idx → EReal => mat2 A k (gposP q (up j))) (HostFold.V15_v24 m ρ c _ rfl)).trans
    (HostReads.weight1_mat _ k q j)

theorem padWhh_1 : PadW (mat2 (V15 m ρ c main_v39 : S1024x4096.Idx → EReal)) (Whh m c 1) := fun k q j =>
  (congrArg (fun A : S1024x4096.Idx → EReal => mat2 A k (gposP q (up j))) (HostFold.V15_v39 m ρ c _ rfl)).trans
    (HostReads.weight1_mat _ k q j)

theorem padB_1 : PadB (row2 (V15 m ρ c main_v32 : S1x4096.Idx → EReal)) (Bih m c 1) (Bhh m c 1) := fun q j =>
  (congrArg (fun A : S1x4096.Idx → EReal => row2 A (gposP q (up j))) (HostFold.V15_v32 m ρ c _ _ rfl rfl)).trans
    (HostReads.bias1_row _ _ q j)

theorem hin_1 : Agree (mat2 (V15 m ρ c main_v17_0 : S2048x1024.Idx → EReal)) (st1 m c).1 := fun n k =>
  (congrArg (fun A : S2048x1024.Idx → EReal => mat2 A n (up k)) (HostFold.V15_v17_0 m ρ c)).trans ((agree_0 m ρ c).1 n k)

theorem cin_1 : Agree (mat2 (V15 m ρ c main_v17_1 : S2048x1024.Idx → EReal)) (st1 m c).2 := fun n k =>
  (congrArg (fun A : S2048x1024.Idx → EReal => mat2 A n (up k)) (HostFold.V15_v17_1 m ρ c)).trans ((agree_0 m ρ c).2 n k)

theorem hout_1 (n : Fin 2048) (k : Fin 1024) : mat2 (V16 m ρ c main_v40_0 : S2048x1024.Idx → EReal) n k
    = cellHP (mat2 (V15 m ρ c main_v1 : S2048x1024.Idx → EReal)) (mat2 (V15 m ρ c main_v17_0 : S2048x1024.Idx → EReal))
        (mat2 (V15 m ρ c main_v17_1 : S2048x1024.Idx → EReal)) (mat2 (V15 m ρ c main_v24 : S1024x4096.Idx → EReal))
        (mat2 (V15 m ρ c main_v39 : S1024x4096.Idx → EReal)) (row2 (V15 m ρ c main_v32 : S1x4096.Idx → EReal)) n k :=
  congrFun ((hF1 m ρ c 6).symm.trans (RegionValue.region1_h (V15 m ρ) c)) (ix2 n k)

theorem cout_1 (n : Fin 2048) (k : Fin 1024) : mat2 (V16 m ρ c main_v40_1 : S2048x1024.Idx → EReal) n k
    = cellCP (mat2 (V15 m ρ c main_v1 : S2048x1024.Idx → EReal)) (mat2 (V15 m ρ c main_v17_0 : S2048x1024.Idx → EReal))
        (mat2 (V15 m ρ c main_v17_1 : S2048x1024.Idx → EReal)) (mat2 (V15 m ρ c main_v24 : S1024x4096.Idx → EReal))
        (mat2 (V15 m ρ c main_v39 : S1024x4096.Idx → EReal)) (row2 (V15 m ρ c main_v32 : S1x4096.Idx → EReal)) n k :=
  congrFun ((hF1 m ρ c 7).symm.trans (RegionValue.region1_c (V15 m ρ) c)) (ix2 n k)

/-- After cell 1 the padded hidden and cell arrays agree with the real states at the real units. -/
theorem agree_1 : Agree (mat2 (V16 m ρ c main_v40_0 : S2048x1024.Idx → EReal)) (st2 m c).1
    ∧ Agree (mat2 (V16 m ρ c main_v40_1 : S2048x1024.Idx → EReal)) (st2 m c).2 :=
  ⟨fun n j => (hout_1 m ρ c n (up j)).trans
      (agree_cellHP (padX_1 m ρ c) (hin_1 m ρ c) (cin_1 m ρ c) (padWih_1 m ρ c) (padWhh_1 m ρ c) (padB_1 m ρ c) n j),
   fun n j => (cout_1 m ρ c n (up j)).trans
      (agree_cellCP (padX_1 m ρ c) (hin_1 m ρ c) (cin_1 m ρ c) (padWih_1 m ρ c) (padWhh_1 m ρ c) (padB_1 m ρ c) n j)⟩

/-! ## Cell 2 (launch 2): its padded inputs against the real data, and what it leaves -/

theorem padX_2 : PadX (mat2 (V23 m ρ c main_v1 : S2048x1024.Idx → EReal)) (X m c) := fun n k =>
  (congrArg (fun A : S2048x1024.Idx → EReal => mat2 A n k) (HostFold.V23_v1_term m ρ c _ rfl)).trans (HostReads.padX_mat _ n k)

theorem padWih_2 : PadW (mat2 (V23 m ρ c main_v47 : S1024x4096.Idx → EReal)) (Wih m c 2) := fun k q j =>
  (congrArg (fun A : S1024x4096.Idx → EReal => mat2 A k (gposP q (up j))) (HostFold.V23_v47 m ρ c _ rfl)).trans
    (HostReads.weight2_mat _ k q j)

theorem padWhh_2 : PadW (mat2 (V23 m ρ c main_v62 : S1024x4096.Idx → EReal)) (Whh m c 2) := fun k q j =>
  (congrArg (fun A : S1024x4096.Idx → EReal => mat2 A k (gposP q (up j))) (HostFold.V23_v62 m ρ c _ rfl)).trans
    (HostReads.weight2_mat _ k q j)

theorem padB_2 : PadB (row2 (V23 m ρ c main_v55 : S1x4096.Idx → EReal)) (Bih m c 2) (Bhh m c 2) := fun q j =>
  (congrArg (fun A : S1x4096.Idx → EReal => row2 A (gposP q (up j))) (HostFold.V23_v55 m ρ c _ _ rfl rfl)).trans
    (HostReads.bias2_row _ _ q j)

theorem hin_2 : Agree (mat2 (V23 m ρ c main_v40_0 : S2048x1024.Idx → EReal)) (st2 m c).1 := fun n k =>
  (congrArg (fun A : S2048x1024.Idx → EReal => mat2 A n (up k)) (HostFold.V23_v40_0 m ρ c)).trans ((agree_1 m ρ c).1 n k)

theorem cin_2 : Agree (mat2 (V23 m ρ c main_v40_1 : S2048x1024.Idx → EReal)) (st2 m c).2 := fun n k =>
  (congrArg (fun A : S2048x1024.Idx → EReal => mat2 A n (up k)) (HostFold.V23_v40_1 m ρ c)).trans ((agree_1 m ρ c).2 n k)

theorem hout_2 (n : Fin 2048) (k : Fin 1024) : mat2 (V24 m ρ c main_v63_0 : S2048x1024.Idx → EReal) n k
    = cellHP (mat2 (V23 m ρ c main_v1 : S2048x1024.Idx → EReal)) (mat2 (V23 m ρ c main_v40_0 : S2048x1024.Idx → EReal))
        (mat2 (V23 m ρ c main_v40_1 : S2048x1024.Idx → EReal)) (mat2 (V23 m ρ c main_v47 : S1024x4096.Idx → EReal))
        (mat2 (V23 m ρ c main_v62 : S1024x4096.Idx → EReal)) (row2 (V23 m ρ c main_v55 : S1x4096.Idx → EReal)) n k :=
  congrFun ((hF2 m ρ c 6).symm.trans (RegionValue.region2_h (V23 m ρ) c)) (ix2 n k)

theorem cout_2 (n : Fin 2048) (k : Fin 1024) : mat2 (V24 m ρ c main_v63_1 : S2048x1024.Idx → EReal) n k
    = cellCP (mat2 (V23 m ρ c main_v1 : S2048x1024.Idx → EReal)) (mat2 (V23 m ρ c main_v40_0 : S2048x1024.Idx → EReal))
        (mat2 (V23 m ρ c main_v40_1 : S2048x1024.Idx → EReal)) (mat2 (V23 m ρ c main_v47 : S1024x4096.Idx → EReal))
        (mat2 (V23 m ρ c main_v62 : S1024x4096.Idx → EReal)) (row2 (V23 m ρ c main_v55 : S1x4096.Idx → EReal)) n k :=
  congrFun ((hF2 m ρ c 7).symm.trans (RegionValue.region2_c (V23 m ρ) c)) (ix2 n k)

/-- After cell 2 the padded hidden and cell arrays agree with the real states at the real units. -/
theorem agree_2 : Agree (mat2 (V24 m ρ c main_v63_0 : S2048x1024.Idx → EReal)) (st3 m c).1
    ∧ Agree (mat2 (V24 m ρ c main_v63_1 : S2048x1024.Idx → EReal)) (st3 m c).2 :=
  ⟨fun n j => (hout_2 m ρ c n (up j)).trans
      (agree_cellHP (padX_2 m ρ c) (hin_2 m ρ c) (cin_2 m ρ c) (padWih_2 m ρ c) (padWhh_2 m ρ c) (padB_2 m ρ c) n j),
   fun n j => (cout_2 m ρ c n (up j)).trans
      (agree_cellCP (padX_2 m ρ c) (hin_2 m ρ c) (cin_2 m ρ c) (padWih_2 m ρ c) (padWhh_2 m ρ c) (padB_2 m ρ c) n j)⟩

/-! ## Cell 3 (launch 3): its padded inputs against the real data, and what it leaves -/

theorem padX_3 : PadX (mat2 (V31 m ρ c main_v1 : S2048x1024.Idx → EReal)) (X m c) := fun n k =>
  (congrArg (fun A : S2048x1024.Idx → EReal => mat2 A n k) (HostFold.V31_v1_term m ρ c _ rfl)).trans (HostReads.padX_mat _ n k)

theorem padWih_3 : PadW (mat2 (V31 m ρ c main_v70 : S1024x4096.Idx → EReal)) (Wih m c 3) := fun k q j =>
  (congrArg (fun A : S1024x4096.Idx → EReal => mat2 A k (gposP q (up j))) (HostFold.V31_v70 m ρ c _ rfl)).trans
    (HostReads.weight3_mat _ k q j)

theorem padWhh_3 : PadW (mat2 (V31 m ρ c main_v85 : S1024x4096.Idx → EReal)) (Whh m c 3) := fun k q j =>
  (congrArg (fun A : S1024x4096.Idx → EReal => mat2 A k (gposP q (up j))) (HostFold.V31_v85 m ρ c _ rfl)).trans
    (HostReads.weight3_mat _ k q j)

theorem padB_3 : PadB (row2 (V31 m ρ c main_v78 : S1x4096.Idx → EReal)) (Bih m c 3) (Bhh m c 3) := fun q j =>
  (congrArg (fun A : S1x4096.Idx → EReal => row2 A (gposP q (up j))) (HostFold.V31_v78 m ρ c _ _ rfl rfl)).trans
    (HostReads.bias3_row _ _ q j)

theorem hin_3 : Agree (mat2 (V31 m ρ c main_v63_0 : S2048x1024.Idx → EReal)) (st3 m c).1 := fun n k =>
  (congrArg (fun A : S2048x1024.Idx → EReal => mat2 A n (up k)) (HostFold.V31_v63_0 m ρ c)).trans ((agree_2 m ρ c).1 n k)

theorem cin_3 : Agree (mat2 (V31 m ρ c main_v63_1 : S2048x1024.Idx → EReal)) (st3 m c).2 := fun n k =>
  (congrArg (fun A : S2048x1024.Idx → EReal => mat2 A n (up k)) (HostFold.V31_v63_1 m ρ c)).trans ((agree_2 m ρ c).2 n k)

theorem hout_3 (n : Fin 2048) (k : Fin 1024) : mat2 (V32 m ρ c main_v86_0 : S2048x1024.Idx → EReal) n k
    = max (cellHP (mat2 (V31 m ρ c main_v1 : S2048x1024.Idx → EReal)) (mat2 (V31 m ρ c main_v63_0 : S2048x1024.Idx → EReal))
        (mat2 (V31 m ρ c main_v63_1 : S2048x1024.Idx → EReal)) (mat2 (V31 m ρ c main_v70 : S1024x4096.Idx → EReal))
        (mat2 (V31 m ρ c main_v85 : S1024x4096.Idx → EReal)) (row2 (V31 m ρ c main_v78 : S1x4096.Idx → EReal)) n k) 0 :=
  congrFun ((hF3 m ρ c 6).symm.trans (RegionValue.region3_h (V31 m ρ) c)) (ix2 n k)

/-- After the last cell the padded, clamped hidden array agrees with the network's result at the real units. -/
theorem agree_3 : Agree (mat2 (V32 m ρ c main_v86_0 : S2048x1024.Idx → EReal)) (fun n j => max ((st4 m c).1 n j) 0) := fun n j =>
  (hout_3 m ρ c n (up j)).trans
    (agree_max (agree_cellHP (padX_3 m ρ c) (hin_3 m ρ c) (cin_3 m ρ c) (padWih_3 m ρ c) (padWhh_3 m ρ c) (padB_3 m ρ c)) n j)

/-! ## The result -/

/-- The result buffer at the end of the kernel program's run is the network of the argument arrays. -/
theorem kernel_value : (W33 m ρ c (Proc.devRef .tc main_v88) : S2048x1x1000.Idx → EReal)
    = fun i => net (X m c) (Wih m c) (Whh m c) (Bih m c) (Bhh m c) (i 0) (i 2) := by
  funext i
  obtain ⟨n, u, j, rfl⟩ : ∃ (n : Fin 2048) (u : Fin 1) (j : Fin 1000), i = ix3 n u j := ⟨i 0, i 1, i 2, eq_ix3 i⟩
  obtain rfl : u = 0 := Subsingleton.elim _ _
  exact (congrFun (HostFold.W33_v88 m ρ c _ rfl) (ix3 n 0 j)).trans
    ((HostReads.cut_mat _ n j).trans (agree_3 m ρ c n j))

end Cert.KernelNet

end
-- ==== Proof.RefNetBase.lean ====
/-
  Small facts used by every cell of the reference: the two float words that occur (zero and one) as extended reals,
  and the reference's spelling of the logistic function, 1 / (1 + exp (-g)), as `Ideal.logistic g`.
-/
import proofs.«123216_j20375324852351_2_alg».proof.Proof.RefRead
import proofs.«123216_j20375324852351_2_alg».proof.Proof.LstmCell
import Idealize.ShloMosaic.Lib.IdealHost

noncomputable section

open scoped BigOperators

namespace Cert.RefNet

open Idealize.ShloMosaic Idealize.ShloMosaic.ValueIdx Cert.Lstm

/-- The word of the float one is the extended real one. -/
theorem one_word : (FloatOps.ofBits (F := Ideal) .f32 0x3F800000#32 : EReal) = 1 := Ideal.ofBits_one_f32

/-- The word of the float zero is the extended real zero. -/
theorem zero_word : (FloatOps.ofBits (F := Ideal) .f32 0x00000000#32 : EReal) = 0 := Ideal.ofBits_zero_f32

/-- The reference's logistic function: one divided by one plus the exponential of the negated argument. -/
theorem logistic_spell (g : EReal) :
    (FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) .exp (φ := .f32) (FloatOps.hostNegf (F := Ideal) (φ := .f32) g))) : EReal)
      = Ideal.logistic g := by
  rw [one_word]
  rfl

end Cert.RefNet

end
-- ==== Proof.RefNetL0.lean ====
/-
  Cell 0 of the reference, read at an index. Its operations, in the program's order: the slices of the two weight
  stacks and the two bias stacks at layer 0, the transposes, the two products (the input rows times the input weights,
  the previous hidden rows times the recurrent weights), their sum, the sum of the two biases broadcast over the rows,
  the four column blocks of 1000 (input, forget, candidate and output gate), three logistic functions spelled
  1 / (1 + exp (-g)), two hyperbolic tangents, and the two state updates. The previous hidden and cell arrays enter
  only through what they are at an index (`hH`, `hC`), so this cell is independent of the cells before it.
-/
import proofs.«123216_j20375324852351_2_alg».proof.Proof.RefNetBase

noncomputable section

open scoped BigOperators

namespace Cert.RefNet

open Idealize.ShloMosaic Idealize.ShloMosaic.ValueIdx Cert.Lstm Cert.ReferenceIdeal Cert.ReferenceIdeal.Gen Cert.ReferenceIdeal.Read

variable (x0 : (⟨S2048x1x1000, .f32⟩ : BufTy).Contents (Elt Ideal))
  (x1 x2 : (⟨S4x4000x1000, .f32⟩ : BufTy).Contents (Elt Ideal))
  (x3 x4 : (⟨S4x4000, .f32⟩ : BufTy).Contents (Elt Ideal))

/-- The gate pre-activations of cell 0: the generated stage of the last addition, at row `n` and gate row `r`. -/
theorem gates0 (H : Mat 2048 1000)
    (hH : ∀ i, val_main_v1 (F := Ideal) i = H (i 0) (i 1)) (n : Fin 2048) (r : Fin 4000) :
    val_main_v19 (F := Ideal) x0 x1 x2 x3 x4 (ix2 n r)
      = gate (rows3 x0) H (layer3 x1 0) (layer3 x2 0) (layer2 x3 0) (layer2 x4 0) n r := by
  have hn := n.isLt
  have hr := r.isLt
  -- the input rows: the reshape [2048,1,1000] → [2048,1000] read at (n, k)
  have e1 : ∀ k : Fin 1000, idx_main_v0 (lidx_main_v12 (ix2 n r) k) = ix3 n 0 k := fun k => funext fun a => Fin.ext (by
    have hk := k.isLt
    match a with
    | ⟨0, _⟩ => show (n.val * 1000 + k.val) / 1000 = n.val; omega
    | ⟨1, _⟩ => rfl
    | ⟨2, _⟩ => show (n.val * 1000 + k.val) % 1000 = k.val; omega)
  -- the transposed, reshaped slice of the input weights read at (k, r) is the stack at (0, r, k)
  have e2 : ∀ k : Fin 1000, idx_main_v3 (idx_main_v4 (idx_main_v11 (ridx_main_v12 (ix2 n r) k))) = ix3 0 r k := fun k => funext fun a => Fin.ext (by
    have hk := k.isLt
    match a with
    | ⟨0, _⟩ => rfl
    | ⟨1, _⟩ => show (r.val * 1000 + k.val) / 1000 % 4000 = r.val; omega
    | ⟨2, _⟩ => show (r.val * 1000 + k.val) % 1000 = k.val; omega)
  -- the same for the recurrent weights
  have e3 : ∀ k : Fin 1000, idx_main_v5 (idx_main_v6 (idx_main_v13 (ridx_main_v14 (ix2 n r) k))) = ix3 0 r k := fun k => funext fun a => Fin.ext (by
    have hk := k.isLt
    match a with
    | ⟨0, _⟩ => rfl
    | ⟨1, _⟩ => show (r.val * 1000 + k.val) / 1000 % 4000 = r.val; omega
    | ⟨2, _⟩ => show (r.val * 1000 + k.val) % 1000 = k.val; omega)
  -- the two biases, broadcast over the rows, read at (n, r), are the stacks at (0, r)
  have e4 : idx_main_v7 (idx_main_v8 (idx_main_v17 (idx_main_v18 (ix2 n r)))) = ix2 0 r := funext fun a => Fin.ext (by
    match a with
    | ⟨0, _⟩ => rfl
    | ⟨1, _⟩ => exact Nat.mod_eq_of_lt hr)
  have e5 : idx_main_v9 (idx_main_v10 (idx_main_v17 (idx_main_v18 (ix2 n r)))) = ix2 0 r := funext fun a => Fin.ext (by
    match a with
    | ⟨0, _⟩ => rfl
    | ⟨1, _⟩ => exact Nat.mod_eq_of_lt hr)
  rw [val_main_v19_apply, val_main_v15_apply, val_main_v12_apply, val_main_v14_apply, val_main_v18_apply,
    val_main_v17_apply, val_main_v16_apply, val_main_v8_apply, val_main_v7_apply, val_main_v10_apply,
    val_main_v9_apply, e4, e5]
  simp only [val_main_v0_apply, val_main_v11_apply, val_main_v4_apply, val_main_v3_apply, val_main_v13_apply,
    val_main_v6_apply, val_main_v5_apply, hH, e1, e2, e3, Ideal.addf_def]
  rfl

/-- The new cell state of cell 0 at row `n` and unit `j`, from the gate pre-activations `G` and the previous cell
    state: logistic (forget) * previous + logistic (input) * tanh (candidate). -/
theorem cellC0 (G : Fin 2048 → Fin 4000 → EReal) (C : Mat 2048 1000)
    (hC : ∀ i, val_main_v2 (F := Ideal) i = C (i 0) (i 1))
    (hG : ∀ n r, val_main_v19 (F := Ideal) x0 x1 x2 x3 x4 (ix2 n r) = G n r) (n : Fin 2048) (j : Fin 1000) :
    val_main_v39 (F := Ideal) x0 x1 x2 x3 x4 (ix2 n j)
      = Ideal.logistic (G n (gpos 1 j)) * C n j + Ideal.logistic (G n (gpos 0 j)) * Ideal.tanh (G n (gpos 2 j)) := by
  -- the column blocks [0,1000), [1000,2000), [2000,3000) are gates 0, 1, 2
  have ei : idx_main_v20 (ix2 n j) = ix2 n (gpos 0 j) := funext fun a => Fin.ext (by
    match a with
    | ⟨0, _⟩ => rfl
    | ⟨1, _⟩ => show j.val = 0 * 1000 + j.val; omega)
  have ef : idx_main_v21 (ix2 n j) = ix2 n (gpos 1 j) := funext fun a => Fin.ext (by
    match a with
    | ⟨0, _⟩ => rfl
    | ⟨1, _⟩ => show 1000 + j.val = 1 * 1000 + j.val; omega)
  have eg : idx_main_v22 (ix2 n j) = ix2 n (gpos 2 j) := funext fun a => Fin.ext (by
    match a with
    | ⟨0, _⟩ => rfl
    | ⟨1, _⟩ => show 2000 + j.val = 2 * 1000 + j.val; omega)
  rw [val_main_v39_apply, val_main_v30_apply, val_main_v29_apply, val_main_v28_apply, val_main_cst_2_apply,
    val_main_v27_apply, val_main_v26_apply, val_main_cst_1_apply, val_main_v25_apply, val_main_v24_apply,
    val_main_v21_apply, val_main_v38_apply, val_main_v36_apply, val_main_v35_apply, val_main_cst_4_apply,
    val_main_v34_apply, val_main_v33_apply, val_main_cst_3_apply, val_main_v32_apply, val_main_v31_apply,
    val_main_v20_apply, val_main_v37_apply, val_main_v22_apply, hC, ei, ef, eg, hG, hG, hG,
    logistic_spell, logistic_spell]
  rfl

/-- The new hidden state of cell 0 at row `n` and unit `j`: logistic (output) * tanh (new cell state). -/
theorem cellH0 (G : Fin 2048 → Fin 4000 → EReal)
    (hG : ∀ n r, val_main_v19 (F := Ideal) x0 x1 x2 x3 x4 (ix2 n r) = G n r) (n : Fin 2048) (j : Fin 1000) :
    val_main_v47 (F := Ideal) x0 x1 x2 x3 x4 (ix2 n j)
      = Ideal.logistic (G n (gpos 3 j)) * Ideal.tanh (val_main_v39 (F := Ideal) x0 x1 x2 x3 x4 (ix2 n j)) := by
  -- the column block [3000,4000) is gate 3
  have eo : idx_main_v23 (ix2 n j) = ix2 n (gpos 3 j) := funext fun a => Fin.ext (by
    match a with
    | ⟨0, _⟩ => rfl
    | ⟨1, _⟩ => show 3000 + j.val = 3 * 1000 + j.val; omega)
  rw [val_main_v47_apply, val_main_v45_apply, val_main_v44_apply, val_main_cst_6_apply, val_main_v43_apply,
    val_main_v42_apply, val_main_cst_5_apply, val_main_v41_apply, val_main_v40_apply, val_main_v23_apply,
    val_main_v46_apply, eo, hG, logistic_spell]
  rfl

/-- Cell 0's cell-state stage is `cellC` of the input rows, the previous state and layer 0's weights and biases. -/
theorem layer0_c (H C : Mat 2048 1000)
    (hH : ∀ i, val_main_v1 (F := Ideal) i = H (i 0) (i 1))
    (hC : ∀ i, val_main_v2 (F := Ideal) i = C (i 0) (i 1)) (i : S2048x1000.Idx) :
    val_main_v39 (F := Ideal) x0 x1 x2 x3 x4 i
      = cellC (rows3 x0) H C (layer3 x1 0) (layer3 x2 0) (layer2 x3 0) (layer2 x4 0) (i 0) (i 1) := by
  obtain ⟨n, j, rfl⟩ : ∃ (n : Fin 2048) (j : Fin 1000), i = ix2 n j := ⟨i 0, i 1, eq_ix2 i⟩
  exact cellC0 x0 x1 x2 x3 x4 _ C hC (gates0 x0 x1 x2 x3 x4 H hH) n j

/-- Cell 0's hidden-state stage is `cellH` of the same. -/
theorem layer0_h (H C : Mat 2048 1000)
    (hH : ∀ i, val_main_v1 (F := Ideal) i = H (i 0) (i 1))
    (hC : ∀ i, val_main_v2 (F := Ideal) i = C (i 0) (i 1)) (i : S2048x1000.Idx) :
    val_main_v47 (F := Ideal) x0 x1 x2 x3 x4 i
      = cellH (rows3 x0) H C (layer3 x1 0) (layer3 x2 0) (layer2 x3 0) (layer2 x4 0) (i 0) (i 1) := by
  obtain ⟨n, j, rfl⟩ : ∃ (n : Fin 2048) (j : Fin 1000), i = ix2 n j := ⟨i 0, i 1, eq_ix2 i⟩
  rw [cellH0 x0 x1 x2 x3 x4 _ (gates0 x0 x1 x2 x3 x4 H hH) n j, layer0_c x0 x1 x2 x3 x4 H C hH hC (ix2 n j)]
  rfl

end Cert.RefNet

end
-- ==== Proof.RefNetL1.lean ====
/-
  Cell 1 of the reference, read at an index. Its operations, in the program's order: the slices of the two weight
  stacks and the two bias stacks at layer 1, the transposes, the two products (the input rows times the input weights,
  the previous hidden rows times the recurrent weights), their sum, the sum of the two biases broadcast over the rows,
  the four column blocks of 1000 (input, forget, candidate and output gate), three logistic functions spelled
  1 / (1 + exp (-g)), two hyperbolic tangents, and the two state updates. The previous hidden and cell arrays enter
  only through what they are at an index (`hH`, `hC`), so this cell is independent of the cells before it.
-/
import proofs.«123216_j20375324852351_2_alg».proof.Proof.RefNetBase

noncomputable section

open scoped BigOperators

namespace Cert.RefNet

open Idealize.ShloMosaic Idealize.ShloMosaic.ValueIdx Cert.Lstm Cert.ReferenceIdeal Cert.ReferenceIdeal.Gen Cert.ReferenceIdeal.Read

variable (x0 : (⟨S2048x1x1000, .f32⟩ : BufTy).Contents (Elt Ideal))
  (x1 x2 : (⟨S4x4000x1000, .f32⟩ : BufTy).Contents (Elt Ideal))
  (x3 x4 : (⟨S4x4000, .f32⟩ : BufTy).Contents (Elt Ideal))

/-- The gate pre-activations of cell 1: the generated stage of the last addition, at row `n` and gate row `r`. -/
theorem gates1 (H : Mat 2048 1000)
    (hH : ∀ i, val_main_v47 (F := Ideal) x0 x1 x2 x3 x4 i = H (i 0) (i 1)) (n : Fin 2048) (r : Fin 4000) :
    val_main_v64 (F := Ideal) x0 x1 x2 x3 x4 (ix2 n r)
      = gate (rows3 x0) H (layer3 x1 1) (layer3 x2 1) (layer2 x3 1) (layer2 x4 1) n r := by
  have hn := n.isLt
  have hr := r.isLt
  -- the input rows: the reshape [2048,1,1000] → [2048,1000] read at (n, k)
  have e1 : ∀ k : Fin 1000, idx_main_v0 (lidx_main_v57 (ix2 n r) k) = ix3 n 0 k := fun k => funext fun a => Fin.ext (by
    have hk := k.isLt
    match a with
    | ⟨0, _⟩ => show (n.val * 1000 + k.val) / 1000 = n.val; omega
    | ⟨1, _⟩ => rfl
    | ⟨2, _⟩ => show (n.val * 1000 + k.val) % 1000 = k.val; omega)
  -- the transposed, reshaped slice of the input weights read at (k, r) is the stack at (1, r, k)
  have e2 : ∀ k : Fin 1000, idx_main_v48 (idx_main_v49 (idx_main_v56 (ridx_main_v57 (ix2 n r) k))) = ix3 1 r k := fun k => funext fun a => Fin.ext (by
    have hk := k.isLt
    match a with
    | ⟨0, _⟩ => rfl
    | ⟨1, _⟩ => show (r.val * 1000 + k.val) / 1000 % 4000 = r.val; omega
    | ⟨2, _⟩ => show (r.val * 1000 + k.val) % 1000 = k.val; omega)
  -- the same for the recurrent weights
  have e3 : ∀ k : Fin 1000, idx_main_v50 (idx_main_v51 (idx_main_v58 (ridx_main_v59 (ix2 n r) k))) = ix3 1 r k := fun k => funext fun a => Fin.ext (by
    have hk := k.isLt
    match a with
    | ⟨0, _⟩ => rfl
    | ⟨1, _⟩ => show (r.val * 1000 + k.val) / 1000 % 4000 = r.val; omega
    | ⟨2, _⟩ => show (r.val * 1000 + k.val) % 1000 = k.val; omega)
  -- the two biases, broadcast over the rows, read at (n, r), are the stacks at (1, r)
  have e4 : idx_main_v52 (idx_main_v53 (idx_main_v62 (idx_main_v63 (ix2 n r)))) = ix2 1 r := funext fun a => Fin.ext (by
    match a with
    | ⟨0, _⟩ => rfl
    | ⟨1, _⟩ => exact Nat.mod_eq_of_lt hr)
  have e5 : idx_main_v54 (idx_main_v55 (idx_main_v62 (idx_main_v63 (ix2 n r)))) = ix2 1 r := funext fun a => Fin.ext (by
    match a with
    | ⟨0, _⟩ => rfl
    | ⟨1, _⟩ => exact Nat.mod_eq_of_lt hr)
  rw [val_main_v64_apply, val_main_v60_apply, val_main_v57_apply, val_main_v59_apply, val_main_v63_apply,
    val_main_v62_apply, val_main_v61_apply, val_main_v53_apply, val_main_v52_apply, val_main_v55_apply,
    val_main_v54_apply, e4, e5]
  simp only [val_main_v0_apply, val_main_v56_apply, val_main_v49_apply, val_main_v48_apply, val_main_v58_apply,
    val_main_v51_apply, val_main_v50_apply, hH, e1, e2, e3, Ideal.addf_def]
  rfl

/-- The new cell state of cell 1 at row `n` and unit `j`, from the gate pre-activations `G` and the previous cell
    state: logistic (forget) * previous + logistic (input) * tanh (candidate). -/
theorem cellC1 (G : Fin 2048 → Fin 4000 → EReal) (C : Mat 2048 1000)
    (hC : ∀ i, val_main_v39 (F := Ideal) x0 x1 x2 x3 x4 i = C (i 0) (i 1))
    (hG : ∀ n r, val_main_v64 (F := Ideal) x0 x1 x2 x3 x4 (ix2 n r) = G n r) (n : Fin 2048) (j : Fin 1000) :
    val_main_v84 (F := Ideal) x0 x1 x2 x3 x4 (ix2 n j)
      = Ideal.logistic (G n (gpos 1 j)) * C n j + Ideal.logistic (G n (gpos 0 j)) * Ideal.tanh (G n (gpos 2 j)) := by
  -- the column blocks [0,1000), [1000,2000), [2000,3000) are gates 0, 1, 2
  have ei : idx_main_v65 (ix2 n j) = ix2 n (gpos 0 j) := funext fun a => Fin.ext (by
    match a with
    | ⟨0, _⟩ => rfl
    | ⟨1, _⟩ => show j.val = 0 * 1000 + j.val; omega)
  have ef : idx_main_v66 (ix2 n j) = ix2 n (gpos 1 j) := funext fun a => Fin.ext (by
    match a with
    | ⟨0, _⟩ => rfl
    | ⟨1, _⟩ => show 1000 + j.val = 1 * 1000 + j.val; omega)
  have eg : idx_main_v67 (ix2 n j) = ix2 n (gpos 2 j) := funext fun a => Fin.ext (by
    match a with
    | ⟨0, _⟩ => rfl
    | ⟨1, _⟩ => show 2000 + j.val = 2 * 1000 + j.val; omega)
  rw [val_main_v84_apply, val_main_v75_apply, val_main_v74_apply, val_main_v73_apply, val_main_cst_8_apply,
    val_main_v72_apply, val_main_v71_apply, val_main_cst_7_apply, val_main_v70_apply, val_main_v69_apply,
    val_main_v66_apply, val_main_v83_apply, val_main_v81_apply, val_main_v80_apply, val_main_cst_10_apply,
    val_main_v79_apply, val_main_v78_apply, val_main_cst_9_apply, val_main_v77_apply, val_main_v76_apply,
    val_main_v65_apply, val_main_v82_apply, val_main_v67_apply, hC, ei, ef, eg, hG, hG, hG,
    logistic_spell, logistic_spell]
  rfl

/-- The new hidden state of cell 1 at row `n` and unit `j`: logistic (output) * tanh (new cell state). -/
theorem cellH1 (G : Fin 2048 → Fin 4000 → EReal)
    (hG : ∀ n r, val_main_v64 (F := Ideal) x0 x1 x2 x3 x4 (ix2 n r) = G n r) (n : Fin 2048) (j : Fin 1000) :
    val_main_v92 (F := Ideal) x0 x1 x2 x3 x4 (ix2 n j)
      = Ideal.logistic (G n (gpos 3 j)) * Ideal.tanh (val_main_v84 (F := Ideal) x0 x1 x2 x3 x4 (ix2 n j)) := by
  -- the column block [3000,4000) is gate 3
  have eo : idx_main_v68 (ix2 n j) = ix2 n (gpos 3 j) := funext fun a => Fin.ext (by
    match a with
    | ⟨0, _⟩ => rfl
    | ⟨1, _⟩ => show 3000 + j.val = 3 * 1000 + j.val; omega)
  rw [val_main_v92_apply, val_main_v90_apply, val_main_v89_apply, val_main_cst_12_apply, val_main_v88_apply,
    val_main_v87_apply, val_main_cst_11_apply, val_main_v86_apply, val_main_v85_apply, val_main_v68_apply,
    val_main_v91_apply, eo, hG, logistic_spell]
  rfl

/-- Cell 1's cell-state stage is `cellC` of the input rows, the previous state and layer 1's weights and biases. -/
theorem layer1_c (H C : Mat 2048 1000)
    (hH : ∀ i, val_main_v47 (F := Ideal) x0 x1 x2 x3 x4 i = H (i 0) (i 1))
    (hC : ∀ i, val_main_v39 (F := Ideal) x0 x1 x2 x3 x4 i = C (i 0) (i 1)) (i : S2048x1000.Idx) :
    val_main_v84 (F := Ideal) x0 x1 x2 x3 x4 i
      = cellC (rows3 x0) H C (layer3 x1 1) (layer3 x2 1) (layer2 x3 1) (layer2 x4 1) (i 0) (i 1) := by
  obtain ⟨n, j, rfl⟩ : ∃ (n : Fin 2048) (j : Fin 1000), i = ix2 n j := ⟨i 0, i 1, eq_ix2 i⟩
  exact cellC1 x0 x1 x2 x3 x4 _ C hC (gates1 x0 x1 x2 x3 x4 H hH) n j

/-- Cell 1's hidden-state stage is `cellH` of the same. -/
theorem layer1_h (H C : Mat 2048 1000)
    (hH : ∀ i, val_main_v47 (F := Ideal) x0 x1 x2 x3 x4 i = H (i 0) (i 1))
    (hC : ∀ i, val_main_v39 (F := Ideal) x0 x1 x2 x3 x4 i = C (i 0) (i 1)) (i : S2048x1000.Idx) :
    val_main_v92 (F := Ideal) x0 x1 x2 x3 x4 i
      = cellH (rows3 x0) H C (layer3 x1 1) (layer3 x2 1) (layer2 x3 1) (layer2 x4 1) (i 0) (i 1) := by
  obtain ⟨n, j, rfl⟩ : ∃ (n : Fin 2048) (j : Fin 1000), i = ix2 n j := ⟨i 0, i 1, eq_ix2 i⟩
  rw [cellH1 x0 x1 x2 x3 x4 _ (gates1 x0 x1 x2 x3 x4 H hH) n j, layer1_c x0 x1 x2 x3 x4 H C hH hC (ix2 n j)]
  rfl

end Cert.RefNet

end
-- ==== Proof.RefNetL2.lean ====
/-
  Cell 2 of the reference, read at an index. Its operations, in the program's order: the slices of the two weight
  stacks and the two bias stacks at layer 2, the transposes, the two products (the input rows times the input weights,
  the previous hidden rows times the recurrent weights), their sum, the sum of the two biases broadcast over the rows,
  the four column blocks of 1000 (input, forget, candidate and output gate), three logistic functions spelled
  1 / (1 + exp (-g)), two hyperbolic tangents, and the two state updates. The previous hidden and cell arrays enter
  only through what they are at an index (`hH`, `hC`), so this cell is independent of the cells before it.
-/
import proofs.«123216_j20375324852351_2_alg».proof.Proof.RefNetBase

noncomputable section

open scoped BigOperators

namespace Cert.RefNet

open Idealize.ShloMosaic Idealize.ShloMosaic.ValueIdx Cert.Lstm Cert.ReferenceIdeal Cert.ReferenceIdeal.Gen Cert.ReferenceIdeal.Read

variable (x0 : (⟨S2048x1x1000, .f32⟩ : BufTy).Contents (Elt Ideal))
  (x1 x2 : (⟨S4x4000x1000, .f32⟩ : BufTy).Contents (Elt Ideal))
  (x3 x4 : (⟨S4x4000, .f32⟩ : BufTy).Contents (Elt Ideal))

/-- The gate pre-activations of cell 2: the generated stage of the last addition, at row `n` and gate row `r`. -/
theorem gates2 (H : Mat 2048 1000)
    (hH : ∀ i, val_main_v92 (F := Ideal) x0 x1 x2 x3 x4 i = H (i 0) (i 1)) (n : Fin 2048) (r : Fin 4000) :
    val_main_v109 (F := Ideal) x0 x1 x2 x3 x4 (ix2 n r)
      = gate (rows3 x0) H (layer3 x1 2) (layer3 x2 2) (layer2 x3 2) (layer2 x4 2) n r := by
  have hn := n.isLt
  have hr := r.isLt
  -- the input rows: the reshape [2048,1,1000] → [2048,1000] read at (n, k)
  have e1 : ∀ k : Fin 1000, idx_main_v0 (lidx_main_v102 (ix2 n r) k) = ix3 n 0 k := fun k => funext fun a => Fin.ext (by
    have hk := k.isLt
    match a with
    | ⟨0, _⟩ => show (n.val * 1000 + k.val) / 1000 = n.val; omega
    | ⟨1, _⟩ => rfl
    | ⟨2, _⟩ => show (n.val * 1000 + k.val) % 1000 = k.val; omega)
  -- the transposed, reshaped slice of the input weights read at (k, r) is the stack at (2, r, k)
  have e2 : ∀ k : Fin 1000, idx_main_v93 (idx_main_v94 (idx_main_v101 (ridx_main_v102 (ix2 n r) k))) = ix3 2 r k := fun k => funext fun a => Fin.ext (by
    have hk := k.isLt
    match a with
    | ⟨0, _⟩ => rfl
    | ⟨1, _⟩ => show (r.val * 1000 + k.val) / 1000 % 4000 = r.val; omega
    | ⟨2, _⟩ => show (r.val * 1000 + k.val) % 1000 = k.val; omega)
  -- the same for the recurrent weights
  have e3 : ∀ k : Fin 1000, idx_main_v95 (idx_main_v96 (idx_main_v103 (ridx_main_v104 (ix2 n r) k))) = ix3 2 r k := fun k => funext fun a => Fin.ext (by
    have hk := k.isLt
    match a with
    | ⟨0, _⟩ => rfl
    | ⟨1, _⟩ => show (r.val * 1000 + k.val) / 1000 % 4000 = r.val; omega
    | ⟨2, _⟩ => show (r.val * 1000 + k.val) % 1000 = k.val; omega)
  -- the two biases, broadcast over the rows, read at (n, r), are the stacks at (2, r)
  have e4 : idx_main_v97 (idx_main_v98 (idx_main_v107 (idx_main_v108 (ix2 n r)))) = ix2 2 r := funext fun a => Fin.ext (by
    match a with
    | ⟨0, _⟩ => rfl
    | ⟨1, _⟩ => exact Nat.mod_eq_of_lt hr)
  have e5 : idx_main_v99 (idx_main_v100 (idx_main_v107 (idx_main_v108 (ix2 n r)))) = ix2 2 r := funext fun a => Fin.ext (by
    match a with
    | ⟨0, _⟩ => rfl
    | ⟨1, _⟩ => exact Nat.mod_eq_of_lt hr)
  rw [val_main_v109_apply, val_main_v105_apply, val_main_v102_apply, val_main_v104_apply, val_main_v108_apply,
    val_main_v107_apply, val_main_v106_apply, val_main_v98_apply, val_main_v97_apply, val_main_v100_apply,
    val_main_v99_apply, e4, e5]
  simp only [val_main_v0_apply, val_main_v101_apply, val_main_v94_apply, val_main_v93_apply, val_main_v103_apply,
    val_main_v96_apply, val_main_v95_apply, hH, e1, e2, e3, Ideal.addf_def]
  rfl

/-- The new cell state of cell 2 at row `n` and unit `j`, from the gate pre-activations `G` and the previous cell
    state: logistic (forget) * previous + logistic (input) * tanh (candidate). -/
theorem cellC2 (G : Fin 2048 → Fin 4000 → EReal) (C : Mat 2048 1000)
    (hC : ∀ i, val_main_v84 (F := Ideal) x0 x1 x2 x3 x4 i = C (i 0) (i 1))
    (hG : ∀ n r, val_main_v109 (F := Ideal) x0 x1 x2 x3 x4 (ix2 n r) = G n r) (n : Fin 2048) (j : Fin 1000) :
    val_main_v129 (F := Ideal) x0 x1 x2 x3 x4 (ix2 n j)
      = Ideal.logistic (G n (gpos 1 j)) * C n j + Ideal.logistic (G n (gpos 0 j)) * Ideal.tanh (G n (gpos 2 j)) := by
  -- the column blocks [0,1000), [1000,2000), [2000,3000) are gates 0, 1, 2
  have ei : idx_main_v110 (ix2 n j) = ix2 n (gpos 0 j) := funext fun a => Fin.ext (by
    match a with
    | ⟨0, _⟩ => rfl
    | ⟨1, _⟩ => show j.val = 0 * 1000 + j.val; omega)
  have ef : idx_main_v111 (ix2 n j) = ix2 n (gpos 1 j) := funext fun a => Fin.ext (by
    match a with
    | ⟨0, _⟩ => rfl
    | ⟨1, _⟩ => show 1000 + j.val = 1 * 1000 + j.val; omega)
  have eg : idx_main_v112 (ix2 n j) = ix2 n (gpos 2 j) := funext fun a => Fin.ext (by
    match a with
    | ⟨0, _⟩ => rfl
    | ⟨1, _⟩ => show 2000 + j.val = 2 * 1000 + j.val; omega)
  rw [val_main_v129_apply, val_main_v120_apply, val_main_v119_apply, val_main_v118_apply, val_main_cst_14_apply,
    val_main_v117_apply, val_main_v116_apply, val_main_cst_13_apply, val_main_v115_apply, val_main_v114_apply,
    val_main_v111_apply, val_main_v128_apply, val_main_v126_apply, val_main_v125_apply, val_main_cst_16_apply,
    val_main_v124_apply, val_main_v123_apply, val_main_cst_15_apply, val_main_v122_apply, val_main_v121_apply,
    val_main_v110_apply, val_main_v127_apply, val_main_v112_apply, hC, ei, ef, eg, hG, hG, hG,
    logistic_spell, logistic_spell]
  rfl

/-- The new hidden state of cell 2 at row `n` and unit `j`: logistic (output) * tanh (new cell state). -/
theorem cellH2 (G : Fin 2048 → Fin 4000 → EReal)
    (hG : ∀ n r, val_main_v109 (F := Ideal) x0 x1 x2 x3 x4 (ix2 n r) = G n r) (n : Fin 2048) (j : Fin 1000) :
    val_main_v137 (F := Ideal) x0 x1 x2 x3 x4 (ix2 n j)
      = Ideal.logistic (G n (gpos 3 j)) * Ideal.tanh (val_main_v129 (F := Ideal) x0 x1 x2 x3 x4 (ix2 n j)) := by
  -- the column block [3000,4000) is gate 3
  have eo : idx_main_v113 (ix2 n j) = ix2 n (gpos 3 j) := funext fun a => Fin.ext (by
    match a with
    | ⟨0, _⟩ => rfl
    | ⟨1, _⟩ => show 3000 + j.val = 3 * 1000 + j.val; omega)
  rw [val_main_v137_apply, val_main_v135_apply, val_main_v134_apply, val_main_cst_18_apply, val_main_v133_apply,
    val_main_v132_apply, val_main_cst_17_apply, val_main_v131_apply, val_main_v130_apply, val_main_v113_apply,
    val_main_v136_apply, eo, hG, logistic_spell]
  rfl

/-- Cell 2's cell-state stage is `cellC` of the input rows, the previous state and layer 2's weights and biases. -/
theorem layer2_c (H C : Mat 2048 1000)
    (hH : ∀ i, val_main_v92 (F := Ideal) x0 x1 x2 x3 x4 i = H (i 0) (i 1))
    (hC : ∀ i, val_main_v84 (F := Ideal) x0 x1 x2 x3 x4 i = C (i 0) (i 1)) (i : S2048x1000.Idx) :
    val_main_v129 (F := Ideal) x0 x1 x2 x3 x4 i
      = cellC (rows3 x0) H C (layer3 x1 2) (layer3 x2 2) (layer2 x3 2) (layer2 x4 2) (i 0) (i 1) := by
  obtain ⟨n, j, rfl⟩ : ∃ (n : Fin 2048) (j : Fin 1000), i = ix2 n j := ⟨i 0, i 1, eq_ix2 i⟩
  exact cellC2 x0 x1 x2 x3 x4 _ C hC (gates2 x0 x1 x2 x3 x4 H hH) n j

/-- Cell 2's hidden-state stage is `cellH` of the same. -/
theorem layer2_h (H C : Mat 2048 1000)
    (hH : ∀ i, val_main_v92 (F := Ideal) x0 x1 x2 x3 x4 i = H (i 0) (i 1))
    (hC : ∀ i, val_main_v84 (F := Ideal) x0 x1 x2 x3 x4 i = C (i 0) (i 1)) (i : S2048x1000.Idx) :
    val_main_v137 (F := Ideal) x0 x1 x2 x3 x4 i
      = cellH (rows3 x0) H C (layer3 x1 2) (layer3 x2 2) (layer2 x3 2) (layer2 x4 2) (i 0) (i 1) := by
  obtain ⟨n, j, rfl⟩ : ∃ (n : Fin 2048) (j : Fin 1000), i = ix2 n j := ⟨i 0, i 1, eq_ix2 i⟩
  rw [cellH2 x0 x1 x2 x3 x4 _ (gates2 x0 x1 x2 x3 x4 H hH) n j, layer2_c x0 x1 x2 x3 x4 H C hH hC (ix2 n j)]
  rfl

end Cert.RefNet

end
-- ==== Proof.RefNetL3.lean ====
/-
  Cell 3 of the reference, read at an index. Its operations, in the program's order: the slices of the two weight
  stacks and the two bias stacks at layer 3, the transposes, the two products (the input rows times the input weights,
  the previous hidden rows times the recurrent weights), their sum, the sum of the two biases broadcast over the rows,
  the four column blocks of 1000 (input, forget, candidate and output gate), three logistic functions spelled
  1 / (1 + exp (-g)), two hyperbolic tangents, and the two state updates. The previous hidden and cell arrays enter
  only through what they are at an index (`hH`, `hC`), so this cell is independent of the cells before it.
-/
import proofs.«123216_j20375324852351_2_alg».proof.Proof.RefNetBase

noncomputable section

open scoped BigOperators

namespace Cert.RefNet

open Idealize.ShloMosaic Idealize.ShloMosaic.ValueIdx Cert.Lstm Cert.ReferenceIdeal Cert.ReferenceIdeal.Gen Cert.ReferenceIdeal.Read

variable (x0 : (⟨S2048x1x1000, .f32⟩ : BufTy).Contents (Elt Ideal))
  (x1 x2 : (⟨S4x4000x1000, .f32⟩ : BufTy).Contents (Elt Ideal))
  (x3 x4 : (⟨S4x4000, .f32⟩ : BufTy).Contents (Elt Ideal))

/-- The gate pre-activations of cell 3: the generated stage of the last addition, at row `n` and gate row `r`. -/
theorem gates3 (H : Mat 2048 1000)
    (hH : ∀ i, val_main_v137 (F := Ideal) x0 x1 x2 x3 x4 i = H (i 0) (i 1)) (n : Fin 2048) (r : Fin 4000) :
    val_main_v154 (F := Ideal) x0 x1 x2 x3 x4 (ix2 n r)
      = gate (rows3 x0) H (layer3 x1 3) (layer3 x2 3) (layer2 x3 3) (layer2 x4 3) n r := by
  have hn := n.isLt
  have hr := r.isLt
  -- the input rows: the reshape [2048,1,1000] → [2048,1000] read at (n, k)
  have e1 : ∀ k : Fin 1000, idx_main_v0 (lidx_main_v147 (ix2 n r) k) = ix3 n 0 k := fun k => funext fun a => Fin.ext (by
    have hk := k.isLt
    match a with
    | ⟨0, _⟩ => show (n.val * 1000 + k.val) / 1000 = n.val; omega
    | ⟨1, _⟩ => rfl
    | ⟨2, _⟩ => show (n.val * 1000 + k.val) % 1000 = k.val; omega)
  -- the transposed, reshaped slice of the input weights read at (k, r) is the stack at (3, r, k)
  have e2 : ∀ k : Fin 1000, idx_main_v138 (idx_main_v139 (idx_main_v146 (ridx_main_v147 (ix2 n r) k))) = ix3 3 r k := fun k => funext fun a => Fin.ext (by
    have hk := k.isLt
    match a with
    | ⟨0, _⟩ => rfl
    | ⟨1, _⟩ => show (r.val * 1000 + k.val) / 1000 % 4000 = r.val; omega
    | ⟨2, _⟩ => show (r.val * 1000 + k.val) % 1000 = k.val; omega)
  -- the same for the recurrent weights
  have e3 : ∀ k : Fin 1000, idx_main_v140 (idx_main_v141 (idx_main_v148 (ridx_main_v149 (ix2 n r) k))) = ix3 3 r k := fun k => funext fun a => Fin.ext (by
    have hk := k.isLt
    match a with
    | ⟨0, _⟩ => rfl
    | ⟨1, _⟩ => show (r.val * 1000 + k.val) / 1000 % 4000 = r.val; omega
    | ⟨2, _⟩ => show (r.val * 1000 + k.val) % 1000 = k.val; omega)
  -- the two biases, broadcast over the rows, read at (n, r), are the stacks at (3, r)
  have e4 : idx_main_v142 (idx_main_v143 (idx_main_v152 (idx_main_v153 (ix2 n r)))) = ix2 3 r := funext fun a => Fin.ext (by
    match a with
    | ⟨0, _⟩ => rfl
    | ⟨1, _⟩ => exact Nat.mod_eq_of_lt hr)
  have e5 : idx_main_v144 (idx_main_v145 (idx_main_v152 (idx_main_v153 (ix2 n r)))) = ix2 3 r := funext fun a => Fin.ext (by
    match a with
    | ⟨0, _⟩ => rfl
    | ⟨1, _⟩ => exact Nat.mod_eq_of_lt hr)
  rw [val_main_v154_apply, val_main_v150_apply, val_main_v147_apply, val_main_v149_apply, val_main_v153_apply,
    val_main_v152_apply, val_main_v151_apply, val_main_v143_apply, val_main_v142_apply, val_main_v145_apply,
    val_main_v144_apply, e4, e5]
  simp only [val_main_v0_apply, val_main_v146_apply, val_main_v139_apply, val_main_v138_apply, val_main_v148_apply,
    val_main_v141_apply, val_main_v140_apply, hH, e1, e2, e3, Ideal.addf_def]
  rfl

/-- The new cell state of cell 3 at row `n` and unit `j`, from the gate pre-activations `G` and the previous cell
    state: logistic (forget) * previous + logistic (input) * tanh (candidate). -/
theorem cellC3 (G : Fin 2048 → Fin 4000 → EReal) (C : Mat 2048 1000)
    (hC : ∀ i, val_main_v129 (F := Ideal) x0 x1 x2 x3 x4 i = C (i 0) (i 1))
    (hG : ∀ n r, val_main_v154 (F := Ideal) x0 x1 x2 x3 x4 (ix2 n r) = G n r) (n : Fin 2048) (j : Fin 1000) :
    val_main_v174 (F := Ideal) x0 x1 x2 x3 x4 (ix2 n j)
      = Ideal.logistic (G n (gpos 1 j)) * C n j + Ideal.logistic (G n (gpos 0 j)) * Ideal.tanh (G n (gpos 2 j)) := by
  -- the column blocks [0,1000), [1000,2000), [2000,3000) are gates 0, 1, 2
  have ei : idx_main_v155 (ix2 n j) = ix2 n (gpos 0 j) := funext fun a => Fin.ext (by
    match a with
    | ⟨0, _⟩ => rfl
    | ⟨1, _⟩ => show j.val = 0 * 1000 + j.val; omega)
  have ef : idx_main_v156 (ix2 n j) = ix2 n (gpos 1 j) := funext fun a => Fin.ext (by
    match a with
    | ⟨0, _⟩ => rfl
    | ⟨1, _⟩ => show 1000 + j.val = 1 * 1000 + j.val; omega)
  have eg : idx_main_v157 (ix2 n j) = ix2 n (gpos 2 j) := funext fun a => Fin.ext (by
    match a with
    | ⟨0, _⟩ => rfl
    | ⟨1, _⟩ => show 2000 + j.val = 2 * 1000 + j.val; omega)
  rw [val_main_v174_apply, val_main_v165_apply, val_main_v164_apply, val_main_v163_apply, val_main_cst_20_apply,
    val_main_v162_apply, val_main_v161_apply, val_main_cst_19_apply, val_main_v160_apply, val_main_v159_apply,
    val_main_v156_apply, val_main_v173_apply, val_main_v171_apply, val_main_v170_apply, val_main_cst_22_apply,
    val_main_v169_apply, val_main_v168_apply, val_main_cst_21_apply, val_main_v167_apply, val_main_v166_apply,
    val_main_v155_apply, val_main_v172_apply, val_main_v157_apply, hC, ei, ef, eg, hG, hG, hG,
    logistic_spell, logistic_spell]
  rfl

/-- The new hidden state of cell 3 at row `n` and unit `j`: logistic (output) * tanh (new cell state). -/
theorem cellH3 (G : Fin 2048 → Fin 4000 → EReal)
    (hG : ∀ n r, val_main_v154 (F := Ideal) x0 x1 x2 x3 x4 (ix2 n r) = G n r) (n : Fin 2048) (j : Fin 1000) :
    val_main_v182 (F := Ideal) x0 x1 x2 x3 x4 (ix2 n j)
      = Ideal.logistic (G n (gpos 3 j)) * Ideal.tanh (val_main_v174 (F := Ideal) x0 x1 x2 x3 x4 (ix2 n j)) := by
  -- the column block [3000,4000) is gate 3
  have eo : idx_main_v158 (ix2 n j) = ix2 n (gpos 3 j) := funext fun a => Fin.ext (by
    match a with
    | ⟨0, _⟩ => rfl
    | ⟨1, _⟩ => show 3000 + j.val = 3 * 1000 + j.val; omega)
  rw [val_main_v182_apply, val_main_v180_apply, val_main_v179_apply, val_main_cst_24_apply, val_main_v178_apply,
    val_main_v177_apply, val_main_cst_23_apply, val_main_v176_apply, val_main_v175_apply, val_main_v158_apply,
    val_main_v181_apply, eo, hG, logistic_spell]
  rfl

/-- Cell 3's cell-state stage is `cellC` of the input rows, the previous state and layer 3's weights and biases. -/
theorem layer3_c (H C : Mat 2048 1000)
    (hH : ∀ i, val_main_v137 (F := Ideal) x0 x1 x2 x3 x4 i = H (i 0) (i 1))
    (hC : ∀ i, val_main_v129 (F := Ideal) x0 x1 x2 x3 x4 i = C (i 0) (i 1)) (i : S2048x1000.Idx) :
    val_main_v174 (F := Ideal) x0 x1 x2 x3 x4 i
      = cellC (rows3 x0) H C (layer3 x1 3) (layer3 x2 3) (layer2 x3 3) (layer2 x4 3) (i 0) (i 1) := by
  obtain ⟨n, j, rfl⟩ : ∃ (n : Fin 2048) (j : Fin 1000), i = ix2 n j := ⟨i 0, i 1, eq_ix2 i⟩
  exact cellC3 x0 x1 x2 x3 x4 _ C hC (gates3 x0 x1 x2 x3 x4 H hH) n j

/-- Cell 3's hidden-state stage is `cellH` of the same. -/
theorem layer3_h (H C : Mat 2048 1000)
    (hH : ∀ i, val_main_v137 (F := Ideal) x0 x1 x2 x3 x4 i = H (i 0) (i 1))
    (hC : ∀ i, val_main_v129 (F := Ideal) x0 x1 x2 x3 x4 i = C (i 0) (i 1)) (i : S2048x1000.Idx) :
    val_main_v182 (F := Ideal) x0 x1 x2 x3 x4 i
      = cellH (rows3 x0) H C (layer3 x1 3) (layer3 x2 3) (layer2 x3 3) (layer2 x4 3) (i 0) (i 1) := by
  obtain ⟨n, j, rfl⟩ : ∃ (n : Fin 2048) (j : Fin 1000), i = ix2 n j := ⟨i 0, i 1, eq_ix2 i⟩
  rw [cellH3 x0 x1 x2 x3 x4 _ (gates3 x0 x1 x2 x3 x4 H hH) n j, layer3_c x0 x1 x2 x3 x4 H C hH hC (ix2 n j)]
  rfl

end Cert.RefNet

end
-- ==== Proof.RefNet.lean ====
/-
  The reference program is the four-cell network. The generated read-back of the reference's result is its last stage;
  cell 0 starts from the two broadcast zero constants, which are the zero state; each later cell takes the previous
  cell's hidden and cell stages; the result is the last hidden stage reshaped to [2048,1,1000] and clamped below at
  zero against a broadcast zero constant.
-/
import proofs.«123216_j20375324852351_2_alg».proof.Proof.RefNetL0
import proofs.«123216_j20375324852351_2_alg».proof.Proof.RefNetL1
import proofs.«123216_j20375324852351_2_alg».proof.Proof.RefNetL2
import proofs.«123216_j20375324852351_2_alg».proof.Proof.RefNetL3

noncomputable section

open scoped BigOperators

namespace Cert.RefNet

open Idealize.ShloMosaic Idealize.ShloMosaic.ValueIdx Cert.Lstm Cert.ReferenceIdeal Cert.ReferenceIdeal.Gen Cert.ReferenceIdeal.Read

variable (x0 : (⟨S2048x1x1000, .f32⟩ : BufTy).Contents (Elt Ideal))
  (x1 x2 : (⟨S4x4000x1000, .f32⟩ : BufTy).Contents (Elt Ideal))
  (x3 x4 : (⟨S4x4000, .f32⟩ : BufTy).Contents (Elt Ideal))

/-- The broadcast zero constant the first cell takes as its hidden state is the zero state. -/
theorem zero_h (i : S2048x1000.Idx) : val_main_v1 (F := Ideal) i = (zeroM : Mat 2048 1000) (i 0) (i 1) := by
  rw [val_main_v1_apply, val_main_cst_apply]
  exact zero_word

/-- The broadcast zero constant the first cell takes as its cell state is the zero state. -/
theorem zero_c (i : S2048x1000.Idx) : val_main_v2 (F := Ideal) i = (zeroM : Mat 2048 1000) (i 0) (i 1) := by
  rw [val_main_v2_apply, val_main_cst_0_apply]
  exact zero_word

/-- The generated read-back of the reference's result is the network of the argument arrays. -/
theorem reference_eq :
    Cert.ReferenceIdeal.Read.val_main_v184 (F := Ideal) x0 x1 x2 x3 x4
      = fun i => Cert.Lstm.net (Cert.Lstm.rows3 x0) (Cert.Lstm.layer3 x1) (Cert.Lstm.layer3 x2) (Cert.Lstm.layer2 x3)
          (Cert.Lstm.layer2 x4) (i 0) (i 2) := by
  funext i
  obtain ⟨n, z, j, rfl⟩ : ∃ (n : Fin 2048) (z : Fin 1) (j : Fin 1000), i = ix3 n z j := ⟨i 0, i 1, i 2, eq_ix3 i⟩
  -- the final reshape [2048,1000] → [2048,1,1000] read at (n, z, j) reads (n, j)
  have er : idx_main_v183 (ix3 n z j) = ix2 n j := funext fun a => Fin.ext (by
    have hn := n.isLt
    have hz := z.isLt
    have hj := j.isLt
    match a with
    | ⟨0, _⟩ => show ((n.val * 1 + z.val) * 1000 + j.val) / 1000 = n.val; omega
    | ⟨1, _⟩ => show ((n.val * 1 + z.val) * 1000 + j.val) % 1000 = j.val; omega)
  -- the four cells, each from the one before
  have h0 := layer0_h x0 x1 x2 x3 x4 zeroM zeroM zero_h zero_c
  have c0 := layer0_c x0 x1 x2 x3 x4 zeroM zeroM zero_h zero_c
  have h1 := layer1_h x0 x1 x2 x3 x4 _ _ h0 c0
  have c1 := layer1_c x0 x1 x2 x3 x4 _ _ h0 c0
  have h2 := layer2_h x0 x1 x2 x3 x4 _ _ h1 c1
  have c2 := layer2_c x0 x1 x2 x3 x4 _ _ h1 c1
  have h3 := layer3_h x0 x1 x2 x3 x4 _ _ h2 c2
  rw [val_main_v184_apply, val_main_v183_apply, val_main_call0_v0_apply, val_main_call0_cst_apply, er, h3, zero_word]
  rfl

end Cert.RefNet

end
-- ==== Proof.Bridge.lean ====
/-
  The two programs compute one function.

  The kernel program's run ends with its result buffer at the stack of four cells of the argument arrays (the kernel's
  fold read launch by launch), and the reference's run ends with its result at the same stack (its host operations read
  one at a time); started from memories that agree on the arguments, the two results are equal as extended reals, index
  by index. Nothing here uses that the inputs are finite: every step is an identity of the extended reals.
-/
import proofs.«123216_j20375324852351_2_alg».proof.Defs
import proofs.«123216_j20375324852351_2_alg».proof.Proof.NamedRun
import proofs.«123216_j20375324852351_2_alg».proof.Proof.KernelNet
import proofs.«123216_j20375324852351_2_alg».proof.Proof.RefNet
import proofs.«123216_j20375324852351_2_alg».proof.Proof.Gen.KernelIdeal
import proofs.«123216_j20375324852351_2_alg».proof.Proof.Gen.ReferenceIdeal
import proofs.«123216_j20375324852351_2_alg».proof.Proof.Gen.Pre_finite_inputs

set_option maxRecDepth 16384

noncomputable section

namespace Cert.Bridge

open Idealize.ShloMosaic Idealize.ShloMosaic.TcCoe Idealize.SL.Sem

/-- At the ideal instance the kernel program and the reference, run from memories agreeing on the arguments, both end
    with the stack of cells of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun i => Cert.Lstm.net (Cert.KernelNet.X m c) (Cert.KernelNet.Wih m c) (Cert.KernelNet.Whh m c)
      (Cert.KernelNet.Bih m c) (Cert.KernelNet.Bhh m c) (i 0) (i 2) : Cert.KernelIdeal.S2048x1x1000.Idx → EReal), ?_, ?_⟩
  · exact (θ_run Cert.KernelIdeal.defs _ _).mono
      (fun r h c => ⟨(h c).1.trans (Cert.KernelNet.kernel_value m ρ c), (h c).2⟩)
      (Cert.KernelRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v184_eq, Cert.RefNet.reference_eq,
      (hagree c).1, (hagree c).2.1, (hagree c).2.2.1, (hagree c).2.2.2.1, (hagree c).2.2.2.2]

end Cert.Bridge

end
-- ==== Proof.lean ====
/- A four-layer LSTM whose state is reset at every row, as four kernel launches over zero-padded data, against its plain
   reference: the three programs run (the word-level kernel, the idealized kernel, the idealized reference), the
   idealization rewrote nothing, and on the extended reals the idealized kernel and the reference end with equal results.
   The mathematics is in LstmCell.lean (the cell and its padded form) and PaddedCell.lean (they agree at the real units);
   KernelNet.lean reads the kernel program launch by launch, RefNet.lean the reference operation by operation, and
   Bridge.lean puts the two runs side by side. -/
import proofs.«123216_j20375324852351_2_alg».proof.Defs
import proofs.«123216_j20375324852351_2_alg».proof.Proof.Gen.Kernel
import proofs.«123216_j20375324852351_2_alg».proof.Proof.Gen.Kernel.Skeleton
import proofs.«123216_j20375324852351_2_alg».proof.Proof.Gen.Kernel.Launch
import proofs.«123216_j20375324852351_2_alg».proof.Proof.Gen.Kernel.Points
import proofs.«123216_j20375324852351_2_alg».proof.Proof.Gen.Kernel.Frame
import proofs.«123216_j20375324852351_2_alg».proof.Proof.Gen.KernelIdeal
import proofs.«123216_j20375324852351_2_alg».proof.Proof.Gen.KernelIdeal.Skeleton
import proofs.«123216_j20375324852351_2_alg».proof.Proof.Gen.KernelIdeal.Launch
import proofs.«123216_j20375324852351_2_alg».proof.Proof.Gen.KernelIdeal.Points
import proofs.«123216_j20375324852351_2_alg».proof.Proof.Gen.KernelIdeal.Frame
import proofs.«123216_j20375324852351_2_alg».proof.Proof.Gen.ReferenceIdeal
import proofs.«123216_j20375324852351_2_alg».proof.Proof.Gen.Pre_finite_inputs
import proofs.«123216_j20375324852351_2_alg».proof.Proof.RefRun
import proofs.«123216_j20375324852351_2_alg».proof.Proof.Bridge
import Idealize.ShloMosaic.Adequacy
import Idealize.ShloMosaic.Init

noncomputable section

namespace Cert.Proof

open Idealize.ShloMosaic Idealize.SL.Sem Cert.Kernel

/-- The reference has no kernel launch: its frame is its run with the result forgotten. -/
theorem frame_reference : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  Cert.Bridge.algebraic⟩

end Cert.Proof

end
